-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x64 : Shape := ⟨2, ![65536, 64]⟩
abbrev S512x64 : Shape := ⟨2, ![512, 64]⟩
abbrev S512 : Shape := ⟨1, ![512]⟩
abbrev S512x512 : Shape := ⟨2, ![512, 512]⟩
abbrev S1x512 : Shape := ⟨2, ![1, 512]⟩
abbrev S1x64 : Shape := ⟨2, ![1, 64]⟩
abbrev S_ : Shape := ⟨0, ![]⟩

class Facts : Prop where
  bcast_S_S65536x64 : S_.BroadcastsInDim S65536x64 (![] : Fin 0 → Fin S65536x64.rank)
  reducesTo_S65536x64_S_d0_1 : S65536x64.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S1x512 : S_.BroadcastsInDim S1x512 (![] : Fin 0 → Fin S1x512.rank)
  reducesTo_S1x512_S_d0_1 : S1x512.ReducesTo [0, 1] S_
  bcast_S_S1x64 : S_.BroadcastsInDim S1x64 (![] : Fin 0 → Fin S1x64.rank)
  reducesTo_S1x64_S_d0_1 : S1x64.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S512x64 .f32) (main_arg12 : FVec F S512 .f32) (main_arg13 : FVec F S1x64 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x64 .f32 := Host.absf main_arg11
  let main_cst_20 : FVec F S_ .f32 := constant S_ .f32 0x7F800000#32
  let main_v55 : FVec F S512x64 .f32 := broadcastInDim S512x64 ![] bcast_S_S512x64 main_cst_20
  let main_v56 : IVec S512x64 1 := cmpf .olt main_v54 main_v55
  let main_c_21 : IVec S_ 1 := constantI S_ 1 1#1
  let main_v57 : IVec S_ 1 := (fun x v => Host.reduce IntOp.andi x v reducesTo_S512x64_S_d0_1 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S1x64 .f32 := Host.absf main_arg13
  let main_cst_24 : FVec F S_ .f32 := constant S_ .f32 0x7F800000#32
  let main_v65 : FVec F S1x64 .f32 := broadcastInDim S1x64 ![] bcast_S_S1x64 main_cst_24
  let main_v66 : IVec S1x64 1 := cmpf .olt main_v64 main_v65
  let main_c_25 : IVec S_ 1 := constantI S_ 1 1#1
  let main_v67 : IVec S_ 1 := (fun x v => Host.reduce IntOp.andi x v reducesTo_S1x64_S_d0_1 h_S_) main_v66 main_c_25
  fn_part4 (F := F) main_v63 main_v67

def fn_part2 {F : FTy → Type} [FloatOps F] (main_arg7 : FVec F S512x64 .f32) (main_arg8 : FVec F S512 .f32) (main_arg9 : FVec F S512x64 .f32) (main_arg10 : FVec F S512 .f32) (main_arg11 : FVec F S512x64 .f32) (main_arg12 : FVec F S512 .f32) (main_arg13 : FVec F S1x64 .f32) (main_v33 : IVec S_ 1) : IVec S_ 1 :=
  let main_v34 : FVec F S512x64 .f32 := Host.absf main_arg7
  let main_cst_12 : FVec F S_ .f32 := constant S_ .f32 0x7F800000#32
  let main_v35 : FVec F S512x64 .f32 := broadcastInDim S512x64 ![] bcast_S_S512x64 main_cst_12
  let main_v36 : IVec S512x64 1 := cmpf .olt main_v34 main_v35
  let main_c_13 : IVec S_ 1 := constantI S_ 1 1#1
  let main_v37 : IVec S_ 1 := (fun x v => Host.reduce IntOp.andi x v reducesTo_S512x64_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x64 .f32 := Host.absf main_arg9
  let main_cst_16 : FVec F S_ .f32 := constant S_ .f32 0x7F800000#32
  let main_v45 : FVec F S512x64 .f32 := broadcastInDim S512x64 ![] bcast_S_S512x64 main_cst_16
  let main_v46 : IVec S512x64 1 := cmpf .olt main_v44 main_v45
  let main_c_17 : IVec S_ 1 := constantI S_ 1 1#1
  let main_v47 : IVec S_ 1 := (fun x v => Host.reduce IntOp.andi x v reducesTo_S512x64_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_arg13 main_v48 main_v49 main_v50

def fn_part1 {F : FTy → Type} [FloatOps F] (main_arg4 : FVec F S512x512 .f32) (main_arg5 : FVec F S512x512 .f32) (main_arg6 : FVec F S1x512 .f32) (main_arg7 : FVec F S512x64 .f32) (main_arg8 : FVec F S512 .f32) (main_arg9 : FVec F S512x64 .f32) (main_arg10 : FVec F S512 .f32) (main_arg11 : FVec F S512x64 .f32) (main_arg12 : FVec F S512 .f32) (main_arg13 : FVec F S1x64 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S1x512 .f32 := Host.absf main_arg6
  let main_cst_10 : FVec F S_ .f32 := constant S_ .f32 0x7F800000#32
  let main_v30 : FVec F S1x512 .f32 := broadcastInDim S1x512 ![] bcast_S_S1x512 main_cst_10
  let main_v31 : IVec S1x512 1 := cmpf .olt main_v29 main_v30
  let main_c_11 : IVec S_ 1 := constantI S_ 1 1#1
  let main_v32 : IVec S_ 1 := (fun x v => Host.reduce IntOp.andi x v reducesTo_S1x512_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S65536x64 .f32) (main_arg1 : FVec F S512x64 .f32) (main_arg2 : FVec F S512 .f32) (main_arg3 : FVec F S512x512 .f32) (main_arg4 : FVec F S512x512 .f32) (main_arg5 : FVec F S512x512 .f32) (main_arg6 : FVec F S1x512 .f32) (main_arg7 : FVec F S512x64 .f32) (main_arg8 : FVec F S512 .f32) (main_arg9 : FVec F S512x64 .f32) (main_arg10 : FVec F S512 .f32) (main_arg11 : FVec F S512x64 .f32) (main_arg12 : FVec F S512 .f32) (main_arg13 : FVec F S1x64 .f32) : IVec S_ 1 :=
  let main_v0 : FVec F S65536x64 .f32 := Host.absf main_arg0
  let main_cst : FVec F S_ .f32 := constant S_ .f32 0x7F800000#32
  let main_v1 : FVec F S65536x64 .f32 := broadcastInDim S65536x64 ![] bcast_S_S65536x64 main_cst
  let main_v2 : IVec S65536x64 1 := cmpf .olt main_v0 main_v1
  let main_c : IVec S_ 1 := constantI S_ 1 1#1
  let main_v3 : IVec S_ 1 := (fun x v => Host.reduce IntOp.andi x v reducesTo_S65536x64_S_d0_1 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_arg11 main_arg12 main_arg13 main_v13 main_v16
-- ==== Kernel.lean ====
abbrev S65536x64 : Shape := ⟨2, ![65536, 64]⟩
abbrev S512x64 : Shape := ⟨2, ![512, 64]⟩
abbrev S512 : Shape := ⟨1, ![512]⟩
abbrev S512x512 : Shape := ⟨2, ![512, 512]⟩
abbrev S1x512 : Shape := ⟨2, ![1, 512]⟩
abbrev S1x64 : Shape := ⟨2, ![1, 64]⟩
abbrev S1024x64 : Shape := ⟨2, ![1024, 64]⟩
abbrev S64x512 : Shape := ⟨2, ![64, 512]⟩
abbrev S1024x512 : Shape := ⟨2, ![1024, 512]⟩

abbrev nBuf : Space → Nat
  | .hbm => 19
  | .vmem => 17
  | .smem => 0
  | _ => 0

abbrev bufTy : (tb : Table) → Fin (tcTables nBuf tb) → BufTy
  | .hbm, ⟨0, _⟩ => ⟨S65536x64, .f32⟩
  | .hbm, ⟨1, _⟩ => ⟨S512x64, .f32⟩
  | .hbm, ⟨2, _⟩ => ⟨S512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S1x512, .f32⟩
  | .hbm, ⟨7, _⟩ => ⟨S512x64, .f32⟩
  | .hbm, ⟨8, _⟩ => ⟨S512, .f32⟩
  | .hbm, ⟨9, _⟩ => ⟨S512x64, .f32⟩
  | .hbm, ⟨10, _⟩ => ⟨S512, .f32⟩
  | .hbm, ⟨11, _⟩ => ⟨S512x64, .f32⟩
  | .hbm, ⟨12, _⟩ => ⟨S512, .f32⟩
  | .hbm, ⟨13, _⟩ => ⟨S1x64, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S65536x64, .f32⟩
  | .local _ .vmem, ⟨0, _⟩ => ⟨S1024x64, .f32⟩
  | .local _ .vmem, ⟨1, _⟩ => ⟨S1024x64, .f32⟩
  | .local _ .vmem, ⟨2, _⟩ => ⟨S512x64, .f32⟩
  | .local _ .vmem, ⟨3, _⟩ => ⟨S1x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S1x512, .f32⟩
  | .local _ .vmem, ⟨8, _⟩ => ⟨S512x64, .f32⟩
  | .local _ .vmem, ⟨9, _⟩ => ⟨S1x512, .f32⟩
  | .local _ .vmem, ⟨10, _⟩ => ⟨S512x64, .f32⟩
  | .local _ .vmem, ⟨11, _⟩ => ⟨S1x512, .f32⟩
  | .local _ .vmem, ⟨12, _⟩ => ⟨S512x64, .f32⟩
  | .local _ .vmem, ⟨13, _⟩ => ⟨S1x512, .f32⟩
  | .local _ .vmem, ⟨14, _⟩ => ⟨S1x64, .f32⟩
  | .local _ .vmem, ⟨15, _⟩ => ⟨S1024x64, .f32⟩
  | .local _ .vmem, ⟨16, _⟩ => ⟨S1024x64, .f32⟩
  | _, _ => ⟨S65536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1024x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  shapeCasts_S512_S1x512 : S512.ShapeCasts S1x512
  inb_S1024x64_S1024x64_0_0 : ∀ a, (![0, 0] : Fin 2 → Nat) a + S1024x64.size a ≤ S1024x64.size a
  h_S1024x64 : 0 < S1024x64.numel
  inb_S512x64_S512x64_0_0 : ∀ a, (![0, 0] : Fin 2 → Nat) a + S512x64.size a ≤ S512x64.size a
  h_S512x64 : 0 < S512x64.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  inb_S1x64_S1x64_0_0 : ∀ a, (![0, 0] : Fin 2 → Nat) a + S1x64.size a ≤ S1x64.size a
  h_S1x64 : 0 < S1x64.numel
  shapeCasts_S1x512_S1x512 : S1x512.ShapeCasts S1x512
  transposes_S512x64_p1_0_S64x512 : S512x64.Transposes [1, 0] S64x512
  broadcasts_S1x512_S1024x512 : S1x512.Broadcasts S1024x512
  transposes_S512x512_p1_0_S512x512 : S512x512.Transposes [1, 0] S512x512
  broadcasts_S1x64_S1024x64 : S1x64.Broadcasts S1024x64
  dot_S1024x64_S64x512_S1024x512_1_0_0_1_n_n_wf : DotDims.WF S1024x64 S64x512 S1024x512 [1] [0] [0] [1] [] []
  dot_S1024x512_S512x512_S1024x512_1_0_0_1_n_n_wf : DotDims.WF S1024x512 S512x512 S1024x512 [1] [0] [0] [1] [] []
  dot_S1024x512_S512x64_S1024x64_1_0_0_1_n_n_wf : DotDims.WF S1024x512 S512x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S65536x64.size a
  hwx0_0 : ∀ i : grid0.Coords, EltTy.bits .f32 = 32 ∨ (Rect.block (s := S65536x64) S1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x64.size a ≤ S512x64.size a
  hwx0_7 : ∀ i : grid0.Coords, EltTy.bits .f32 = 32 ∨ (Rect.block (s := S512x64) S512x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x64.size a ≤ S512x64.size a
  hwx0_9 : ∀ i : grid0.Coords, EltTy.bits .f32 = 32 ∨ (Rect.block (s := S512x64) S512x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x512.size a
  hwx0_10 : ∀ i : grid0.Coords, EltTy.bits .f32 = 32 ∨ (Rect.block (s := S1x512) S1x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512x64.size a ≤ S512x64.size a
  hwx0_11 : ∀ i : grid0.Coords, EltTy.bits .f32 = 32 ∨ (Rect.block (s := S512x64) S512x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x512.size a ≤ S1x512.size a
  hwx0_12 : ∀ i : grid0.Coords, EltTy.bits .f32 = 32 ∨ (Rect.block (s := S1x512) S1x512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x64.size a ≤ S1x64.size a
  hwx0_13 : ∀ i : grid0.Coords, EltTy.bits .f32 = 32 ∨ (Rect.block (s := S1x64) S1x64.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1024x64.size a ≤ S65536x64.size a
  hwx0_14 : ∀ i : grid0.Coords, EltTy.bits .f32 = 32 ∨ (Rect.block (s := S65536x64) S1024x64.size (cc0_transform_14 i) (hinb0_14 i)).WholeWords (EltTy.packing .f32)

variable [Facts₀]

def dot_S1024x64_S64x512_S1024x512_1_0_0_1_n_n : DotDims S1024x64 S64x512 S1024x512 where
  lhsContracting := [1]
  rhsContracting := [0]
  lhsNonContracting := [0]
  rhsNonContracting := [1]
  lhsBatch := []
  rhsBatch := []
  wf := dot_S1024x64_S64x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v1) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S512x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v2) S1x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S512x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v3) S1x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S1x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v4) S1024x64.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S65536x64 : Shape := ⟨2, ![65536, 64]⟩
abbrev S512x64 : Shape := ⟨2, ![512, 64]⟩
abbrev S512 : Shape := ⟨1, ![512]⟩
abbrev S512x512 : Shape := ⟨2, ![512, 512]⟩
abbrev S1x512 : Shape := ⟨2, ![1, 512]⟩
abbrev S1x64 : Shape := ⟨2, ![1, 64]⟩
abbrev S_ : Shape := ⟨0, ![]⟩
abbrev S64x512 : Shape := ⟨2, ![64, 512]⟩
abbrev S65536x512 : Shape := ⟨2, ![65536, 512]⟩
abbrev S512x1 : Shape := ⟨2, ![512, 1]⟩
abbrev S65536x1 : Shape := ⟨2, ![65536, 1]⟩
abbrev S64x1 : Shape := ⟨2, ![64, 1]⟩

abbrev nBuf : Space → Nat
  | .hbm => 256
  | .vmem => 0
  | .smem => 0
  | _ => 0

abbrev hbmTy0_0 (i : Nat) : BufTy := match i % 128 with
  | 0 => ⟨S65536x64, .f32⟩
  | 1 => ⟨S512x64, .f32⟩
  | 2 => ⟨S512, .f32⟩
  | 3 => ⟨S512x512, .f32⟩
  | 4 => ⟨S512x512, .f32⟩
  | 5 => ⟨S512x512, .f32⟩
  | 6 => ⟨S1x512, .f32⟩
  | 7 => ⟨S512x64, .f32⟩
  | 8 => ⟨S512, .f32⟩
  | 9 => ⟨S512x64, .f32⟩
  | 10 => ⟨S512, .f32⟩
  | 11 => ⟨S512x64, .f32⟩
  | 12 => ⟨S512, .f32⟩
  | 13 => ⟨S1x64, .f32⟩
  | 14 => ⟨S_, .f32⟩
  | 15 => ⟨S65536x64, .f32⟩
  | 16 => ⟨S65536x64, .f32⟩
  | 17 => ⟨S64x512, .f32⟩
  | 18 => ⟨S65536x512, .f32⟩
  | 19 => ⟨S1x512, .f32⟩
  | 20 => ⟨S65536x512, .f32⟩
  | 21 => ⟨S65536x512, .f32⟩
  | 22 => ⟨S_, .f32⟩
  | 23 => ⟨S65536x512, .f32⟩
  | 24 => ⟨S65536x512, .f32⟩
  | 25 => ⟨S65536x512, .f32⟩
  | 26 => ⟨S65536x512, .f32⟩
  | 27 => ⟨S65536x512, .i1⟩
  | 28 => ⟨S65536x512, .f32⟩
  | 29 => ⟨S65536x512, .f32⟩
  | 30 => ⟨S65536x512, .f32⟩
  | 31 => ⟨S65536x512, .f32⟩
  | 32 => ⟨S65536x512, .f32⟩
  | 33 => ⟨S65536x512, .f32⟩
  | 34 => ⟨S65536x512, .f32⟩
  | 35 => ⟨S65536x512, .f32⟩
  | 36 => ⟨S_, .f32⟩
  | 37 => ⟨S65536x512, .f32⟩
  | 38 => ⟨S65536x512, .i1⟩
  | 39 => ⟨S_, .f32⟩
  | 40 => ⟨S65536x512, .f32⟩
  | 41 => ⟨S65536x512, .f32⟩
  | 42 => ⟨S_, .f32⟩
  | 43 => ⟨S65536x512, .f32⟩
  | 44 => ⟨S65536x512, .i1⟩
  | 45 => ⟨S_, .f32⟩
  | 46 => ⟨S65536x512, .f32⟩
  | 47 => ⟨S65536x512, .f32⟩
  | 48 => ⟨S65536x512, .f32⟩
  | 49 => ⟨S65536x512, .f32⟩
  | 50 => ⟨S_, .f32⟩
  | 51 => ⟨S_, .f32⟩
  | 52 => ⟨S_, .i1⟩
  | 53 => ⟨S_, .f32⟩
  | 54 => ⟨S_, .f32⟩
  | 55 => ⟨S_, .f32⟩
  | 56 => ⟨S_, .f32⟩
  | 57 => ⟨S65536x512, .f32⟩
  | 58 => ⟨S65536x512, .i1⟩
  | 59 => ⟨S_, .f32⟩
  | 60 => ⟨S65536x512, .f32⟩
  | 61 => ⟨S65536x512, .f32⟩
  | 62 => ⟨S65536x512, .f32⟩
  | 63 => ⟨S65536x512, .f32⟩
  | 64 => ⟨S65536x512, .f32⟩
  | 65 => ⟨S_, .f32⟩
  | 66 => ⟨S65536x512, .f32⟩
  | 67 => ⟨S65536x512, .f32⟩
  | 68 => ⟨S512x512, .f32⟩
  | 69 => ⟨S65536x512, .f32⟩
  | 70 => ⟨S64x512, .f32⟩
  | 71 => ⟨S65536x512, .f32⟩
  | 72 => ⟨S65536x512, .f32⟩
  | 73 => ⟨S1x512, .f32⟩
  | 74 => ⟨S65536x512, .f32⟩
  | 75 => ⟨S65536x512, .f32⟩
  | 76 => ⟨S_, .f32⟩
  | 77 => ⟨S65536x512, .f32⟩
  | 78 => ⟨S65536x512, .f32⟩
  | 79 => ⟨S65536x512, .f32⟩
  | 80 => ⟨S65536x512, .f32⟩
  | 81 => ⟨S65536x512, .i1⟩
  | 82 => ⟨S65536x512, .f32⟩
  | 83 => ⟨S65536x512, .f32⟩
  | 84 => ⟨S65536x512, .f32⟩
  | 85 => ⟨S65536x512, .f32⟩
  | 86 => ⟨S65536x512, .f32⟩
  | 87 => ⟨S65536x512, .f32⟩
  | 88 => ⟨S65536x512, .f32⟩
  | 89 => ⟨S65536x512, .f32⟩
  | 90 => ⟨S_, .f32⟩
  | 91 => ⟨S65536x512, .f32⟩
  | 92 => ⟨S65536x512, .i1⟩
  | 93 => ⟨S_, .f32⟩
  | 94 => ⟨S65536x512, .f32⟩
  | 95 => ⟨S65536x512, .f32⟩
  | 96 => ⟨S_, .f32⟩
  | 97 => ⟨S65536x512, .f32⟩
  | 98 => ⟨S65536x512, .i1⟩
  | 99 => ⟨S_, .f32⟩
  | 100 => ⟨S65536x512, .f32⟩
  | 101 => ⟨S65536x512, .f32⟩
  | 102 => ⟨S65536x512, .f32⟩
  | 103 => ⟨S65536x512, .f32⟩
  | 104 => ⟨S_, .f32⟩
  | 105 => ⟨S_, .f32⟩
  | 106 => ⟨S_, .i1⟩
  | 107 => ⟨S_, .f32⟩
  | 108 => ⟨S_, .f32⟩
  | 109 => ⟨S_, .f32⟩
  | 110 => ⟨S_, .f32⟩
  | 111 => ⟨S65536x512, .f32⟩
  | 112 => ⟨S65536x512, .i1⟩
  | 113 => ⟨S_, .f32⟩
  | 114 => ⟨S65536x512, .f32⟩
  | 115 => ⟨S65536x512, .f32⟩
  | 116 => ⟨S65536x512, .f32⟩
  | 117 => ⟨S65536x512, .f32⟩
  | 118 => ⟨S65536x512, .f32⟩
  | 119 => ⟨S_, .f32⟩
  | 120 => ⟨S65536x512, .f32⟩
  | 121 => ⟨S65536x512, .f32⟩
  | 122 => ⟨S512x512, .f32⟩
  | 123 => ⟨S65536x512, .f32⟩
  | 124 => ⟨S64x512, .f32⟩
  | 125 => ⟨S65536x512, .f32⟩
  | 126 => ⟨S65536x512, .f32⟩
  | 127 => ⟨S1x512, .f32⟩
  | _ => ⟨S65536x64, .f32⟩

abbrev hbmTy0_1 (i : Nat) : BufTy := match i % 128 with
  | 0 => ⟨S65536x512, .f32⟩
  | 1 => ⟨S65536x512, .f32⟩
  | 2 => ⟨S_, .f32⟩
  | 3 => ⟨S65536x512, .f32⟩
  | 4 => ⟨S65536x512, .f32⟩
  | 5 => ⟨S65536x512, .f32⟩
  | 6 => ⟨S65536x512, .f32⟩
  | 7 => ⟨S65536x512, .i1⟩
  | 8 => ⟨S65536x512, .f32⟩
  | 9 => ⟨S65536x512, .f32⟩
  | 10 => ⟨S65536x512, .f32⟩
  | 11 => ⟨S65536x512, .f32⟩
  | 12 => ⟨S65536x512, .f32⟩
  | 13 => ⟨S65536x512, .f32⟩
  | 14 => ⟨S65536x512, .f32⟩
  | 15 => ⟨S65536x512, .f32⟩
  | 16 => ⟨S_, .f32⟩
  | 17 => ⟨S65536x512, .f32⟩
  | 18 => ⟨S65536x512, .i1⟩
  | 19 => ⟨S_, .f32⟩
  | 20 => ⟨S65536x512, .f32⟩
  | 21 => ⟨S65536x512, .f32⟩
  | 22 => ⟨S_, .f32⟩
  | 23 => ⟨S65536x512, .f32⟩
  | 24 => ⟨S65536x512, .i1⟩
  | 25 => ⟨S_, .f32⟩
  | 26 => ⟨S65536x512, .f32⟩
  | 27 => ⟨S65536x512, .f32⟩
  | 28 => ⟨S65536x512, .f32⟩
  | 29 => ⟨S65536x512, .f32⟩
  | 30 => ⟨S_, .f32⟩
  | 31 => ⟨S_, .f32⟩
  | 32 => ⟨S_, .i1⟩
  | 33 => ⟨S_, .f32⟩
  | 34 => ⟨S_, .f32⟩
  | 35 => ⟨S_, .f32⟩
  | 36 => ⟨S_, .f32⟩
  | 37 => ⟨S65536x512, .f32⟩
  | 38 => ⟨S65536x512, .i1⟩
  | 39 => ⟨S_, .f32⟩
  | 40 => ⟨S65536x512, .f32⟩
  | 41 => ⟨S65536x512, .f32⟩
  | 42 => ⟨S65536x512, .f32⟩
  | 43 => ⟨S65536x512, .f32⟩
  | 44 => ⟨S65536x512, .f32⟩
  | 45 => ⟨S_, .f32⟩
  | 46 => ⟨S65536x512, .f32⟩
  | 47 => ⟨S65536x512, .f32⟩
  | 48 => ⟨S512x512, .f32⟩
  | 49 => ⟨S65536x512, .f32⟩
  | 50 => ⟨S64x512, .f32⟩
  | 51 => ⟨S65536x512, .f32⟩
  | 52 => ⟨S65536x512, .f32⟩
  | 53 => ⟨S1x512, .f32⟩
  | 54 => ⟨S65536x512, .f32⟩
  | 55 => ⟨S65536x512, .f32⟩
  | 56 => ⟨S_, .f32⟩
  | 57 => ⟨S65536x512, .f32⟩
  | 58 => ⟨S65536x512, .f32⟩
  | 59 => ⟨S65536x512, .f32⟩
  | 60 => ⟨S65536x512, .f32⟩
  | 61 => ⟨S65536x512, .i1⟩
  | 62 => ⟨S65536x512, .f32⟩
  | 63 => ⟨S65536x512, .f32⟩
  | 64 => ⟨S65536x512, .f32⟩
  | 65 => ⟨S65536x512, .f32⟩
  | 66 => ⟨S65536x512, .f32⟩
  | 67 => ⟨S65536x512, .f32⟩
  | 68 => ⟨S65536x512, .f32⟩
  | 69 => ⟨S65536x512, .f32⟩
  | 70 => ⟨S_, .f32⟩
  | 71 => ⟨S65536x512, .f32⟩
  | 72 => ⟨S65536x512, .i1⟩
  | 73 => ⟨S_, .f32⟩
  | 74 => ⟨S65536x512, .f32⟩
  | 75 => ⟨S65536x512, .f32⟩
  | 76 => ⟨S_, .f32⟩
  | 77 => ⟨S65536x512, .f32⟩
  | 78 => ⟨S65536x512, .i1⟩
  | 79 => ⟨S_, .f32⟩
  | 80 => ⟨S65536x512, .f32⟩
  | 81 => ⟨S65536x512, .f32⟩
  | 82 => ⟨S65536x512, .f32⟩
  | 83 => ⟨S65536x512, .f32⟩
  | 84 => ⟨S_, .f32⟩
  | 85 => ⟨S_, .f32⟩
  | 86 => ⟨S_, .i1⟩
  | 87 => ⟨S_, .f32⟩
  | 88 => ⟨S_, .f32⟩
  | 89 => ⟨S_, .f32⟩
  | 90 => ⟨S_, .f32⟩
  | 91 => ⟨S65536x512, .f32⟩
  | 92 => ⟨S65536x512, .i1⟩
  | 93 => ⟨S_, .f32⟩
  | 94 => ⟨S65536x512, .f32⟩
  | 95 => ⟨S65536x512, .f32⟩
  | 96 => ⟨S65536x512, .f32⟩
  | 97 => ⟨S65536x512, .f32⟩
  | 98 => ⟨S65536x512, .f32⟩
  | 99 => ⟨S_, .f32⟩
  | 100 => ⟨S65536x512, .f32⟩
  | 101 => ⟨S65536x512, .f32⟩
  | 102 => ⟨S512x1, .f32⟩
  | 103 => ⟨S65536x1, .f32⟩
  | 104 => ⟨S64x1, .f32⟩
  | 105 => ⟨S65536x1, .f32⟩
  | 106 => ⟨S65536x1, .f32⟩
  | 107 => ⟨S_, .f32⟩
  | 108 => ⟨S_, .f32⟩
  | 109 => ⟨S_, .f32⟩
  | 110 => ⟨S65536x1, .f32⟩
  | 111 => ⟨S65536x64, .f32⟩
  | 112 => ⟨S65536x512, .f32⟩
  | 113 => ⟨S65536x512, .f32⟩
  | 114 => ⟨S65536x64, .f32⟩
  | 115 => ⟨S65536x64, .f32⟩
  | 116 => ⟨S65536x512, .f32⟩
  | 117 => ⟨S65536x512, .f32⟩
  | 118 => ⟨S65536x64, .f32⟩
  | 119 => ⟨S65536x64, .f32⟩
  | 120 => ⟨S65536x512, .f32⟩
  | 121 => ⟨S65536x512, .f32⟩
  | 122 => ⟨S65536x64, .f32⟩
  | 123 => ⟨S65536x64, .f32⟩
  | 124 => ⟨S65536x512, .f32⟩
  | 125 => ⟨S65536x512, .f32⟩
  | 126 => ⟨S65536x64, .f32⟩
  | 127 => ⟨S65536x64, .f32⟩
  | _ => ⟨S65536x64, .f32⟩

abbrev hbmTy (i : Nat) : BufTy := match i / 128 with
  | 0 => hbmTy0_0 i
  | 1 => hbmTy0_1 i
  | _ => ⟨S65536x64, .f32⟩

abbrev bufTy : (tb : Table) → Fin (tcTables nBuf tb) → BufTy
  | .hbm, ⟨i, _⟩ => hbmTy i
  | _, _ => ⟨S65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_v7_0 : Ref sig .tc := ⟨.hbm, 35, rfl⟩
abbrev main_call0_cst_0 : Ref sig .tc := ⟨.hbm, 36, rfl⟩
abbrev main_call0_v13 : Ref sig .tc := ⟨.hbm, 37, rfl⟩
abbrev main_call0_v14 : Ref sig .tc := ⟨.hbm, 38, rfl⟩
abbrev main_call0_cst_1 : Ref sig .tc := ⟨.hbm, 39, rfl⟩
abbrev main_call0_v15 : Ref sig .tc := ⟨.hbm, 40, rfl⟩
abbrev main_call0_v16 : Ref sig .tc := ⟨.hbm, 41, rfl⟩
abbrev main_call0_cst_2 : Ref sig .tc := ⟨.hbm, 42, rfl⟩
abbrev main_call0_v17 : Ref sig .tc := ⟨.hbm, 43, rfl⟩
abbrev main_call0_v18 : Ref sig .tc := ⟨.hbm, 44, rfl⟩
abbrev main_call0_cst_3 : Ref sig .tc := ⟨.hbm, 45, rfl⟩
abbrev main_call0_v19 : Ref sig .tc := ⟨.hbm, 46, rfl⟩
abbrev main_call0_v20 : Ref sig .tc := ⟨.hbm, 47, rfl⟩
abbrev main_call0_v21 : Ref sig .tc := ⟨.hbm, 48, rfl⟩
abbrev main_v7_1 : Ref sig .tc := ⟨.hbm, 49, rfl⟩
abbrev main_call0_cst_4 : Ref sig .tc := ⟨.hbm, 50, rfl⟩
abbrev main_call0_cst_5 : Ref sig .tc := ⟨.hbm, 51, rfl⟩
abbrev main_call0_v23 : Ref sig .tc := ⟨.hbm, 52, rfl⟩
abbrev main_call0_cst_6 : Ref sig .tc := ⟨.hbm, 53, rfl⟩
abbrev main_call0_cst_7 : Ref sig .tc := ⟨.hbm, 54, rfl⟩
abbrev main_call0_v24 : Ref sig .tc := ⟨.hbm, 55, rfl⟩
abbrev main_call0_cst_8 : Ref sig .tc := ⟨.hbm, 56, rfl⟩
abbrev main_call0_v25 : Ref sig .tc := ⟨.hbm, 57, rfl⟩
abbrev main_call0_v26 : Ref sig .tc := ⟨.hbm, 58, rfl⟩
abbrev main_call0_cst_9 : Ref sig .tc := ⟨.hbm, 59, rfl⟩
abbrev main_call0_v27 : Ref sig .tc := ⟨.hbm, 60, rfl⟩
abbrev main_call0_v28 : Ref sig .tc := ⟨.hbm, 61, rfl⟩
abbrev main_call0_v29 : Ref sig .tc := ⟨.hbm, 62, rfl⟩
abbrev main_call0_v30 : Ref sig .tc := ⟨.hbm, 63, rfl⟩
abbrev main_call0_v31 : Ref sig .tc := ⟨.hbm, 64, rfl⟩
abbrev main_call0_cst_10 : Ref sig .tc := ⟨.hbm, 65, rfl⟩
abbrev main_call0_v32 : Ref sig .tc := ⟨.hbm, 66, rfl⟩
abbrev main_v7_2 : Ref sig .tc := ⟨.hbm, 67, rfl⟩
abbrev main_v8 : Ref sig .tc := ⟨.hbm, 68, rfl⟩
abbrev main_v9 : Ref sig .tc := ⟨.hbm, 69, rfl⟩
abbrev main_v10 : Ref sig .tc := ⟨.hbm, 70, rfl⟩
abbrev main_v11 : Ref sig .tc := ⟨.hbm, 71, rfl⟩
abbrev main_v12 : Ref sig .tc := ⟨.hbm, 72, rfl⟩
abbrev main_v13 : Ref sig .tc := ⟨.hbm, 73, rfl⟩
abbrev main_v14 : Ref sig .tc := ⟨.hbm, 74, rfl⟩
abbrev main_v15 : Ref sig .tc := ⟨.hbm, 75, rfl⟩
abbrev main_call1_cst : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_call1_v5 : Ref sig .tc := ⟨.hbm, 82, rfl⟩
abbrev main_call1_v6 : Ref sig .tc := ⟨.hbm, 83, rfl⟩
abbrev main_call1_v7 : Ref sig .tc := ⟨.hbm, 84, rfl⟩
abbrev main_call1_v8 : Ref sig .tc := ⟨.hbm, 85, rfl⟩
abbrev main_call1_v9 : Ref sig .tc := ⟨.hbm, 86, rfl⟩
abbrev main_call1_v10 : Ref sig .tc := ⟨.hbm, 87, rfl⟩
abbrev main_call1_v11 : Ref sig .tc := ⟨.hbm, 88, rfl⟩
abbrev main_v16_0 : Ref sig .tc := ⟨.hbm, 89, rfl⟩
abbrev main_call1_cst_0 : Ref sig .tc := ⟨.hbm, 90, rfl⟩
abbrev main_call1_v13 : Ref sig .tc := ⟨.hbm, 91, rfl⟩
abbrev main_call1_v14 : Ref sig .tc := ⟨.hbm, 92, rfl⟩
abbrev main_call1_cst_1 : Ref sig .tc := ⟨.hbm, 93, rfl⟩
abbrev main_call1_v15 : Ref sig .tc := ⟨.hbm, 94, rfl⟩
abbrev main_call1_v16 : Ref sig .tc := ⟨.hbm, 95, rfl⟩
abbrev main_call1_cst_2 : Ref sig .tc := ⟨.hbm, 96, rfl⟩
abbrev main_call1_v17 : Ref sig .tc := ⟨.hbm, 97, rfl⟩
abbrev main_call1_v18 : Ref sig .tc := ⟨.hbm, 98, rfl⟩
abbrev main_call1_cst_3 : Ref sig .tc := ⟨.hbm, 99, rfl⟩
abbrev main_call1_v19 : Ref sig .tc := ⟨.hbm, 100, rfl⟩
abbrev main_call1_v20 : Ref sig .tc := ⟨.hbm, 101, rfl⟩
abbrev main_call1_v21 : Ref sig .tc := ⟨.hbm, 102, rfl⟩
abbrev main_v16_1 : Ref sig .tc := ⟨.hbm, 103, rfl⟩
abbrev main_call1_cst_4 : Ref sig .tc := ⟨.hbm, 104, rfl⟩
abbrev main_call1_cst_5 : Ref sig .tc := ⟨.hbm, 105, rfl⟩
abbrev main_call1_v23 : Ref sig .tc := ⟨.hbm, 106, rfl⟩
abbrev main_call1_cst_6 : Ref sig .tc := ⟨.hbm, 107, rfl⟩
abbrev main_call1_cst_7 : Ref sig .tc := ⟨.hbm, 108, rfl⟩
abbrev main_call1_v24 : Ref sig .tc := ⟨.hbm, 109, rfl⟩
abbrev main_call1_cst_8 : Ref sig .tc := ⟨.hbm, 110, rfl⟩
abbrev main_call1_v25 : Ref sig .tc := ⟨.hbm, 111, rfl⟩
abbrev main_call1_v26 : Ref sig .tc := ⟨.hbm, 112, rfl⟩
abbrev main_call1_cst_9 : Ref sig .tc := ⟨.hbm, 113, rfl⟩
abbrev main_call1_v27 : Ref sig .tc := ⟨.hbm, 114, rfl⟩
abbrev main_call1_v28 : Ref sig .tc := ⟨.hbm, 115, rfl⟩
abbrev main_call1_v29 : Ref sig .tc := ⟨.hbm, 116, rfl⟩
abbrev main_call1_v30 : Ref sig .tc := ⟨.hbm, 117, rfl⟩
abbrev main_call1_v31 : Ref sig .tc := ⟨.hbm, 118, rfl⟩
abbrev main_call1_cst_10 : Ref sig .tc := ⟨.hbm, 119, rfl⟩
abbrev main_call1_v32 : Ref sig .tc := ⟨.hbm, 120, rfl⟩
abbrev main_v16_2 : Ref sig .tc := ⟨.hbm, 121, rfl⟩
abbrev main_v17 : Ref sig .tc := ⟨.hbm, 122, rfl⟩
abbrev main_v18 : Ref sig .tc := ⟨.hbm, 123, rfl⟩
abbrev main_v19 : Ref sig .tc := ⟨.hbm, 124, rfl⟩
abbrev main_v20 : Ref sig .tc := ⟨.hbm, 125, rfl⟩
abbrev main_v21 : Ref sig .tc := ⟨.hbm, 126, rfl⟩
abbrev main_v22 : Ref sig .tc := ⟨.hbm, 127, rfl⟩
abbrev main_v23 : Ref sig .tc := ⟨.hbm, 128, rfl⟩
abbrev main_v24 : Ref sig .tc := ⟨.hbm, 129, rfl⟩
abbrev main_call2_cst : Ref sig .tc := ⟨.hbm, 130, rfl⟩
abbrev main_call2_v0 : Ref sig .tc := ⟨.hbm, 131, rfl⟩
abbrev main_call2_v1 : Ref sig .tc := ⟨.hbm, 132, rfl⟩
abbrev main_call2_v2 : Ref sig .tc := ⟨.hbm, 133, rfl⟩
abbrev main_call2_v3 : Ref sig .tc := ⟨.hbm, 134, rfl⟩
abbrev main_call2_v4 : Ref sig .tc := ⟨.hbm, 135, rfl⟩
abbrev main_call2_v5 : Ref sig .tc := ⟨.hbm, 136, rfl⟩
abbrev main_call2_v6 : Ref sig .tc := ⟨.hbm, 137, rfl⟩
abbrev main_call2_v7 : Ref sig .tc := ⟨.hbm, 138, rfl⟩
abbrev main_call2_v8 : Ref sig .tc := ⟨.hbm, 139, rfl⟩
abbrev main_call2_v9 : Ref sig .tc := ⟨.hbm, 140, rfl⟩
abbrev main_call2_v10 : Ref sig .tc := ⟨.hbm, 141, rfl⟩
abbrev main_call2_v11 : Ref sig .tc := ⟨.hbm, 142, rfl⟩
abbrev main_v25_0 : Ref sig .tc := ⟨.hbm, 143, rfl⟩
abbrev main_call2_cst_0 : Ref sig .tc := ⟨.hbm, 144, rfl⟩
abbrev main_call2_v13 : Ref sig .tc := ⟨.hbm, 145, rfl⟩
abbrev main_call2_v14 : Ref sig .tc := ⟨.hbm, 146, rfl⟩
abbrev main_call2_cst_1 : Ref sig .tc := ⟨.hbm, 147, rfl⟩
abbrev main_call2_v15 : Ref sig .tc := ⟨.hbm, 148, rfl⟩
abbrev main_call2_v16 : Ref sig .tc := ⟨.hbm, 149, rfl⟩
abbrev main_call2_cst_2 : Ref sig .tc := ⟨.hbm, 150, rfl⟩
abbrev main_call2_v17 : Ref sig .tc := ⟨.hbm, 151, rfl⟩
abbrev main_call2_v18 : Ref sig .tc := ⟨.hbm, 152, rfl⟩
abbrev main_call2_cst_3 : Ref sig .tc := ⟨.hbm, 153, rfl⟩
abbrev main_call2_v19 : Ref sig .tc := ⟨.hbm, 154, rfl⟩
abbrev main_call2_v20 : Ref sig .tc := ⟨.hbm, 155, rfl⟩
abbrev main_call2_v21 : Ref sig .tc := ⟨.hbm, 156, rfl⟩
abbrev main_v25_1 : Ref sig .tc := ⟨.hbm, 157, rfl⟩
abbrev main_call2_cst_4 : Ref sig .tc := ⟨.hbm, 158, rfl⟩
abbrev main_call2_cst_5 : Ref sig .tc := ⟨.hbm, 159, rfl⟩
abbrev main_call2_v23 : Ref sig .tc := ⟨.hbm, 160, rfl⟩
abbrev main_call2_cst_6 : Ref sig .tc := ⟨.hbm, 161, rfl⟩
abbrev main_call2_cst_7 : Ref sig .tc := ⟨.hbm, 162, rfl⟩
abbrev main_call2_v24 : Ref sig .tc := ⟨.hbm, 163, rfl⟩
abbrev main_call2_cst_8 : Ref sig .tc := ⟨.hbm, 164, rfl⟩
abbrev main_call2_v25 : Ref sig .tc := ⟨.hbm, 165, rfl⟩
abbrev main_call2_v26 : Ref sig .tc := ⟨.hbm, 166, rfl⟩
abbrev main_call2_cst_9 : Ref sig .tc := ⟨.hbm, 167, rfl⟩
abbrev main_call2_v27 : Ref sig .tc := ⟨.hbm, 168, rfl⟩
abbrev main_call2_v28 : Ref sig .tc := ⟨.hbm, 169, rfl⟩
abbrev main_call2_v29 : Ref sig .tc := ⟨.hbm, 170, rfl⟩
abbrev main_call2_v30 : Ref sig .tc := ⟨.hbm, 171, rfl⟩
abbrev main_call2_v31 : Ref sig .tc := ⟨.hbm, 172, rfl⟩
abbrev main_call2_cst_10 : Ref sig .tc := ⟨.hbm, 173, rfl⟩
abbrev main_call2_v32 : Ref sig .tc := ⟨.hbm, 174, rfl⟩
abbrev main_v25_2 : Ref sig .tc := ⟨.hbm, 175, rfl⟩
abbrev main_v26 : Ref sig .tc := ⟨.hbm, 176, rfl⟩
abbrev main_v27 : Ref sig .tc := ⟨.hbm, 177, rfl⟩
abbrev main_v28 : Ref sig .tc := ⟨.hbm, 178, rfl⟩
abbrev main_v29 : Ref sig .tc := ⟨.hbm, 179, rfl⟩
abbrev main_v30 : Ref sig .tc := ⟨.hbm, 180, rfl⟩
abbrev main_v31 : Ref sig .tc := ⟨.hbm, 181, rfl⟩
abbrev main_v32 : Ref sig .tc := ⟨.hbm, 182, rfl⟩
abbrev main_v33 : Ref sig .tc := ⟨.hbm, 183, rfl⟩
abbrev main_call3_cst : Ref sig .tc := ⟨.hbm, 184, rfl⟩
abbrev main_call3_v0 : Ref sig .tc := ⟨.hbm, 185, rfl⟩
abbrev main_call3_v1 : Ref sig .tc := ⟨.hbm, 186, rfl⟩
abbrev main_call3_v2 : Ref sig .tc := ⟨.hbm, 187, rfl⟩
abbrev main_call3_v3 : Ref sig .tc := ⟨.hbm, 188, rfl⟩
abbrev main_call3_v4 : Ref sig .tc := ⟨.hbm, 189, rfl⟩
abbrev main_call3_v5 : Ref sig .tc := ⟨.hbm, 190, rfl⟩
abbrev main_call3_v6 : Ref sig .tc := ⟨.hbm, 191, rfl⟩
abbrev main_call3_v7 : Ref sig .tc := ⟨.hbm, 192, rfl⟩
abbrev main_call3_v8 : Ref sig .tc := ⟨.hbm, 193, rfl⟩
abbrev main_call3_v9 : Ref sig .tc := ⟨.hbm, 194, rfl⟩
abbrev main_call3_v10 : Ref sig .tc := ⟨.hbm, 195, rfl⟩
abbrev main_call3_v11 : Ref sig .tc := ⟨.hbm, 196, rfl⟩
abbrev main_v34_0 : Ref sig .tc := ⟨.hbm, 197, rfl⟩
abbrev main_call3_cst_0 : Ref sig .tc := ⟨.hbm, 198, rfl⟩
abbrev main_call3_v13 : Ref sig .tc := ⟨.hbm, 199, rfl⟩
abbrev main_call3_v14 : Ref sig .tc := ⟨.hbm, 200, rfl⟩
abbrev main_call3_cst_1 : Ref sig .tc := ⟨.hbm, 201, rfl⟩
abbrev main_call3_v15 : Ref sig .tc := ⟨.hbm, 202, rfl⟩
abbrev main_call3_v16 : Ref sig .tc := ⟨.hbm, 203, rfl⟩
abbrev main_call3_cst_2 : Ref sig .tc := ⟨.hbm, 204, rfl⟩
abbrev main_call3_v17 : Ref sig .tc := ⟨.hbm, 205, rfl⟩
abbrev main_call3_v18 : Ref sig .tc := ⟨.hbm, 206, rfl⟩
abbrev main_call3_cst_3 : Ref sig .tc := ⟨.hbm, 207, rfl⟩
abbrev main_call3_v19 : Ref sig .tc := ⟨.hbm, 208, rfl⟩
abbrev main_call3_v20 : Ref sig .tc := ⟨.hbm, 209, rfl⟩
abbrev main_call3_v21 : Ref sig .tc := ⟨.hbm, 210, rfl⟩
abbrev main_v34_1 : Ref sig .tc := ⟨.hbm, 211, rfl⟩
abbrev main_call3_cst_4 : Ref sig .tc := ⟨.hbm, 212, rfl⟩
abbrev main_call3_cst_5 : Ref sig .tc := ⟨.hbm, 213, rfl⟩
abbrev main_call3_v23 : Ref sig .tc := ⟨.hbm, 214, rfl⟩
abbrev main_call3_cst_6 : Ref sig .tc := ⟨.hbm, 215, rfl⟩
abbrev main_call3_cst_7 : Ref sig .tc := ⟨.hbm, 216, rfl⟩
abbrev main_call3_v24 : Ref sig .tc := ⟨.hbm, 217, rfl⟩
abbrev main_call3_cst_8 : Ref sig .tc := ⟨.hbm, 218, rfl⟩
abbrev main_call3_v25 : Ref sig .tc := ⟨.hbm, 219, rfl⟩
abbrev main_call3_v26 : Ref sig .tc := ⟨.hbm, 220, rfl⟩
abbrev main_call3_cst_9 : Ref sig .tc := ⟨.hbm, 221, rfl⟩
abbrev main_call3_v27 : Ref sig .tc := ⟨.hbm, 222, rfl⟩
abbrev main_call3_v28 : Ref sig .tc := ⟨.hbm, 223, rfl⟩
abbrev main_call3_v29 : Ref sig .tc := ⟨.hbm, 224, rfl⟩
abbrev main_call3_v30 : Ref sig .tc := ⟨.hbm, 225, rfl⟩
abbrev main_call3_v31 : Ref sig .tc := ⟨.hbm, 226, rfl⟩
abbrev main_call3_cst_10 : Ref sig .tc := ⟨.hbm, 227, rfl⟩
abbrev main_call3_v32 : Ref sig .tc := ⟨.hbm, 228, rfl⟩
abbrev main_v34_2 : Ref sig .tc := ⟨.hbm, 229, rfl⟩
abbrev main_v35 : Ref sig .tc := ⟨.hbm, 230, rfl⟩
abbrev main_v36 : Ref sig .tc := ⟨.hbm, 231, rfl⟩
abbrev main_v37 : Ref sig .tc := ⟨.hbm, 232, rfl⟩
abbrev main_v38 : Ref sig .tc := ⟨.hbm, 233, rfl⟩
abbrev main_v39 : Ref sig .tc := ⟨.hbm, 234, rfl⟩
abbrev main_cst_0 : Ref sig .tc := ⟨.hbm, 235, rfl⟩
abbrev main_v40 : Ref sig .tc := ⟨.hbm, 236, rfl⟩
abbrev main_cst_1 : Ref sig .tc := ⟨.hbm, 237, rfl⟩
abbrev main_v41 : Ref sig .tc := ⟨.hbm, 238, rfl⟩
abbrev main_v42 : Ref sig .tc := ⟨.hbm, 239, rfl⟩
abbrev main_v43 : Ref sig .tc := ⟨.hbm, 240, rfl⟩
abbrev main_v44 : Ref sig .tc := ⟨.hbm, 241, rfl⟩
abbrev main_v45 : Ref sig .tc := ⟨.hbm, 242, rfl⟩
abbrev main_v46 : Ref sig .tc := ⟨.hbm, 243, rfl⟩
abbrev main_v47 : Ref sig .tc := ⟨.hbm, 244, rfl⟩
abbrev main_v48 : Ref sig .tc := ⟨.hbm, 245, rfl⟩
abbrev main_v49 : Ref sig .tc := ⟨.hbm, 246, rfl⟩
abbrev main_v50 : Ref sig .tc := ⟨.hbm, 247, rfl⟩
abbrev main_v51 : Ref sig .tc := ⟨.hbm, 248, rfl⟩
abbrev main_v52 : Ref sig .tc := ⟨.hbm, 249, rfl⟩
abbrev main_v53 : Ref sig .tc := ⟨.hbm, 250, rfl⟩
abbrev main_v54 : Ref sig .tc := ⟨.hbm, 251, rfl⟩
abbrev main_v55 : Ref sig .tc := ⟨.hbm, 252, rfl⟩
abbrev main_v56 : Ref sig .tc := ⟨.hbm, 253, rfl⟩
abbrev main_v57 : Ref sig .tc := ⟨.hbm, 254, rfl⟩
abbrev main_v58 : Ref sig .tc := ⟨.hbm, 255, rfl⟩

abbrev nD : Nat := 1
abbrev τ : Topo := Topo.v7x

variable {F : FTy → Type} [FloatOps F]

class Facts₀ : Prop where
  bcast_S_S65536x64 : S_.BroadcastsInDim S65536x64 (![] : Fin 0 → Fin S65536x64.rank)
  transposes_S512x64_S64x512_1_0 : S512x64.Transposes [1, 0] S64x512
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  bcast_S_S65536x512 : S_.BroadcastsInDim S65536x512 (![] : Fin 0 → Fin S65536x512.rank)
  transposes_S512x512_S512x512_1_0 : S512x512.Transposes [1, 0] S512x512
  transposes_S1x512_S512x1_1_0 : S1x512.Transposes [1, 0] S512x1
  transposes_S1x64_S64x1_1_0 : S1x64.Transposes [1, 0] S64x1
  reducesTo_S65536x1_S_d0_1 : S65536x1.ReducesTo [0, 1] S_
  h_S_ : 0 < S_.numel
  bcast_S_S65536x1 : S_.BroadcastsInDim S65536x1 (![] : Fin 0 → Fin S65536x1.rank)
  dot_S65536x64_S64x512_S65536x512_1_0_0_1_n_n_wf : DotDims.WF S65536x64 S64x512 S65536x512 [1] [0] [0] [1] [] []
  dot_S65536x512_S512x512_S65536x512_1_0_0_1_n_n_wf : DotDims.WF S65536x512 S512x512 S65536x512 [1] [0] [0] [1] [] []
  dot_S65536x512_S512x1_S65536x1_1_0_0_1_n_n_wf : DotDims.WF S65536x512 S512x1 S65536x1 [1] [0] [0] [1] [] []
  dot_S65536x64_S64x1_S65536x1_1_0_0_1_n_n_wf : DotDims.WF S65536x64 S64x1 S65536x1 [1] [0] [0] [1] [] []
  dot_S65536x1_S64x1_S65536x64_1_1_0_0_n_n_wf : DotDims.WF S65536x1 S64x1 S65536x64 [1] [1] [0] [0] [] []
  dot_S65536x1_S512x1_S65536x512_1_1_0_0_n_n_wf : DotDims.WF S65536x1 S512x1 S65536x512 [1] [1] [0] [0] [] []
  dot_S65536x512_S64x512_S65536x64_1_1_0_0_n_n_wf : DotDims.WF S65536x512 S64x512 S65536x64 [1] [1] [0] [0] [] []
  dot_S65536x512_S512x512_S65536x512_1_1_0_0_n_n_wf : DotDims.WF S65536x512 S512x512 S65536x512 [1] [1] [0] [0] [] []

variable [Facts₀]

def dot_S65536x64_S64x512_S65536x512_1_0_0_1_n_n : DotDims S65536x64 S64x512 S65536x512 where
  lhsContracting := [1]
  rhsContracting := [0]
  lhsNonContracting := [0]
  rhsNonContracting := [1]
  lhsBatch := []
  rhsBatch := []
  wf := dot_S65536x64_S64x512_S65536x512_1_0_0_1_n_n_wf
def dot_S65536x512_S512x512_S65536x512_1_0_0_1_n_n : DotDims S65536x512 S512x512 S65536x512 where
  lhsContracting := [1]
  rhsContracting := [0]
  lhsNonContracting := [0]
  rhsNonContracting := [1]
  lhsBatch := []
  rhsBatch := []
  wf := dot_S65536x512_S512x512_S65536x512_1_0_0_1_n_n_wf
def dot_S65536x512_S512x1_S65536x1_1_0_0_1_n_n : DotDims S65536x512 S512x1 S65536x1 where
  lhsContracting := [1]
  rhsContracting := [0]
  lhsNonContracting := [0]
  rhsNonContracting := [1]
  lhsBatch := []
  rhsBatch := []
  wf := dot_S65536x512_S512x1_S65536x1_1_0_0_1_n_n_wf
def dot_S65536x64_S64x1_S65536x1_1_0_0_1_n_n : DotDims S65536x64 S64x1 S65536x1 where
  lhsContracting := [1]
  rhsContracting := [0]
  lhsNonContracting := [0]
  rhsNonContracting := [1]
  lhsBatch := []
  rhsBatch := []
  wf := dot_S65536x64_S64x1_S65536x1_1_0_0_1_n_n_wf
def dot_S65536x1_S64x1_S65536x64_1_1_0_0_n_n : DotDims S65536x1 S64x1 S65536x64 where
  lhsContracting := [1]
  rhsContracting := [1]
  lhsNonContracting := [0]
  rhsNonContracting := [0]
  lhsBatch := []
  rhsBatch := []
  wf := dot_S65536x1_S64x1_S65536x64_1_1_0_0_n_n_wf
def dot_S65536x1_S512x1_S65536x512_1_1_0_0_n_n : DotDims S65536x1 S512x1 S65536x512 where
  lhsContracting := [1]
  rhsContracting := [1]
  lhsNonContracting := [0]
  rhsNonContracting := [0]
  lhsBatch := []
  rhsBatch := []
  wf := dot_S65536x1_S512x1_S65536x512_1_1_0_0_n_n_wf
def dot_S65536x512_S64x512_S65536x64_1_1_0_0_n_n : DotDims S65536x512 S64x512 S65536x64 where
  lhsContracting := [1]
  rhsContracting := [1]
  lhsNonContracting := [0]
  rhsNonContracting := [0]
  lhsBatch := []
  rhsBatch := []
  wf := dot_S65536x512_S64x512_S65536x64_1_1_0_0_n_n_wf
def dot_S65536x512_S512x512_S65536x512_1_1_0_0_n_n : DotDims S65536x512 S512x512 S65536x512 where
  lhsContracting := [1]
  rhsContracting := [1]
  lhsNonContracting := [0]
  rhsNonContracting := [0]
  lhsBatch := []
  rhsBatch := []
  wf := dot_S65536x512_S512x512_S65536x512_1_1_0_0_n_n_wf

class Facts : Prop extends Facts₀ where

variable [Facts]
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.SoftplusDeriv.lean ====
/-
  Softplus and its derivative on the extended reals.

  `sp x = max x 0 + log (1 + e^(-|x|))` is the overflow-safe way of writing `log (1 + e^x)`. A program that
  differentiates it through the rule for `log (e^a + e^b)` gets the factor `e^(x - sp x)` (with an infinite `x` or
  `sp x` replaced by `0` inside the exponent); a program that uses the closed form gets the logistic function
  `1 / (1 + e^(-x))`. The two agree at EVERY extended real: at `-∞` both are `0`, at `+∞` both are `1`, and at a real
  `x` the identity `e^(x - max x 0) / (1 + e^(-|x|)) = 1 / (1 + e^(-x))` is checked on `x ≥ 0` and `x ≤ 0` separately.
-/
import Idealize.ShloMosaic.PureOps.Ideal.Laws

noncomputable section

namespace Cert.Icnn

open Idealize.ShloMosaic

/-- Softplus, written the overflow-safe way. -/
def sp (x : EReal) : EReal := max x 0 + Ideal.log1p (Ideal.exp (-(max x (-x))))

/-- The derivative factor of softplus that the log-sum-exp rule produces: `e^(x - sp x)`, an infinite term of the
    exponent replaced by `0`. -/
def dsp (x : EReal) : EReal :=
  Ideal.exp ((if x = ⊤ then 0 else x) - (if sp x = ⊤ then 0 else sp x))

/-- On the reals: `e^(r - (max r 0 + log (1 + e^(-|r|)))) = 1 / (1 + e^(-r))`. -/
theorem real_dsp (r : ℝ) :
    Real.exp (r - (max r 0 + Real.log (1 + Real.exp (-(max r (-r)))))) = (1 + Real.exp (-r))⁻¹ := by
  have hpos : 0 < 1 + Real.exp (-(max r (-r))) := by positivity
  rw [sub_add_eq_sub_sub, Real.exp_sub, Real.exp_log hpos]
  rcases le_total 0 r with h | h
  · rw [max_eq_left h, max_eq_left (by linarith : -r ≤ r), sub_self, Real.exp_zero, one_div]
  · rw [max_eq_right h, max_eq_right (by linarith : r ≤ -r), sub_zero, neg_neg, Real.exp_neg]
    have he : 0 < Real.exp r := Real.exp_pos r
    field_simp
    ring

/-- Softplus of a real is the real `max r 0 + log (1 + e^(-|r|))`. -/
theorem sp_coe (r : ℝ) :
    sp (r : EReal) = ((max r 0 + Real.log (1 + Real.exp (-(max r (-r)))) : ℝ) : EReal) := by
  have hpos : ¬ (1 + Real.exp (-(max r (-r))) ≤ 0) := not_le.mpr (by positivity)
  have hmax : ∀ a b : ℝ, max (a : EReal) (b : EReal) = ((max a b : ℝ) : EReal) :=
    fun a b => (EReal.coe_strictMono.monotone.map_max).symm
  unfold sp Ideal.log1p
  rw [← EReal.coe_neg, ← EReal.coe_zero, hmax, hmax, ← EReal.coe_neg, Ideal.exp_coe,
    ← EReal.coe_one, ← EReal.coe_add, Ideal.log_coe, if_neg hpos, ← EReal.coe_add]

theorem log_one : Ideal.log 1 = 0 := by
  rw [← EReal.coe_one, Ideal.log_coe, if_neg (by norm_num), Real.log_one, EReal.coe_zero]

theorem exp_zero : Ideal.exp 0 = 1 := by
  rw [← EReal.coe_zero, Ideal.exp_coe, Real.exp_zero, EReal.coe_one]

theorem sp_bot : sp ⊥ = 0 := by
  unfold sp Ideal.log1p
  simp [log_one]

theorem sp_top : sp ⊤ = ⊤ := by
  unfold sp Ideal.log1p
  simp [log_one]

/-- The two derivative factors are one function on the extended reals. -/
theorem dsp_eq_logistic (x : EReal) : dsp x = Ideal.logistic x := by
  induction x using EReal.rec with
  | bot => unfold dsp; rw [sp_bot]; simp
  | top => unfold dsp; rw [sp_top]; simp [exp_zero]
  | coe r =>
    unfold dsp
    rw [sp_coe, if_neg (EReal.coe_ne_top r), if_neg (EReal.coe_ne_top _), ← EReal.coe_sub, Ideal.exp_coe,
      Ideal.logistic_coe, real_dsp]

end Cert.Icnn

end
-- ==== Proof.Net.lean ====
/-
  The gradient of an input-convex network's summed output with respect to its input, one sample at a time.

  A sample is a row `x : Fin 64 → EReal`. Four hidden layers of width 512: the first is `x·Wz0ᵀ + bz0`, each later one
  adds a product of the previous layer's softplus with a square weight matrix to a skip product of `x` and a bias.
  The scalar output is `softplus(pre3)·WzLᵀ + x·WxLᵀ`. Its gradient in `x` is the chain rule run backwards:
  `g3 = WzL ⊙ σ(pre3)`, then `g_k = (g_{k+1}·Wz_{k+1}) ⊙ σ(pre_k)` for the three earlier layers (`σ` the logistic
  function, the derivative of softplus), and the gradient is `WxL` plus each `g_k` pushed through the matrix that
  took `x` into layer `k`.
-/
import proofs.«125153_j75711683494298_1_alg».proof.Proof.SoftplusDeriv
import Idealize.ShloMosaic.Lib.ValueIdx

noncomputable section

open scoped BigOperators

namespace Cert.Icnn

open Idealize.ShloMosaic Idealize.ShloMosaic.ValueIdx

/-- The weights, each read by coordinates (`W h k`: row `h`, column `k`, as stored). -/
structure Params where
  Wz0 : Fin 512 → Fin 64 → EReal
  bz0 : Fin 512 → EReal
  Wz1 : Fin 512 → Fin 512 → EReal
  Wz2 : Fin 512 → Fin 512 → EReal
  Wz3 : Fin 512 → Fin 512 → EReal
  WzL : Fin 512 → EReal
  Wx0 : Fin 512 → Fin 64 → EReal
  bx0 : Fin 512 → EReal
  Wx1 : Fin 512 → Fin 64 → EReal
  bx1 : Fin 512 → EReal
  Wx2 : Fin 512 → Fin 64 → EReal
  bx2 : Fin 512 → EReal
  WxL : Fin 64 → EReal

variable (P : Params) (x : Fin 64 → EReal)

/-- The first layer before its softplus. -/
def pre0 (h : Fin 512) : EReal := (∑ k, x k * P.Wz0 h k) + P.bz0 h

/-- The second layer before its softplus. -/
def pre1 (h : Fin 512) : EReal := ((∑ j, sp (pre0 P x j) * P.Wz1 h j) + ∑ k, x k * P.Wx0 h k) + P.bx0 h

/-- The third layer before its softplus. -/
def pre2 (h : Fin 512) : EReal := ((∑ j, sp (pre1 P x j) * P.Wz2 h j) + ∑ k, x k * P.Wx1 h k) + P.bx1 h

/-- The fourth layer before its softplus. -/
def pre3 (h : Fin 512) : EReal := ((∑ j, sp (pre2 P x j) * P.Wz3 h j) + ∑ k, x k * P.Wx2 h k) + P.bx2 h

/-- The output's derivative in the fourth layer's pre-activation. -/
def g3 (h : Fin 512) : EReal := P.WzL h * Ideal.logistic (pre3 P x h)

/-- … in the third layer's. -/
def g2 (h : Fin 512) : EReal := (∑ j, g3 P x j * P.Wz3 j h) * Ideal.logistic (pre2 P x h)

/-- … in the second layer's. -/
def g1 (h : Fin 512) : EReal := (∑ j, g2 P x j * P.Wz2 j h) * Ideal.logistic (pre1 P x h)

/-- … in the first layer's. -/
def g0 (h : Fin 512) : EReal := (∑ j, g1 P x j * P.Wz1 j h) * Ideal.logistic (pre0 P x h)

/-- The gradient in the input, the four layers' contributions added first layer first. -/
def grad (d : Fin 64) : EReal :=
  (((P.WxL d + ∑ h, g0 P x h * P.Wz0 h d) + ∑ h, g1 P x h * P.Wx0 h d) + ∑ h, g2 P x h * P.Wx1 h d)
    + ∑ h, g3 P x h * P.Wx2 h d

/-- The same gradient with the contributions added last layer first: addition of extended reals is commutative
    and associative. -/
theorem grad_reversed (d : Fin 64) :
    (((P.WxL d + ∑ h, g3 P x h * P.Wx2 h d) + ∑ h, g2 P x h * P.Wx1 h d) + ∑ h, g1 P x h * P.Wx0 h d)
      + ∑ h, g0 P x h * P.Wz0 h d = grad P x d := by
  unfold grad
  abel

/-! ## The network of fourteen arrays -/

/-- The weights as the thirteen weight arrays hold them: a bias is a vector, the two output weights one-row matrices. -/
def paramsOf (a1 : (⟨2, ![512, 64]⟩ : Shape).Idx → EReal) (a2 : (⟨1, ![512]⟩ : Shape).Idx → EReal)
    (a3 a4 a5 : (⟨2, ![512, 512]⟩ : Shape).Idx → EReal) (a6 : (⟨2, ![1, 512]⟩ : Shape).Idx → EReal)
    (a7 : (⟨2, ![512, 64]⟩ : Shape).Idx → EReal) (a8 : (⟨1, ![512]⟩ : Shape).Idx → EReal)
    (a9 : (⟨2, ![512, 64]⟩ : Shape).Idx → EReal) (a10 : (⟨1, ![512]⟩ : Shape).Idx → EReal)
    (a11 : (⟨2, ![512, 64]⟩ : Shape).Idx → EReal) (a12 : (⟨1, ![512]⟩ : Shape).Idx → EReal)
    (a13 : (⟨2, ![1, 64]⟩ : Shape).Idx → EReal) : Params where
  Wz0 := fun h k => a1 (ix2 h k)
  bz0 := fun h => a2 (ix1 h)
  Wz1 := fun h j => a3 (ix2 h j)
  Wz2 := fun h j => a4 (ix2 h j)
  Wz3 := fun h j => a5 (ix2 h j)
  WzL := fun h => a6 (ix2 (0 : Fin 1) h)
  Wx0 := fun h k => a7 (ix2 h k)
  bx0 := fun h => a8 (ix1 h)
  Wx1 := fun h k => a9 (ix2 h k)
  bx1 := fun h => a10 (ix1 h)
  Wx2 := fun h k => a11 (ix2 h k)
  bx2 := fun h => a12 (ix1 h)
  WxL := fun d => a13 (ix2 (0 : Fin 1) d)

/-- Sample `b` of the batch: row `b` of the state array, less one. -/
def sample (a0 : (⟨2, ![65536, 64]⟩ : Shape).Idx → EReal) (b : Fin 65536) : Fin 64 → EReal :=
  fun k => a0 (ix2 b k) - Ideal.ofBits .f32 0x3F800000#32

/-- The whole result: row `b` is the gradient at sample `b`. -/
def gradArr (a0 : (⟨2, ![65536, 64]⟩ : Shape).Idx → EReal) (P : Params) : (⟨2, ![65536, 64]⟩ : Shape).Idx → EReal :=
  fun i => grad P (sample a0 (i 0)) (i 1)

end Cert.Icnn

end
-- ==== Proof.TileOps.lean ====
/-
  One batch tile of the kernel, read entry by entry.

  The body holds a tile of 1024 samples (rows) and the whole weight matrices. Every matrix product in it is a plain
  rows-by-columns product into a zero accumulator, so at entry `(p, h)` it is the sum over the contracted coordinate of
  the left operand's row `p` times the right operand's column `h`; a transposed weight matrix is read with its
  coordinates exchanged; a `[1, n]` row is repeated down the tile. Hence row `p` of every intermediate value is the
  network's layer (`pre0 … pre3`), and row `p` of every backward value its derivative (`g3 … g0`), of sample `p`
  alone, and the stored tile is the gradient `grad` of each of its samples.
-/
import proofs.«125153_j75711683494298_1_alg».proof.Proof.Gen.KernelIdeal.Frame
import proofs.«125153_j75711683494298_1_alg».proof.Proof.LibPlainDot
import proofs.«125153_j75711683494298_1_alg».proof.Proof.Net
import Idealize.ShloMosaic.Lib.ValueIdx
import Idealize.ShloMosaic.Lib.ValueLayout
import Idealize.ShloMosaic.Lib.Pipeline.Value

noncomputable section

open scoped BigOperators

namespace Cert.Icnn.Tile

open Cert.KernelIdeal Cert.KernelIdeal.Gen Idealize.ShloMosaic Idealize.ShloMosaic.ValueIdx

/-! ## The tile's matrix products and row broadcasts at an entry -/

/-- `a · Wᵀ` for a `[512, 64]` weight: entry `(p, h)` sums `a (p, k) · W (h, k)`. -/
theorem mmT_64 (a : FVec Ideal S1024x64 .bf16) (W : FVec Ideal S512x64 .bf16) (α : Fin 1024 → Fin 64 → EReal)
    (ω : Fin 512 → Fin 64 → EReal) (ha : ∀ p k, a (ix2 p k) = α p k) (hW : ∀ h k, W (ix2 h k) = ω h k)
    (p : Fin 1024) (h : Fin 512) :
    matmul dot_S1024x64_S64x512_S1024x512_1_0_0_1_n_n none a
        (transpose S64x512 [1, 0] W transposes_S512x64_p1_0_S64x512) (constant (F := Ideal) S1024x512 .f32 0x00000000#32) (ix2 p h)
      = ∑ k : Fin 64, α p k * ω h k := by
  refine (Cert.Lib.PlainDot.matmul_zero_apply (M := 1024) (K := 64) (N := 512) none a _ p h).trans ?_
  refine Finset.sum_congr rfl fun k _ => ?_
  rw [transpose_ix2_apply, ha, hW]

/-- `a · Wᵀ` for a `[512, 512]` weight. -/
theorem mmT_512 (a : FVec Ideal S1024x512 .bf16) (W : FVec Ideal S512x512 .bf16) (α : Fin 1024 → Fin 512 → EReal)
    (ω : Fin 512 → Fin 512 → EReal) (ha : ∀ p j, a (ix2 p j) = α p j) (hW : ∀ h j, W (ix2 h j) = ω h j)
    (p : Fin 1024) (h : Fin 512) :
    matmul dot_S1024x512_S512x512_S1024x512_1_0_0_1_n_n none a
        (transpose S512x512 [1, 0] W transposes_S512x512_p1_0_S512x512) (constant (F := Ideal) S1024x512 .f32 0x00000000#32) (ix2 p h)
      = ∑ j : Fin 512, α p j * ω h j := by
  refine (Cert.Lib.PlainDot.matmul_zero_apply (M := 1024) (K := 512) (N := 512) none a _ p h).trans ?_
  refine Finset.sum_congr rfl fun j _ => ?_
  rw [transpose_ix2_apply, ha, hW]

/-- `g · W` for a `[512, 64]` weight: entry `(p, d)` sums `g (p, h) · W (h, d)`. -/
theorem mm_64 (g : FVec Ideal S1024x512 .bf16) (W : FVec Ideal S512x64 .bf16) (γ : Fin 1024 → Fin 512 → EReal)
    (ω : Fin 512 → Fin 64 → EReal) (hg : ∀ p h, g (ix2 p h) = γ p h) (hW : ∀ h d, W (ix2 h d) = ω h d)
    (p : Fin 1024) (d : Fin 64) :
    matmul dot_S1024x512_S512x64_S1024x64_1_0_0_1_n_n none g W (constant (F := Ideal) S1024x64 .f32 0x00000000#32) (ix2 p d)
      = ∑ h : Fin 512, γ p h * ω h d := by
  refine (Cert.Lib.PlainDot.matmul_zero_apply (M := 1024) (K := 512) (N := 64) none g W p d).trans ?_
  exact Finset.sum_congr rfl fun h _ => by rw [hg, hW]

/-- `g · W` for a `[512, 512]` weight. -/
theorem mm_512 (g : FVec Ideal S1024x512 .bf16) (W : FVec Ideal S512x512 .bf16) (γ : Fin 1024 → Fin 512 → EReal)
    (ω : Fin 512 → Fin 512 → EReal) (hg : ∀ p j, g (ix2 p j) = γ p j) (hW : ∀ j h, W (ix2 j h) = ω j h)
    (p : Fin 1024) (h : Fin 512) :
    matmul dot_S1024x512_S512x512_S1024x512_1_0_0_1_n_n none g W (constant (F := Ideal) S1024x512 .f32 0x00000000#32) (ix2 p h)
      = ∑ j : Fin 512, γ p j * ω j h := by
  refine (Cert.Lib.PlainDot.matmul_zero_apply (M := 1024) (K := 512) (N := 512) none g W p h).trans ?_
  exact Finset.sum_congr rfl fun j _ => by rw [hg, hW]

/-- A `[1, 512]` row repeated down the tile. -/
theorem row_512 (v : FVec Ideal S1x512 .f32) (p : Fin 1024) (h : Fin 512) :
    broadcastTo S1024x512 v broadcasts_S1x512_S1024x512 (ix2 p h) = v (ix2 (0 : Fin 1) h) :=
  broadcastTo_1b_ab_apply v _ p h

/-- A `[1, 64]` row repeated down the tile. -/
theorem row_64 (v : FVec Ideal S1x64 .f32) (p : Fin 1024) (d : Fin 64) :
    broadcastTo S1024x64 v broadcasts_S1x64_S1024x64 (ix2 p d) = v (ix2 (0 : Fin 1) d) :=
  broadcastTo_1b_ab_apply v _ p d

/-! ## Softplus as the body spells it -/

/-- The body's softplus of one entry: the guard `y - 0 ≠ y - 0` never holds, so it is the overflow-safe branch,
    and `0 - |y - 0|` is `-|y|`. -/
def spK (y : EReal) : EReal :=
  Scalar.select (Ideal.cmp .one (y - Ideal.ofBits .f32 0x00000000#32) (y - Ideal.ofBits .f32 0x00000000#32))
    (y + Ideal.ofBits .f32 0x00000000#32)
    (max y (Ideal.ofBits .f32 0x00000000#32)
      + Ideal.log1p (Ideal.exp (Ideal.ofBits .f32 0x00000000#32
          - max (y - Ideal.ofBits .f32 0x00000000#32) (-(y - Ideal.ofBits .f32 0x00000000#32)))))

theorem spK_eq (y : EReal) : spK y = sp y := by
  unfold spK
  rw [Ideal.ofBits_zero_f32, sub_zero, zero_sub]
  have h0 : Ideal.cmp .one y y = 0#1 := by simp [Ideal.cmp]
  rw [h0, select_zero]
  rfl

end Cert.Icnn.Tile

end
-- ==== Proof.TileLayers.lean ====
/-
  The layers of one batch tile.

  Row `p` of the tile's first pre-activation is `pre0` of sample `p`; given that, row `p` of the second is `pre1` of
  sample `p` (the body's softplus of the first, times the square weights, plus the skip product and the bias); and so on
  through `pre3`. Backward, row `p` of each derivative array is `g3 … g0` of sample `p`: the last is the output weights
  times the logistic function of `pre3`, each earlier one the later one pushed through the square weights times the
  logistic function of its own pre-activation. The stored tile adds the four derivative arrays, each pushed through the
  matrix that took the sample into its layer, to the input-to-output weights: row `p` is `grad` of sample `p`.
-/
import proofs.«125153_j75711683494298_1_alg».proof.Proof.TileOps

noncomputable section

open scoped BigOperators

namespace Cert.Icnn.Tile

open Cert.KernelIdeal Cert.KernelIdeal.Gen Idealize.ShloMosaic Idealize.ShloMosaic.ValueIdx

variable (P : Params) (x : Fin 1024 → Fin 64 → EReal)

/-! ## Forward -/

/-- The first layer: `x · Wz0ᵀ + bz0`. -/
theorem pay16_at (v20 : FVec Ideal S1x512 .f32) (v27 : FVec Ideal S1024x64 .bf16) (w0 : FVec Ideal S512x64 .bf16)
    (h27 : ∀ p k, v27 (ix2 p k) = x p k) (hw0 : ∀ h k, w0 (ix2 h k) = P.Wz0 h k)
    (h20 : ∀ h, v20 (ix2 (0 : Fin 1) h) = P.bz0 h) (p : Fin 1024) (h : Fin 512) :
    k0_pay16 v20 v27 (transpose S64x512 [1, 0] w0 transposes_S512x64_p1_0_S64x512) (constant (F := Ideal) S1024x512 .f32 0x00000000#32) (ix2 p h) = pre0 P (x p) h := by
  have e : k0_pay16 v20 v27 (transpose S64x512 [1, 0] w0 transposes_S512x64_p1_0_S64x512) (constant (F := Ideal) S1024x512 .f32 0x00000000#32) (ix2 p h)
      = matmul dot_S1024x64_S64x512_S1024x512_1_0_0_1_n_n none v27 (transpose S64x512 [1, 0] w0 transposes_S512x64_p1_0_S64x512) (constant (F := Ideal) S1024x512 .f32 0x00000000#32) (ix2 p h) + broadcastTo S1024x512 v20 broadcasts_S1x512_S1024x512 (ix2 p h) := rfl
  rw [e, mmT_64 v27 w0 x P.Wz0 h27 hw0, row_512, h20]
  rfl

/-- The second layer, from the first. -/
theorem pay17_at (v6 : FVec Ideal S512x512 .bf16) (v12 : FVec Ideal S512x64 .bf16) (v20 v22 : FVec Ideal S1x512 .f32)
    (v27 : FVec Ideal S1024x64 .bf16) (v28 : FVec Ideal S64x512 .bf16) (cst : FVec Ideal S1024x512 .f32)
    (h16 : ∀ p h, k0_pay16 v20 v27 v28 cst (ix2 p h) = pre0 P (x p) h)
    (h27 : ∀ p k, v27 (ix2 p k) = x p k) (h6 : ∀ h j, v6 (ix2 h j) = P.Wz1 h j) (h12 : ∀ h k, v12 (ix2 h k) = P.Wx0 h k)
    (h22 : ∀ h, v22 (ix2 (0 : Fin 1) h) = P.bx0 h) (p : Fin 1024) (h : Fin 512) :
    k0_pay17 v6 v12 v20 v22 v27 v28 cst (ix2 p h) = pre1 P (x p) h := by
  have e : k0_pay17 v6 v12 v20 v22 v27 v28 cst (ix2 p h)
      = (matmul dot_S1024x512_S512x512_S1024x512_1_0_0_1_n_n none ((fun i => spK ((k0_pay16 v20 v27 v28 cst) i)) : FVec Ideal S1024x512 .bf16) (transpose S512x512 [1, 0] v6 transposes_S512x512_p1_0_S512x512) (constant (F := Ideal) S1024x512 .f32 0x00000000#32) (ix2 p h)
          + matmul dot_S1024x64_S64x512_S1024x512_1_0_0_1_n_n none v27 (transpose S64x512 [1, 0] v12 transposes_S512x64_p1_0_S64x512) (constant (F := Ideal) S1024x512 .f32 0x00000000#32) (ix2 p h))
        + broadcastTo S1024x512 v22 broadcasts_S1x512_S1024x512 (ix2 p h) := rfl
  rw [e, mmT_512 _ v6 (fun p j => sp (pre0 P (x p) j)) P.Wz1 (fun p j => by show spK _ = _; rw [spK_eq, h16]) h6,
    mmT_64 v27 v12 x P.Wx0 h27 h12, row_512, h22]
  rfl

/-- The third layer, from the second. -/
theorem pay18_at (v6 v8 : FVec Ideal S512x512 .bf16) (v12 v14 : FVec Ideal S512x64 .bf16) (v20 v22 v24 : FVec Ideal S1x512 .f32)
    (v27 : FVec Ideal S1024x64 .bf16) (v28 : FVec Ideal S64x512 .bf16) (cst : FVec Ideal S1024x512 .f32)
    (h17 : ∀ p h, k0_pay17 v6 v12 v20 v22 v27 v28 cst (ix2 p h) = pre1 P (x p) h)
    (h27 : ∀ p k, v27 (ix2 p k) = x p k) (h8 : ∀ h j, v8 (ix2 h j) = P.Wz2 h j) (h14 : ∀ h k, v14 (ix2 h k) = P.Wx1 h k)
    (h24 : ∀ h, v24 (ix2 (0 : Fin 1) h) = P.bx1 h) (p : Fin 1024) (h : Fin 512) :
    k0_pay18 v6 v8 v12 v14 v20 v22 v24 v27 v28 cst (ix2 p h) = pre2 P (x p) h := by
  have e : k0_pay18 v6 v8 v12 v14 v20 v22 v24 v27 v28 cst (ix2 p h)
      = (matmul dot_S1024x512_S512x512_S1024x512_1_0_0_1_n_n none ((fun i => spK ((k0_pay17 v6 v12 v20 v22 v27 v28 cst) i)) : FVec Ideal S1024x512 .bf16) (transpose S512x512 [1, 0] v8 transposes_S512x512_p1_0_S512x512) (constant (F := Ideal) S1024x512 .f32 0x00000000#32) (ix2 p h)
          + matmul dot_S1024x64_S64x512_S1024x512_1_0_0_1_n_n none v27 (transpose S64x512 [1, 0] v14 transposes_S512x64_p1_0_S64x512) (constant (F := Ideal) S1024x512 .f32 0x00000000#32) (ix2 p h))
        + broadcastTo S1024x512 v24 broadcasts_S1x512_S1024x512 (ix2 p h) := rfl
  rw [e, mmT_512 _ v8 (fun p j => sp (pre1 P (x p) j)) P.Wz2 (fun p j => by show spK _ = _; rw [spK_eq, h17]) h8,
    mmT_64 v27 v14 x P.Wx1 h27 h14, row_512, h24]
  rfl

/-- The fourth layer, from the third (the body hands the third over together with its maximum with `0` and its
    difference with `0`). -/
theorem pay1_at (v10 : FVec Ideal S512x512 .bf16) (v16 : FVec Ideal S512x64 .bf16) (v26 : FVec Ideal S1x512 .f32)
    (v27 : FVec Ideal S1024x64 .bf16) (y : FVec Ideal S1024x512 .f32)
    (hy : ∀ p h, y (ix2 p h) = pre2 P (x p) h)
    (h27 : ∀ p k, v27 (ix2 p k) = x p k) (h10 : ∀ h j, v10 (ix2 h j) = P.Wz3 h j) (h16 : ∀ h k, v16 (ix2 h k) = P.Wx2 h k)
    (h26 : ∀ h, v26 (ix2 (0 : Fin 1) h) = P.bx2 h) (p : Fin 1024) (h : Fin 512) :
    k0_pay1 v10 v16 v26 v27 y (Scalar.ofBits .f32 0x00000000#32 : Ideal .f32) (maximumf y (broadcast S1024x512 (Scalar.ofBits .f32 0x00000000#32 : Ideal .f32))) (subf y (broadcast S1024x512 (Scalar.ofBits .f32 0x00000000#32 : Ideal .f32))) (ix2 p h)
      = pre3 P (x p) h := by
  have e : k0_pay1 v10 v16 v26 v27 y (Scalar.ofBits .f32 0x00000000#32 : Ideal .f32) (maximumf y (broadcast S1024x512 (Scalar.ofBits .f32 0x00000000#32 : Ideal .f32))) (subf y (broadcast S1024x512 (Scalar.ofBits .f32 0x00000000#32 : Ideal .f32))) (ix2 p h)
      = (matmul dot_S1024x512_S512x512_S1024x512_1_0_0_1_n_n none ((fun i => spK (y i)) : FVec Ideal S1024x512 .bf16) (transpose S512x512 [1, 0] v10 transposes_S512x512_p1_0_S512x512) (constant (F := Ideal) S1024x512 .f32 0x00000000#32) (ix2 p h)
          + matmul dot_S1024x64_S64x512_S1024x512_1_0_0_1_n_n none v27 (transpose S64x512 [1, 0] v16 transposes_S512x64_p1_0_S64x512) (constant (F := Ideal) S1024x512 .f32 0x00000000#32) (ix2 p h))
        + broadcastTo S1024x512 v26 broadcasts_S1x512_S1024x512 (ix2 p h) := rfl
  rw [e, mmT_512 _ v10 (fun p j => sp (pre2 P (x p) j)) P.Wz3 (fun p j => by show spK _ = _; rw [spK_eq, hy]) h10,
    mmT_64 v27 v16 x P.Wx2 h27 h16, row_512, h26]
  rfl

/-! ## Backward -/

/-- A derivative array: what came back from the later layer times the logistic function of this layer's
    pre-activation, entry by entry. -/
def gOf (dz pre : FVec Ideal S1024x512 .f32) : FVec Ideal S1024x512 .bf16 := fun i => dz i * Ideal.logistic (pre i)

/-- The stored tile is the gradient of each of its samples. -/
theorem pay2_at (v4 v12 v14 v16 : FVec Ideal S512x64 .bf16) (v6 v8 v10 : FVec Ideal S512x512 .bf16)
    (v17 : Vec Ideal S1x512 .f32) (v18 : Vec Ideal S1x64 .f32) (v31 v53 v75 v97 : FVec Ideal S1024x512 .f32)
    (h4 : ∀ h d, v4 (ix2 h d) = P.Wz0 h d) (h6 : ∀ j h, v6 (ix2 j h) = P.Wz1 j h) (h8 : ∀ j h, v8 (ix2 j h) = P.Wz2 j h)
    (h10 : ∀ j h, v10 (ix2 j h) = P.Wz3 j h) (h12 : ∀ h d, v12 (ix2 h d) = P.Wx0 h d) (h14 : ∀ h d, v14 (ix2 h d) = P.Wx1 h d)
    (h16 : ∀ h d, v16 (ix2 h d) = P.Wx2 h d) (h17 : ∀ h, v17 (ix2 (0 : Fin 1) h) = P.WzL h)
    (h18 : ∀ d, v18 (ix2 (0 : Fin 1) d) = P.WxL d)
    (h31 : ∀ p h, v31 (ix2 p h) = pre0 P (x p) h) (h53 : ∀ p h, v53 (ix2 p h) = pre1 P (x p) h)
    (h75 : ∀ p h, v75 (ix2 p h) = pre2 P (x p) h) (h97 : ∀ p h, v97 (ix2 p h) = pre3 P (x p) h)
    (p : Fin 1024) (d : Fin 64) :
    k0_pay2 v4 v6 v8 v10 v12 v14 v16 v17 v18 v31 v53 v75 v97 (ix2 p d) = grad P (x p) d := by
  have e : k0_pay2 v4 v6 v8 v10 v12 v14 v16 v17 v18 v31 v53 v75 v97 (ix2 p d)
      = (((broadcastTo S1024x64 v18 broadcasts_S1x64_S1024x64 (ix2 p d)
          + matmul dot_S1024x512_S512x64_S1024x64_1_0_0_1_n_n none (gOf (matmul dot_S1024x512_S512x512_S1024x512_1_0_0_1_n_n none (gOf (matmul dot_S1024x512_S512x512_S1024x512_1_0_0_1_n_n none (gOf (matmul dot_S1024x512_S512x512_S1024x512_1_0_0_1_n_n none (gOf (broadcastTo S1024x512 v17 broadcasts_S1x512_S1024x512) v97) v10 (constant (F := Ideal) S1024x512 .f32 0x00000000#32)) v75) v8 (constant (F := Ideal) S1024x512 .f32 0x00000000#32)) v53) v6 (constant (F := Ideal) S1024x512 .f32 0x00000000#32)) v31) v4 (constant (F := Ideal) S1024x64 .f32 0x00000000#32) (ix2 p d))
          + matmul dot_S1024x512_S512x64_S1024x64_1_0_0_1_n_n none (gOf (matmul dot_S1024x512_S512x512_S1024x512_1_0_0_1_n_n none (gOf (matmul dot_S1024x512_S512x512_S1024x512_1_0_0_1_n_n none (gOf (broadcastTo S1024x512 v17 broadcasts_S1x512_S1024x512) v97) v10 (constant (F := Ideal) S1024x512 .f32 0x00000000#32)) v75) v8 (constant (F := Ideal) S1024x512 .f32 0x00000000#32)) v53) v12 (constant (F := Ideal) S1024x64 .f32 0x00000000#32) (ix2 p d))
          + matmul dot_S1024x512_S512x64_S1024x64_1_0_0_1_n_n none (gOf (matmul dot_S1024x512_S512x512_S1024x512_1_0_0_1_n_n none (gOf (broadcastTo S1024x512 v17 broadcasts_S1x512_S1024x512) v97) v10 (constant (F := Ideal) S1024x512 .f32 0x00000000#32)) v75) v14 (constant (F := Ideal) S1024x64 .f32 0x00000000#32) (ix2 p d))
          + matmul dot_S1024x512_S512x64_S1024x64_1_0_0_1_n_n none (gOf (broadcastTo S1024x512 v17 broadcasts_S1x512_S1024x512) v97) v16 (constant (F := Ideal) S1024x64 .f32 0x00000000#32) (ix2 p d) := rfl
  have a3 : ∀ p h, (gOf (broadcastTo S1024x512 v17 broadcasts_S1x512_S1024x512) v97) (ix2 p h) = g3 P (x p) h := fun p h => by
    show broadcastTo S1024x512 v17 broadcasts_S1x512_S1024x512 (ix2 p h) * Ideal.logistic (v97 (ix2 p h)) = _
    rw [row_512, h17, h97]
    rfl
  have a2 : ∀ p h, (gOf (matmul dot_S1024x512_S512x512_S1024x512_1_0_0_1_n_n none (gOf (broadcastTo S1024x512 v17 broadcasts_S1x512_S1024x512) v97) v10 (constant (F := Ideal) S1024x512 .f32 0x00000000#32)) v75) (ix2 p h) = g2 P (x p) h := fun p h => by
    show matmul dot_S1024x512_S512x512_S1024x512_1_0_0_1_n_n none (gOf (broadcastTo S1024x512 v17 broadcasts_S1x512_S1024x512) v97) v10 (constant (F := Ideal) S1024x512 .f32 0x00000000#32) (ix2 p h) * Ideal.logistic (v75 (ix2 p h)) = _
    rw [mm_512 _ v10 _ P.Wz3 a3 h10, h75]
    rfl
  have a1 : ∀ p h, (gOf (matmul dot_S1024x512_S512x512_S1024x512_1_0_0_1_n_n none (gOf (matmul dot_S1024x512_S512x512_S1024x512_1_0_0_1_n_n none (gOf (broadcastTo S1024x512 v17 broadcasts_S1x512_S1024x512) v97) v10 (constant (F := Ideal) S1024x512 .f32 0x00000000#32)) v75) v8 (constant (F := Ideal) S1024x512 .f32 0x00000000#32)) v53) (ix2 p h) = g1 P (x p) h := fun p h => by
    show matmul dot_S1024x512_S512x512_S1024x512_1_0_0_1_n_n none (gOf (matmul dot_S1024x512_S512x512_S1024x512_1_0_0_1_n_n none (gOf (broadcastTo S1024x512 v17 broadcasts_S1x512_S1024x512) v97) v10 (constant (F := Ideal) S1024x512 .f32 0x00000000#32)) v75) v8 (constant (F := Ideal) S1024x512 .f32 0x00000000#32) (ix2 p h) * Ideal.logistic (v53 (ix2 p h)) = _
    rw [mm_512 _ v8 _ P.Wz2 a2 h8, h53]
    rfl
  have a0 : ∀ p h, (gOf (matmul dot_S1024x512_S512x512_S1024x512_1_0_0_1_n_n none (gOf (matmul dot_S1024x512_S512x512_S1024x512_1_0_0_1_n_n none (gOf (matmul dot_S1024x512_S512x512_S1024x512_1_0_0_1_n_n none (gOf (broadcastTo S1024x512 v17 broadcasts_S1x512_S1024x512) v97) v10 (constant (F := Ideal) S1024x512 .f32 0x00000000#32)) v75) v8 (constant (F := Ideal) S1024x512 .f32 0x00000000#32)) v53) v6 (constant (F := Ideal) S1024x512 .f32 0x00000000#32)) v31) (ix2 p h) = g0 P (x p) h := fun p h => by
    show matmul dot_S1024x512_S512x512_S1024x512_1_0_0_1_n_n none (gOf (matmul dot_S1024x512_S512x512_S1024x512_1_0_0_1_n_n none (gOf (matmul dot_S1024x512_S512x512_S1024x512_1_0_0_1_n_n none (gOf (broadcastTo S1024x512 v17 broadcasts_S1x512_S1024x512) v97) v10 (constant (F := Ideal) S1024x512 .f32 0x00000000#32)) v75) v8 (constant (F := Ideal) S1024x512 .f32 0x00000000#32)) v53) v6 (constant (F := Ideal) S1024x512 .f32 0x00000000#32) (ix2 p h) * Ideal.logistic (v31 (ix2 p h)) = _
    rw [mm_512 _ v6 _ P.Wz1 a1 h6, h31]
    rfl
  rw [e, mm_64 _ v4 _ P.Wz0 a0 h4, mm_64 _ v12 _ P.Wx0 a1 h12, mm_64 _ v14 _ P.Wx1 a2 h14, mm_64 _ v16 _ P.Wx2 a3 h16,
    row_64, h18]
  rfl

end Cert.Icnn.Tile

end
-- ==== Proof.TileValue.lean ====
/-
  From tiles to the whole array.

  Grid point `t` stages rows `1024·t … 1024·t + 1023` of the state array and the whole of every weight array (a bias
  vector through its one-row view), and writes the tile it computes back to the same rows of the result. The tile's row
  `p` is the gradient at the sample in row `1024·t + p`, so the tile is that block of the array whose row `b` is the
  gradient at sample `b`; the 64 tiles cover the 65536 rows (row `b` is in tile `b / 1024`), so after the run the result
  array is that array.
-/
import proofs.«125153_j75711683494298_1_alg».proof.Proof.TileLayers
import proofs.«125153_j75711683494298_1_alg».proof.Proof.Gen.KernelIdeal.Value
import Idealize.ShloMosaic.Lib.Pipeline.Value
import Idealize.ShloMosaic.Lib.ValueLayout

noncomputable section

open scoped BigOperators

namespace Cert.Icnn.Tile

open Cert.KernelIdeal Cert.KernelIdeal.Gen Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-- The tile the body stores, from the blocks it loads: row `p` is the gradient at the sample in row `p` of the state
    block, for the weights the other blocks hold. -/
theorem out_at (P : Params) (x0 : Vec Ideal S1024x64 .f32) (x1 : Vec Ideal S512x64 .f32) (x2 : Vec Ideal S1x512 .f32)
    (x3 x4 x5 : Vec Ideal S512x512 .f32) (x6 : Vec Ideal S1x512 .f32) (x7 : Vec Ideal S512x64 .f32) (x8 : Vec Ideal S1x512 .f32)
    (x9 : Vec Ideal S512x64 .f32) (x10 : Vec Ideal S1x512 .f32) (x11 : Vec Ideal S512x64 .f32) (x12 : Vec Ideal S1x512 .f32)
    (x13 : Vec Ideal S1x64 .f32)
    (h1 : ∀ h k, x1 (ix2 h k) = P.Wz0 h k) (h2 : ∀ h, x2 (ix2 (0 : Fin 1) h) = P.bz0 h) (h3 : ∀ h j, x3 (ix2 h j) = P.Wz1 h j)
    (h4 : ∀ h j, x4 (ix2 h j) = P.Wz2 h j) (h5 : ∀ h j, x5 (ix2 h j) = P.Wz3 h j) (h6 : ∀ h, x6 (ix2 (0 : Fin 1) h) = P.WzL h)
    (h7 : ∀ h k, x7 (ix2 h k) = P.Wx0 h k) (h8 : ∀ h, x8 (ix2 (0 : Fin 1) h) = P.bx0 h) (h9 : ∀ h k, x9 (ix2 h k) = P.Wx1 h k)
    (h10 : ∀ h, x10 (ix2 (0 : Fin 1) h) = P.bx1 h) (h11 : ∀ h k, x11 (ix2 h k) = P.Wx2 h k)
    (h12 : ∀ h, x12 (ix2 (0 : Fin 1) h) = P.bx2 h) (h13 : ∀ d, x13 (ix2 (0 : Fin 1) d) = P.WxL d)
    (p : Fin 1024) (d : Fin 64) :
    out0_14 x0 x1 x2 x3 x4 x5 x6 x7 x8 x9 x10 x11 x12 x13 (ix2 p d)
      = grad P (fun k => x0 (ix2 p k) - Ideal.ofBits .f32 0x3F800000#32) d := by
  unfold out0_14
  rw [View.canon_unit_zero hz]
  simp only [View.ld_unit_zero (S := S1024x64) hz, View.ld_unit_zero (S := S512x64) hz, View.ld_unit_zero (S := S512x512) hz,
    View.ld_unit_zero (S := S1x512) hz, View.ld_unit_zero (S := S1x64) hz]
  have hx : ∀ p k, k0_pay14 x0 (ix2 p k) = (fun p k => x0 (ix2 p k) - Ideal.ofBits .f32 0x3F800000#32) p k := fun _ _ => rfl
  have c2 : ∀ h, k0_pay10 x2 (ix2 (0 : Fin 1) h) = P.bz0 h := fun h => by unfold k0_pay10; rw [shapeCast_self]; exact h2 h
  have c8 : ∀ h, k0_pay11 x8 (ix2 (0 : Fin 1) h) = P.bx0 h := fun h => by unfold k0_pay11; rw [shapeCast_self]; exact h8 h
  have c10 : ∀ h, k0_pay12 x10 (ix2 (0 : Fin 1) h) = P.bx1 h := fun h => by unfold k0_pay12; rw [shapeCast_self]; exact h10 h
  have c12 : ∀ h, k0_pay13 x12 (ix2 (0 : Fin 1) h) = P.bx2 h := fun h => by unfold k0_pay13; rw [shapeCast_self]; exact h12 h
  have a16 := pay16_at P (fun p k => x0 (ix2 p k) - Ideal.ofBits .f32 0x3F800000#32) (k0_pay10 x2) (k0_pay14 x0) (k0_pay3 x1) hx h1 c2
  have a17 := pay17_at P (fun p k => x0 (ix2 p k) - Ideal.ofBits .f32 0x3F800000#32) (k0_pay4 x3) (k0_pay7 x7) (k0_pay10 x2) (k0_pay11 x8)
    (k0_pay14 x0) (k0_pay15 x1) (constant (F := Ideal) S1024x512 .f32 0x00000000#32) a16 hx h3 h7 c8
  have a18 := pay18_at P (fun p k => x0 (ix2 p k) - Ideal.ofBits .f32 0x3F800000#32) (k0_pay4 x3) (k0_pay5 x4) (k0_pay7 x7) (k0_pay8 x9)
    (k0_pay10 x2) (k0_pay11 x8) (k0_pay12 x10) (k0_pay14 x0) (k0_pay15 x1) (constant (F := Ideal) S1024x512 .f32 0x00000000#32) a17 hx h4 h9 c10
  have a1 := pay1_at P (fun p k => x0 (ix2 p k) - Ideal.ofBits .f32 0x3F800000#32) (k0_pay6 x5) (k0_pay9 x11) (k0_pay13 x12) (k0_pay14 x0)
    (k0_pay18 (k0_pay4 x3) (k0_pay5 x4) (k0_pay7 x7) (k0_pay8 x9) (k0_pay10 x2) (k0_pay11 x8) (k0_pay12 x10) (k0_pay14 x0) (k0_pay15 x1) (constant (F := Ideal) S1024x512 .f32 0x00000000#32))
    a18 hx h5 h11 c12
  exact pay2_at P (fun p k => x0 (ix2 p k) - Ideal.ofBits .f32 0x3F800000#32) _ _ _ _ _ _ _ _ _ _ _ _ _
    h1 h3 h4 h5 h7 h9 h11 h6 h13 a16 a17 a18 a1 p d

end Cert.Icnn.Tile

end
-- ==== Proof.Cover.lean ====
/-
  The tiles cover the result.

  Grid point `t` fetches rows `1024·t …` of the state array and everything of each weight array, and writes its tile to
  rows `1024·t …` of the result; the tile is those rows of the array of per-sample gradients, and every row `b` lies in
  tile `b / 1024`. So the result array after the run is the array of per-sample gradients.
-/
import proofs.«125153_j75711683494298_1_alg».proof.Proof.TileValue
import Idealize.ShloMosaic.Lib.StableHlo.Run

noncomputable section

open scoped BigOperators

namespace Cert.Icnn.Tile

open Cert.KernelIdeal Cert.KernelIdeal.Gen Idealize.ShloMosaic Idealize.ShloMosaic.TcCoe Idealize.SL.Sem Idealize.ShloMosaic.ValueIdx
open Idealize.ShloMosaic.StableHlo
open Idealize.ShloMosaic.Pipeline (Dat)

variable (m : (ℓ : Loc nD τ sig) → Buf (Elt Ideal) ℓ) (ρ : Dev nD → PrngReg)

/-- The weights the memory holds. -/
def PK (c : Dev nD) : Params :=
  paramsOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-- The index maps over the grid: the state and the result move one tile per point, every weight stays put. -/
theorem idx_facts : ∀ t : Fin cfg0.N,
    win0_0.index t (0 : Fin 2) = t.val
    ∧ win0_0.index t (1 : Fin 2) = 0
    ∧ win0_14.index t (0 : Fin 2) = t.val
    ∧ win0_14.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = 0
    ∧ win0_12.index t (1 : Fin 2) = 0
    ∧ win0_13.index t (0 : Fin 2) = 0
    ∧ win0_13.index t (1 : Fin 2) = 0 :=
  (by decide +kernel : ∀ t : Fin grid0.N, _)

/-- The one-row view of a bias vector that the host lays out before the launch. -/
theorem V_bias_main_v0 (c : Dev nD) (h : Fin 512) :
    (V m c main_v0 : S1x512.Idx → EReal) (ix2 (0 : Fin 1) h) = (m ((c : Thread nD τ).loc main_arg2)) (ix1 h) := by
  have e : (V m c main_v0 : S1x512.Idx → EReal) = shapeCast S1x512 (m ((c : Thread nD τ).loc main_arg2)) shapeCasts_S512_S1x512 := by
    dsimp only [Gen.V, Gen.hostOps0]; after_results; rfl
  rw [e, shapeCast_a_1a_apply]

/-- The one-row view of a bias vector that the host lays out before the launch. -/
theorem V_bias_main_v1 (c : Dev nD) (h : Fin 512) :
    (V m c main_v1 : S1x512.Idx → EReal) (ix2 (0 : Fin 1) h) = (m ((c : Thread nD τ).loc main_arg8)) (ix1 h) := by
  have e : (V m c main_v1 : S1x512.Idx → EReal) = shapeCast S1x512 (m ((c : Thread nD τ).loc main_arg8)) shapeCasts_S512_S1x512 := by
    dsimp only [Gen.V, Gen.hostOps0]; after_results; rfl
  rw [e, shapeCast_a_1a_apply]

/-- The one-row view of a bias vector that the host lays out before the launch. -/
theorem V_bias_main_v2 (c : Dev nD) (h : Fin 512) :
    (V m c main_v2 : S1x512.Idx → EReal) (ix2 (0 : Fin 1) h) = (m ((c : Thread nD τ).loc main_arg10)) (ix1 h) := by
  have e : (V m c main_v2 : S1x512.Idx → EReal) = shapeCast S1x512 (m ((c : Thread nD τ).loc main_arg10)) shapeCasts_S512_S1x512 := by
    dsimp only [Gen.V, Gen.hostOps0]; after_results; rfl
  rw [e, shapeCast_a_1a_apply]

/-- The one-row view of a bias vector that the host lays out before the launch. -/
theorem V_bias_main_v3 (c : Dev nD) (h : Fin 512) :
    (V m c main_v3 : S1x512.Idx → EReal) (ix2 (0 : Fin 1) h) = (m ((c : Thread nD τ).loc main_arg12)) (ix1 h) := by
  have e : (V m c main_v3 : S1x512.Idx → EReal) = shapeCast S1x512 (m ((c : Thread nD τ).loc main_arg12)) shapeCasts_S512_S1x512 := by
    dsimp only [Gen.V, Gen.hostOps0]; after_results; rfl
  rw [e, shapeCast_a_1a_apply]

/-- What point `t` writes back is block `t` of the array of per-sample gradients. -/
theorem flushed_eq (c : Dev nD) (t : Fin cfg0.N) :
    (dats m 0 c).flushed 14 t
      = ((cfg0.win 14).blk t).view.read (Elt Ideal) (gradArr (m ((c : Thread nD τ).loc main_arg0)) (PK m c)) := by
  rw [Cert.KernelIdeal.Value.flushed14]
  obtain ⟨f0_0, f0_1, f14_0, f14_1, f1_0, f1_1, f2_0, f2_1, f3_0, f3_1, f4_0, f4_1, f5_0, f5_1, f6_0, f6_1, f7_0, f7_1, f8_0, f8_1, f9_0, f9_1, f10_0, f10_1, f11_0, f11_1, f12_0, f12_1, f13_0, f13_1⟩ := idx_facts t
  funext y
  obtain ⟨p, d, rfl⟩ : ∃ (p : Fin 1024) (d : Fin 64), y = ix2 p d := ⟨y 0, y 1, eq_ix2 y⟩
  show out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 p d)
    = gradArr (m ((c : Thread nD τ).loc main_arg0)) (PK m c) (((cfg0.win 14).blk t).view.emb (ix2 p d))
  refine (out_at (PK m c) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) ?_ ?_ ?_ ?_ ?_ ?_ ?_ ?_ ?_ ?_ ?_ ?_ ?_ p d).trans ?_
  · intro h k
    show V m c main_arg1 (((cfg0.win 1).blk t).view.emb (ix2 h k)) = (m ((c : Thread nD τ).loc main_arg1)) (ix2 h k)
    rw [V_main_arg1]
    refine congrArg _ (funext fun a => Fin.ext ?_)
    match a with
    | ⟨0, _⟩ => show win0_1.index t (0 : Fin 2) * 512 + 1 * h.val = h.val; omega
    | ⟨1, _⟩ => show win0_1.index t (1 : Fin 2) * 64 + 1 * k.val = k.val; omega
  · intro h
    show V m c main_v0 (((cfg0.win 2).blk t).view.emb (ix2 (0 : Fin 1) h)) = (m ((c : Thread nD τ).loc main_arg2)) (ix1 h)
    have e : ((cfg0.win 2).blk t).view.emb (ix2 (0 : Fin 1) h) = ix2 (0 : Fin 1) h := funext fun a => Fin.ext (by
      match a with
      | ⟨0, _⟩ => show win0_2.index t (0 : Fin 2) * 1 + 1 * ((0 : Fin 1) : ℕ) = ((0 : Fin 1) : ℕ); omega
      | ⟨1, _⟩ => show win0_2.index t (1 : Fin 2) * 512 + 1 * h.val = h.val; omega)
    rw [e]
    exact V_bias_main_v0 m c h
  · intro h k
    show V m c main_arg3 (((cfg0.win 3).blk t).view.emb (ix2 h k)) = (m ((c : Thread nD τ).loc main_arg3)) (ix2 h k)
    rw [V_main_arg3]
    refine congrArg _ (funext fun a => Fin.ext ?_)
    match a with
    | ⟨0, _⟩ => show win0_3.index t (0 : Fin 2) * 512 + 1 * h.val = h.val; omega
    | ⟨1, _⟩ => show win0_3.index t (1 : Fin 2) * 512 + 1 * k.val = k.val; omega
  · intro h k
    show V m c main_arg4 (((cfg0.win 4).blk t).view.emb (ix2 h k)) = (m ((c : Thread nD τ).loc main_arg4)) (ix2 h k)
    rw [V_main_arg4]
    refine congrArg _ (funext fun a => Fin.ext ?_)
    match a with
    | ⟨0, _⟩ => show win0_4.index t (0 : Fin 2) * 512 + 1 * h.val = h.val; omega
    | ⟨1, _⟩ => show win0_4.index t (1 : Fin 2) * 512 + 1 * k.val = k.val; omega
  · intro h k
    show V m c main_arg5 (((cfg0.win 5).blk t).view.emb (ix2 h k)) = (m ((c : Thread nD τ).loc main_arg5)) (ix2 h k)
    rw [V_main_arg5]
    refine congrArg _ (funext fun a => Fin.ext ?_)
    match a with
    | ⟨0, _⟩ => show win0_5.index t (0 : Fin 2) * 512 + 1 * h.val = h.val; omega
    | ⟨1, _⟩ => show win0_5.index t (1 : Fin 2) * 512 + 1 * k.val = k.val; omega
  · intro h
    show V m c main_arg6 (((cfg0.win 6).blk t).view.emb (ix2 (0 : Fin 1) h)) = (m ((c : Thread nD τ).loc main_arg6)) (ix2 (0 : Fin 1) h)
    rw [V_main_arg6]
    refine congrArg _ (funext fun a => Fin.ext ?_)
    match a with
    | ⟨0, _⟩ => show win0_6.index t (0 : Fin 2) * 1 + 1 * ((0 : Fin 1) : ℕ) = ((0 : Fin 1) : ℕ); omega
    | ⟨1, _⟩ => show win0_6.index t (1 : Fin 2) * 512 + 1 * h.val = h.val; omega
  · intro h k
    show V m c main_arg7 (((cfg0.win 7).blk t).view.emb (ix2 h k)) = (m ((c : Thread nD τ).loc main_arg7)) (ix2 h k)
    rw [V_main_arg7]
    refine congrArg _ (funext fun a => Fin.ext ?_)
    match a with
    | ⟨0, _⟩ => show win0_7.index t (0 : Fin 2) * 512 + 1 * h.val = h.val; omega
    | ⟨1, _⟩ => show win0_7.index t (1 : Fin 2) * 64 + 1 * k.val = k.val; omega
  · intro h
    show V m c main_v1 (((cfg0.win 8).blk t).view.emb (ix2 (0 : Fin 1) h)) = (m ((c : Thread nD τ).loc main_arg8)) (ix1 h)
    have e : ((cfg0.win 8).blk t).view.emb (ix2 (0 : Fin 1) h) = ix2 (0 : Fin 1) h := funext fun a => Fin.ext (by
      match a with
      | ⟨0, _⟩ => show win0_8.index t (0 : Fin 2) * 1 + 1 * ((0 : Fin 1) : ℕ) = ((0 : Fin 1) : ℕ); omega
      | ⟨1, _⟩ => show win0_8.index t (1 : Fin 2) * 512 + 1 * h.val = h.val; omega)
    rw [e]
    exact V_bias_main_v1 m c h
  · intro h k
    show V m c main_arg9 (((cfg0.win 9).blk t).view.emb (ix2 h k)) = (m ((c : Thread nD τ).loc main_arg9)) (ix2 h k)
    rw [V_main_arg9]
    refine congrArg _ (funext fun a => Fin.ext ?_)
    match a with
    | ⟨0, _⟩ => show win0_9.index t (0 : Fin 2) * 512 + 1 * h.val = h.val; omega
    | ⟨1, _⟩ => show win0_9.index t (1 : Fin 2) * 64 + 1 * k.val = k.val; omega
  · intro h
    show V m c main_v2 (((cfg0.win 10).blk t).view.emb (ix2 (0 : Fin 1) h)) = (m ((c : Thread nD τ).loc main_arg10)) (ix1 h)
    have e : ((cfg0.win 10).blk t).view.emb (ix2 (0 : Fin 1) h) = ix2 (0 : Fin 1) h := funext fun a => Fin.ext (by
      match a with
      | ⟨0, _⟩ => show win0_10.index t (0 : Fin 2) * 1 + 1 * ((0 : Fin 1) : ℕ) = ((0 : Fin 1) : ℕ); omega
      | ⟨1, _⟩ => show win0_10.index t (1 : Fin 2) * 512 + 1 * h.val = h.val; omega)
    rw [e]
    exact V_bias_main_v2 m c h
  · intro h k
    show V m c main_arg11 (((cfg0.win 11).blk t).view.emb (ix2 h k)) = (m ((c : Thread nD τ).loc main_arg11)) (ix2 h k)
    rw [V_main_arg11]
    refine congrArg _ (funext fun a => Fin.ext ?_)
    match a with
    | ⟨0, _⟩ => show win0_11.index t (0 : Fin 2) * 512 + 1 * h.val = h.val; omega
    | ⟨1, _⟩ => show win0_11.index t (1 : Fin 2) * 64 + 1 * k.val = k.val; omega
  · intro h
    show V m c main_v3 (((cfg0.win 12).blk t).view.emb (ix2 (0 : Fin 1) h)) = (m ((c : Thread nD τ).loc main_arg12)) (ix1 h)
    have e : ((cfg0.win 12).blk t).view.emb (ix2 (0 : Fin 1) h) = ix2 (0 : Fin 1) h := funext fun a => Fin.ext (by
      match a with
      | ⟨0, _⟩ => show win0_12.index t (0 : Fin 2) * 1 + 1 * ((0 : Fin 1) : ℕ) = ((0 : Fin 1) : ℕ); omega
      | ⟨1, _⟩ => show win0_12.index t (1 : Fin 2) * 512 + 1 * h.val = h.val; omega)
    rw [e]
    exact V_bias_main_v3 m c h
  · intro h
    show V m c main_arg13 (((cfg0.win 13).blk t).view.emb (ix2 (0 : Fin 1) h)) = (m ((c : Thread nD τ).loc main_arg13)) (ix2 (0 : Fin 1) h)
    rw [V_main_arg13]
    refine congrArg _ (funext fun a => Fin.ext ?_)
    match a with
    | ⟨0, _⟩ => show win0_13.index t (0 : Fin 2) * 1 + 1 * ((0 : Fin 1) : ℕ) = ((0 : Fin 1) : ℕ); omega
    | ⟨1, _⟩ => show win0_13.index t (1 : Fin 2) * 64 + 1 * h.val = h.val; omega
  · show grad (PK m c) _ d = grad (PK m c) (sample (m ((c : Thread nD τ).loc main_arg0)) ((((cfg0.win 14).blk t).view.emb (ix2 p d)) 0))
      ((((cfg0.win 14).blk t).view.emb (ix2 p d)) 1)
    have e1 : (((cfg0.win 14).blk t).view.emb (ix2 p d)) 1 = d :=
      Fin.ext (by show win0_14.index t (1 : Fin 2) * 64 + 1 * d.val = d.val; omega)
    have e0 : ∀ k : Fin 64, (iblk m c 0 t : Vec Ideal S1024x64 .f32) (ix2 p k)
        = (m ((c : Thread nD τ).loc main_arg0)) (ix2 ((((cfg0.win 14).blk t).view.emb (ix2 p d)) 0) k) := fun k => by
      show V m c main_arg0 (((cfg0.win 0).blk t).view.emb (ix2 p k))
        = (m ((c : Thread nD τ).loc main_arg0)) (ix2 ((((cfg0.win 14).blk t).view.emb (ix2 p d)) 0) k)
      rw [V_main_arg0]
      refine congrArg _ (funext fun a => Fin.ext ?_)
      match a with
      | ⟨0, _⟩ => show win0_0.index t (0 : Fin 2) * 1024 + 1 * p.val = win0_14.index t (0 : Fin 2) * 1024 + 1 * p.val; omega
      | ⟨1, _⟩ => show win0_0.index t (1 : Fin 2) * 64 + 1 * k.val = k.val; omega
    exact congrArg₂ (grad (PK m c))
      (funext fun k => congrArg (fun z : EReal => z - Ideal.ofBits .f32 0x3F800000#32) (e0 k)) e1.symm

/-- An index of the result is in point `t`'s block iff each coordinate is in the block's range on its axis. -/
theorem mem_blk (t : Fin cfg0.N) (i : S65536x64.Idx) :
    i ∈ ((cfg0.win 14).blk t).view.set ↔ ∀ a : Fin 2, win0_14.index t a * S1024x64.size a ≤ (i a).val
      ∧ (i a).val < win0_14.index t a * S1024x64.size a + S1024x64.size a := by
  show i ∈ ((View.whole main_v4).slice (win0_14.rect t)).set ↔ _
  rw [View.set_slice_whole, Rect.mem_set_unit]
  exact Iff.rfl

/-- Row `b` of the result lies in tile `b / 1024`. -/
theorem cover (i : S65536x64.Idx) :
    ∃ t : Fin cfg0.N, (cfg0.win 14).flush t = true ∧ i ∈ ((cfg0.win 14).blk t).view.set := by
  have hi0 : (i 0).val < 65536 := (i 0).isLt
  have hi1 : (i 1).val < 64 := (i 1).isLt
  have hlt : (i 0).val / 1024 < cfg0.N := lt_of_lt_of_eq (by omega : (i 0).val / 1024 < 64) N_0.symm
  obtain ⟨f0_0, f0_1, f14_0, f14_1, f1_0, f1_1, f2_0, f2_1, f3_0, f3_1, f4_0, f4_1, f5_0, f5_1, f6_0, f6_1, f7_0, f7_1, f8_0, f8_1, f9_0, f9_1, f10_0, f10_1, f11_0, f11_1, f12_0, f12_1, f13_0, f13_1⟩ := idx_facts ⟨(i 0).val / 1024, hlt⟩
  refine ⟨⟨(i 0).val / 1024, hlt⟩, flush0_14 _, ?_⟩
  rw [mem_blk]
  intro a
  match a with
  | ⟨0, _⟩ =>
    show win0_14.index ⟨(i 0).val / 1024, hlt⟩ (0 : Fin 2) * 1024 ≤ (i 0).val
      ∧ (i 0).val < win0_14.index ⟨(i 0).val / 1024, hlt⟩ (0 : Fin 2) * 1024 + 1024
    rw [f14_0]
    show (i 0).val / 1024 * 1024 ≤ (i 0).val ∧ (i 0).val < (i 0).val / 1024 * 1024 + 1024
    omega
  | ⟨1, _⟩ =>
    show win0_14.index ⟨(i 0).val / 1024, hlt⟩ (1 : Fin 2) * 64 ≤ (i 1).val
      ∧ (i 1).val < win0_14.index ⟨(i 0).val / 1024, hlt⟩ (1 : Fin 2) * 64 + 64
    omega

/-- The result array after the run is the array of per-sample gradients. -/
theorem final (c : Dev nD) : (dats m 0 c).arrAt 14 cfg0.N = gradArr (m ((c : Thread nD τ).loc main_arg0)) (PK m c) :=
  (dats m 0 c).arrAt_eq_of_cover 14 (gradArr (m ((c : Thread nD τ).loc main_arg0)) (PK m c)) (fun t _ => flushed_eq m c t) cover

/-- Every weakly fair execution of the kernel's program terminates with the result array at the array of per-sample
    gradients and the input arrays unchanged. -/
theorem run : θ_run defs (onTc (τ := τ) (main (F := Ideal))) ⟨m, fun _ => 0, ρ⟩ fun r => ∀ c : Dev nD,
      r.2.mem ((c : Thread nD τ).loc main_v4) = gradArr (m ((c : Thread nD τ).loc main_arg0)) (PK m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final m c), (h c).2⟩) (Cert.KernelIdeal.Value.run_blocks m ρ)

end Cert.Icnn.Tile

end
-- ==== Proof.LibWrittenRefs.lean ====
/-
  A straight line of host operations each of which writes exactly one buffer: when the buffers written, in order,
  are the references of a list `W`, a reference outside `W` is written by no operation of the line, and so keeps its
  contents across the line. The hypothesis is one equation between two lists (the operations' written sets against the
  singletons of `W`), which for a literal line holds by unfolding; membership in `W` is then decided over references alone.
-/
import Idealize.ShloMosaic.Lib.StableHlo.Run

namespace Idealize.ShloMosaic.StableHlo

variable {τ : Topo} {sig : RefSig} {Val : EltTy → Type}

/-- Every operation of a line whose written sets are, in order, the singletons of the references `W` writes only
    references of `W`. -/
theorem writes_sub_of_map_eq :
    ∀ (ops : List (HloOp τ sig Val)) (W : List (Ref sig .tc)),
      ops.map (fun op => op.writes) = W.map (fun r => ({Proc.devRef (τ := τ) .tc r} : Finset (DevRef τ sig))) →
      ∀ op ∈ ops, op.writes ⊆ (W.map (Proc.devRef (τ := τ) .tc)).toFinset
  | [], _, _ => fun _ hop => nomatch hop
  | _ :: _, [], h => nomatch h
  | o :: os, r :: W', h => by
    simp only [List.map_cons, List.cons.injEq] at h
    intro op hop
    rcases List.mem_cons.mp hop with rfl | hop
    · rw [h.1]
      intro b hb
      rw [Finset.mem_singleton] at hb
      subst hb
      exact List.mem_toFinset.mpr (List.mem_map.mpr ⟨r, List.mem_cons_self, rfl⟩)
    · refine (writes_sub_of_map_eq os W' h.2 op hop).trans fun b hb => ?_
      obtain ⟨y, hy, he⟩ := List.mem_map.mp (List.mem_toFinset.mp hb)
      exact List.mem_toFinset.mpr (List.mem_map.mpr ⟨y, List.mem_cons_of_mem _ hy, he⟩)

/-- No operation of such a line writes a reference outside `W`. -/
theorem not_mem_writes_of_map_eq {ops : List (HloOp τ sig Val)} {W : List (Ref sig .tc)}
    (h : ops.map (fun op => op.writes) = W.map (fun r => ({Proc.devRef (τ := τ) .tc r} : Finset (DevRef τ sig))))
    {r : Ref sig .tc} (hr : r ∉ W) {op : HloOp τ sig Val} (hop : op ∈ ops) : Proc.devRef (τ := τ) .tc r ∉ op.writes := fun hw => by
  obtain ⟨y, hy, he⟩ := List.mem_map.mp (List.mem_toFinset.mp (writes_sub_of_map_eq ops W h op hop hw))
  exact hr (Proc.devRef_injective _ he ▸ hy)

/-- A reference outside `W` holds after such a line what it held before it. -/
theorem after_of_map_writes_eq {ops : List (HloOp τ sig Val)} {W : List (Ref sig .tc)}
    (h : ops.map (fun op => op.writes) = W.map (fun r => ({Proc.devRef (τ := τ) .tc r} : Finset (DevRef τ sig))))
    (V : Valuation τ sig Val) {r : Ref sig .tc} (hr : r ∉ W) :
    after ops V (Proc.devRef .tc r) = V (Proc.devRef .tc r) :=
  after_of_forall_not_mem ops V fun _ hop => not_mem_writes_of_map_eq h hr hop

end Idealize.ShloMosaic.StableHlo
-- ==== Proof.LibSingleAssign.lean ====
/-
  Straight lines of host operations in single-assignment form: each operation writes exactly one buffer, and no buffer is
  written twice. For such a line the valuation after the whole line can be read one variable at a time: the final value of
  the variable the `j`-th operation assigns is that operation's function of the FINAL values of its operands, provided
  each operand is assigned before position `j` or not at all (it is then never touched again). So a value computed by a
  long line is described by one small equation per operation, and two lines can be compared variable by variable
  without ever writing out a whole composed term.
-/
import Idealize.ShloMosaic.Lib.StableHlo.Run
import proofs.«125153_j75711683494298_1_alg».proof.Proof.LibWrittenRefs

namespace Idealize.ShloMosaic.StableHlo

variable {τ : Topo} {sig : RefSig} {Val : EltTy → Type}

/-- The line `ops` assigns the references `W`, one per operation in order, each once. -/
structure SingleAssign (ops : List (HloOp τ sig Val)) (W : List (Ref sig .tc)) : Prop where
  writes : ops.map (fun op => op.writes) = W.map (fun r => ({Proc.devRef (τ := τ) .tc r} : Finset (DevRef τ sig)))
  nodup : W.Nodup

theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- In a list without repetition the entry at position `i` does not occur from a later position `j` on. -/
theorem not_mem_drop_of_nodup {α : Type} : ∀ (W : List α), W.Nodup → ∀ (i j : Nat) (x : α), W[i]? = some x → i < j → x ∉ W.drop j
  | [], _, _, _, _, h, _ => by simp at h
  | _ :: _, _, _, 0, _, _, hlt => absurd hlt (Nat.not_lt_zero _)
  | r :: W', hn, 0, j + 1, x, h, _ => by
    simp only [List.getElem?_cons_zero, Option.some.injEq] at h
    subst h
    rw [List.drop_succ_cons]
    exact fun hm => (List.nodup_cons.mp hn).1 (List.mem_of_mem_drop hm)
  | r :: W', hn, i + 1, j + 1, x, h, hlt => by
    rw [List.drop_succ_cons]
    rw [List.getElem?_cons_succ] at h
    exact not_mem_drop_of_nodup W' (List.nodup_cons.mp hn).2 i j x h (Nat.lt_of_succ_lt_succ hlt)

/-- The final value of the variable the `j`-th operation assigns is that operation's result over the valuation before it. -/
theorem after_at : ∀ (ops : List (HloOp τ sig Val)) (W : List (Ref sig .tc)),
    ops.map (fun op => op.writes) = W.map (fun r => ({Proc.devRef (τ := τ) .tc r} : Finset (DevRef τ sig))) → W.Nodup →
    ∀ (V : Valuation τ sig Val) (j : Nat) (op : HloOp τ sig Val) (y : Ref sig .tc), ops[j]? = some op → W[j]? = some y →
      after ops V (Proc.devRef .tc y) = op.result (after (ops.take j) V) (Proc.devRef .tc y)
  | [], _, _, _, _, _, _, _, hop, _ => by simp at hop
  | _ :: _, [], hw, _, _, _, _, _, _, _ => by simp at hw
  | o :: os, r :: W', hw, hn, V, 0, op, y, hop, hy => by
    simp only [List.getElem?_cons_zero, Option.some.injEq] at hop hy
    subst hop hy
    simp only [List.map_cons, List.cons.injEq] at hw
    rw [after_cons, List.take_zero, after_nil]
    exact after_of_map_writes_eq hw.2 _ (List.nodup_cons.mp hn).1
  | o :: os, r :: W', hw, hn, V, j + 1, op, y, hop, hy => by
    simp only [List.map_cons, List.cons.injEq] at hw
    rw [List.getElem?_cons_succ] at hop hy
    rw [after_cons, List.take_succ_cons, after_cons]
    exact after_at os W' hw.2 (List.nodup_cons.mp hn).2 (o.result V) j op y hop hy

variable {ops : List (HloOp τ sig Val)} {W : List (Ref sig .tc)}

/-- A reference not assigned from position `j` on already holds its final value before position `j`. -/
theorem after_take_of_not_mem_drop (h : SingleAssign ops W) (V : Valuation τ sig Val) (j : Nat) {x : Ref sig .tc} (hx : x ∉ W.drop j) :
    after (ops.take j) V (Proc.devRef .tc x) = after ops V (Proc.devRef .tc x) := by
  conv_rhs => rw [← List.take_append_drop j ops, after_append]
  refine (after_of_map_writes_eq (W := W.drop j) ?_ _ hx).symm
  rw [List.map_drop, h.writes, List.map_drop]

/-- A reference assigned at an earlier position already holds its final value. -/
theorem after_take_of_lt (h : SingleAssign ops W) (V : Valuation τ sig Val) {i j : Nat} {x : Ref sig .tc} (hi : W[i]? = some x) (hij : i < j) :
    after (ops.take j) V (Proc.devRef .tc x) = after ops V (Proc.devRef .tc x) :=
  after_take_of_not_mem_drop h V j (not_mem_drop_of_nodup W h.nodup i j x hi hij)

/-- A reference the line never assigns holds throughout what it held before the line. -/
theorem after_of_not_assigned (h : SingleAssign ops W) (V : Valuation τ sig Val) {x : Ref sig .tc} (hx : x ∉ W) :
    after ops V (Proc.devRef .tc x) = V (Proc.devRef .tc x) :=
  after_of_map_writes_eq h.writes V hx

/-- and so did it before any position. -/
theorem after_take_of_not_assigned (h : SingleAssign ops W) (V : Valuation τ sig Val) (j : Nat) {x : Ref sig .tc} (hx : x ∉ W) :
    after (ops.take j) V (Proc.devRef .tc x) = after ops V (Proc.devRef .tc x) :=
  after_take_of_not_mem_drop h V j fun hm => hx (List.mem_of_mem_drop hm)

/-! ## The final value of an assigned variable, builder by builder -/

theorem final_nullary (h : SingleAssign ops W) (V : Valuation τ sig Val) (j : Nat) {y : Ref sig .tc} {v : y.ty.Contents Val} {hy}
    (hop : ops[j]? = some (nullary y v hy)) (hw : W[j]? = some y) :
    after ops V (Proc.devRef .tc y) = v := by
  rw [after_at ops W h.writes h.nodup V j _ y hop hw, nullary_result]

theorem final_unary (h : SingleAssign ops W) (V : Valuation τ sig Val) (j : Nat) {x y : Ref sig .tc}
    {f : x.ty.Contents Val → y.ty.Contents Val} {hx hy}
    (hop : ops[j]? = some (unary x y f hx hy)) (hw : W[j]? = some y)
    (sx : after (ops.take j) V (Proc.devRef .tc x) = after ops V (Proc.devRef .tc x)) :
    after ops V (Proc.devRef .tc y) = f (after ops V (Proc.devRef .tc x)) := by
  rw [after_at ops W h.writes h.nodup V j _ y hop hw, unary_result, sx]

theorem final_binary (h : SingleAssign ops W) (V : Valuation τ sig Val) (j : Nat) {a b y : Ref sig .tc}
    {f : a.ty.Contents Val → b.ty.Contents Val → y.ty.Contents Val} {ha hb hy}
    (hop : ops[j]? = some (binary a b y f ha hb hy)) (hw : W[j]? = some y)
    (sa : after (ops.take j) V (Proc.devRef .tc a) = after ops V (Proc.devRef .tc a))
    (sb : after (ops.take j) V (Proc.devRef .tc b) = after ops V (Proc.devRef .tc b)) :
    after ops V (Proc.devRef .tc y) = f (after ops V (Proc.devRef .tc a)) (after ops V (Proc.devRef .tc b)) := by
  rw [after_at ops W h.writes h.nodup V j _ y hop hw, binary_result, sa, sb]

theorem final_ternary (h : SingleAssign ops W) (V : Valuation τ sig Val) (j : Nat) {c a b y : Ref sig .tc}
    {f : c.ty.Contents Val → a.ty.Contents Val → b.ty.Contents Val → y.ty.Contents Val} {hc ha hb hy}
    (hop : ops[j]? = some (ternary c a b y f hc ha hb hy)) (hw : W[j]? = some y)
    (sc : after (ops.take j) V (Proc.devRef .tc c) = after ops V (Proc.devRef .tc c))
    (sa : after (ops.take j) V (Proc.devRef .tc a) = after ops V (Proc.devRef .tc a))
    (sb : after (ops.take j) V (Proc.devRef .tc b) = after ops V (Proc.devRef .tc b)) :
    after ops V (Proc.devRef .tc y)
      = f (after ops V (Proc.devRef .tc c)) (after ops V (Proc.devRef .tc a)) (after ops V (Proc.devRef .tc b)) := by
  rw [after_at ops W h.writes h.nodup V j _ y hop hw, ternary_result, sc, sa, sb]

theorem final_reshape (h : SingleAssign ops W) (V : Valuation τ sig Val) (j : Nat) {x y : Ref sig .tc}
    {he : x.ty.elt = y.ty.elt} {hn : x.ty.shape.ShapeCasts y.ty.shape} {hx hy}
    (hop : ops[j]? = some (reshape x y he hn hx hy)) (hw : W[j]? = some y)
    (sx : after (ops.take j) V (Proc.devRef .tc x) = after ops V (Proc.devRef .tc x)) :
    after ops V (Proc.devRef .tc y) = fun i => he ▸ shapeCast y.ty.shape (after ops V (Proc.devRef .tc x)) hn i := by
  rw [after_at ops W h.writes h.nodup V j _ y hop hw, reshape_result, sx]

end Idealize.ShloMosaic.StableHlo
-- ==== Proof.RefLine.lean ====
/-
  The reference as a straight line of array operations in single-assignment form.

  The reference's gradient is one long line of whole-array operations — the four layers forward, each softplus together
  with the factor its derivative will need, then the chain rule backward — in which every operation assigns a fresh array
  and none is assigned twice. So after the line has run, each array holds its operation's function of the FINAL contents
  of that operation's operands, and the input arrays hold what they held at the start. The run is read off that way,
  one array at a time, never as one composed expression (whose size grows with every reuse of an intermediate array).
-/
import proofs.«125153_j75711683494298_1_alg».proof.Proof.Gen.ReferenceIdeal
import proofs.«125153_j75711683494298_1_alg».proof.Proof.LibSingleAssign
import Idealize.ShloMosaic.Lib.StableHlo.Run

noncomputable section

namespace Cert.Icnn.RefLine

open Cert.ReferenceIdeal Cert.ReferenceIdeal.Gen Idealize.ShloMosaic Idealize.ShloMosaic.TcCoe Idealize.SL.Sem Idealize.ShloMosaic.StableHlo

variable {F : FTy → Type} [FloatOps F]

/-- The line: the reference's 242 operations in order, a called function's operations standing in its call's place. -/
def ops : List (HloOp τ sig (Elt F)) :=
  [ nullary main_cst (constant S_ .f32 0x3F800000#32),
    unary main_cst main_v0 (broadcastInDim S65536x64 ![] bcast_S_S65536x64 : (⟨S_, .f32⟩ : BufTy).Contents (Elt F) → (⟨S65536x64, .f32⟩ : BufTy).Contents (Elt F)),
    binary main_arg0 main_v0 main_v1 (subf : (⟨S65536x64, .f32⟩ : BufTy).Contents (Elt F) → (⟨S65536x64, .f32⟩ : BufTy).Contents (Elt F) → (⟨S65536x64, .f32⟩ : BufTy).Contents (Elt F)),
    unary main_arg1 main_v2 ((transpose S64x512 [1, 0] · transposes_S512x64_S64x512_1_0) : (⟨S512x64, .f32⟩ : BufTy).Contents (Elt F) → (⟨S64x512, .f32⟩ : BufTy).Contents (Elt F)),
    binary main_v1 main_v2 main_v3 ((fun l r => Host.dotGeneral dot_S65536x64_S64x512_S65536x512_1_0_0_1_n_n none l r) : (⟨S65536x64, .f32⟩ : BufTy).Contents (Elt F) → (⟨S64x512, .f32⟩ : BufTy).Contents (Elt F) → (⟨S65536x512, .f32⟩ : BufTy).Contents (Elt F)),
    unary main_arg2 main_v4 (broadcastInDim S1x512 ![1] bcast_S512_S1x512_1 : (⟨S512, .f32⟩ : BufTy).Contents (Elt F) → (⟨S1x512, .f32⟩ : BufTy).Contents (Elt F)),
    unary main_v4 main_v5 (broadcastInDim S65536x512 ![0, 1] bcast_S1x512_S65536x512_0_1 : (⟨S1x512, .f32⟩ : BufTy).Contents (Elt F) → (⟨S65536x512, .f32⟩ : BufTy).Contents (Elt F)),
    binary main_v3 main_v5 main_v6 (addf : (⟨S65536x512, .f32⟩ : BufTy).Contents (Elt F) → (⟨S65536x512, .f32⟩ : BufTy).Contents (Elt F) → (⟨S65536x512, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S65536x512, .f32⟩) main_call0_v0) (broadcastInDim S65536x512 ![] bcast_S_S65536x512),
    TRef.binary (TRef.of (T := ⟨S65536x512, .f32⟩) main_v6) (TRef.of (T := ⟨S65536x512, .f32⟩) main_call0_v0) (TRef.of (T := ⟨S65536x512, .f32⟩) main_call0_v1) maximumf,
    TRef.unary (TRef.of (T := ⟨S_, .f32⟩) main_call0_cst) (TRef.of (T := ⟨S65536x512, .f32⟩) main_call0_v2) (broadcastInDim S65536x512 ![] bcast_S_S65536x512),
    TRef.binary (TRef.of (T := ⟨S65536x512, .f32⟩) main_v6) (TRef.of (T := ⟨S65536x512, .f32⟩) main_call0_v2) (TRef.of (T := ⟨S65536x512, .f32⟩) main_call0_v3) subf,
    TRef.binary (TRef.of (T := ⟨S65536x512, .f32⟩) main_call0_v3) (TRef.of (T := ⟨S65536x512, .f32⟩) main_call0_v3) (TRef.of (T := ⟨S65536x512, .i1⟩) main_call0_v4) (cmpf .une),
    TRef.unary (TRef.of (T := ⟨S_, .f32⟩) main_call0_cst) (TRef.of (T := ⟨S65536x512, .f32⟩) main_call0_v5) (broadcastInDim S65536x512 ![] bcast_S_S65536x512),
    TRef.binary (TRef.of (T := ⟨S65536x512, .f32⟩) main_v6) (TRef.of (T := ⟨S65536x512, .f32⟩) main_call0_v5) (TRef.of (T := ⟨S65536x512, .f32⟩) main_call0_v6) addf,
    TRef.unary (TRef.of (T := ⟨S65536x512, .f32⟩) main_call0_v3) (TRef.of (T := ⟨S65536x512, .f32⟩) main_call0_v7) Host.absf,
    TRef.unary (TRef.of (T := ⟨S65536x512, .f32⟩) main_call0_v7) (TRef.of (T := ⟨S65536x512, .f32⟩) main_call0_v8) Host.negf,
    TRef.unary (TRef.of (T := ⟨S65536x512, .f32⟩) main_call0_v8) (TRef.of (T := ⟨S65536x512, .f32⟩) main_call0_v9) Host.exp,
    TRef.unary (TRef.of (T := ⟨S65536x512, .f32⟩) main_call0_v9) (TRef.of (T := ⟨S65536x512, .f32⟩) main_call0_v10) Host.log1p,
    TRef.binary (TRef.of (T := ⟨S65536x512, .f32⟩) main_call0_v1) (TRef.of (T := ⟨S65536x512, .f32⟩) main_call0_v10) (TRef.of (T := ⟨S65536x512, .f32⟩) main_call0_v11) addf,
    TRef.ternary (TRef.of (T := ⟨S65536x512, .i1⟩) main_call0_v4) (TRef.of (T := ⟨S65536x512, .f32⟩) main_call0_v6) (TRef.of (T := ⟨S65536x512, .f32⟩) main_call0_v11) (TRef.of (T := ⟨S65536x512, .f32⟩) main_v7_0) select,
    TRef.nullary (TRef.of (T := ⟨S_, .f32⟩) main_call0_cst_0) (constant S_ .f32 0x7F800000#32),
    TRef.unary (TRef.of (T := ⟨S_, .f32⟩) main_call0_cst_0) (TRef.of (T := ⟨S65536x512, .f32⟩) main_call0_v13) (broadcastInDim S65536x512 ![] bcast_S_S65536x512),
    TRef.binary (TRef.of (T := ⟨S65536x512, .f32⟩) main_v6) (TRef.of (T := ⟨S65536x512, .f32⟩) main_call0_v13) (TRef.of (T := ⟨S65536x512, .i1⟩) main_call0_v14) (cmpf .oeq),
    TRef.nullary (TRef.of (T := ⟨S_, .f32⟩) main_call0_cst_1) (constant S_ .f32 0x00000000#32),
    TRef.unary (TRef.of (T := ⟨S_, .f32⟩) main_call0_cst_1) (TRef.of (T := ⟨S65536x512, .f32⟩) main_call0_v15) (broadcastInDim S65536x512 ![] bcast_S_S65536x512),
    TRef.ternary (TRef.of (T := ⟨S65536x512, .i1⟩) main_call0_v14) (TRef.of (T := ⟨S65536x512, .f32⟩) main_call0_v15) (TRef.of (T := ⟨S65536x512, .f32⟩) main_v6) (TRef.of (T := ⟨S65536x512, .f32⟩) main_call0_v16) select,
    TRef.nullary (TRef.of (T := ⟨S_, .f32⟩) main_call0_cst_2) (constant S_ .f32 0x7F800000#32),
    TRef.unary (TRef.of (T := ⟨S_, .f32⟩) main_call0_cst_2) (TRef.of (T := ⟨S65536x512, .f32⟩) main_call0_v17) (broadcastInDim S65536x512 ![] bcast_S_S65536x512),
    TRef.binary (TRef.of (T := ⟨S65536x512, .f32⟩) main_v7_0) (TRef.of (T := ⟨S65536x512, .f32⟩) main_call0_v17) (TRef.of (T := ⟨S65536x512, .i1⟩) main_call0_v18) (cmpf .oeq),
    TRef.nullary (TRef.of (T := ⟨S_, .f32⟩) main_call0_cst_3) (constant S_ .f32 0x00000000#32),
    TRef.unary (TRef.of (T := ⟨S_, .f32⟩) main_call0_cst_3) (TRef.of (T := ⟨S65536x512, .f32⟩) main_call0_v19) (broadcastInDim S65536x512 ![] bcast_S_S65536x512),
    TRef.ternary (TRef.of (T := ⟨S65536x512, .i1⟩) main_call0_v18) (TRef.of (T := ⟨S65536x512, .f32⟩) main_call0_v19) (TRef.of (T := ⟨S65536x512, .f32⟩) main_v7_0) (TRef.of (T := ⟨S65536x512, .f32⟩) main_call0_v20) select,
    TRef.binary (TRef.of (T := ⟨S65536x512, .f32⟩) main_call0_v16) (TRef.of (T := ⟨S65536x512, .f32⟩) main_call0_v20) (TRef.of (T := ⟨S65536x512, .f32⟩) main_call0_v21) subf,
    TRef.unary (TRef.of (T := ⟨S65536x512, .f32⟩) main_call0_v21) (TRef.of (T := ⟨S65536x512, .f32⟩) main_v7_1) Host.exp,
    TRef.nullary (TRef.of (T := ⟨S_, .f32⟩) main_call0_cst_4) (constant S_ .f32 0x00000000#32),
    TRef.nullary (TRef.of (T := ⟨S_, .f32⟩) main_call0_cst_5) (constant S_ .f32 0x7F800000#32),
    TRef.binary (TRef.of (T := ⟨S_, .f32⟩) main_call0_cst_4) (TRef.of (T := ⟨S_, .f32⟩) main_call0_cst_5) (TRef.of (T := ⟨S_, .i1⟩) main_call0_v23) (cmpf .oeq),
    TRef.nullary (TRef.of (T := ⟨S_, .f32⟩) main_call0_cst_6) (constant S_ .f32 0x00000000#32),
    TRef.nullary (TRef.of (T := ⟨S_, .f32⟩) main_call0_cst_7) (constant S_ .f32 0x00000000#32),
    TRef.ternary (TRef.of (T := ⟨S_, .i1⟩) main_call0_v23) (TRef.of (T := ⟨S_, .f32⟩) main_call0_cst_7) (TRef.of (T := ⟨S_, .f32⟩) main_call0_cst_6) (TRef.of (T := ⟨S_, .f32⟩) main_call0_v24) select,
    TRef.nullary (TRef.of (T := ⟨S_, .f32⟩) main_call0_cst_8) (constant S_ .f32 0x7F800000#32),
    TRef.unary (TRef.of (T := ⟨S_, .f32⟩) main_call0_cst_8) (TRef.of (T := ⟨S65536x512, .f32⟩) main_call0_v25) (broadcastInDim S65536x512 ![] bcast_S_S65536x512),
    TRef.binary (TRef.of (T := ⟨S65536x512, .f32⟩) main_v7_0) (TRef.of (T := ⟨S65536x512, .f32⟩) main_call0_v25) (TRef.of (T := ⟨S65536x512, .i1⟩) main_call0_v26) (cmpf .oeq),
    TRef.nullary (TRef.of (T := ⟨S_, .f32⟩) main_call0_cst_9) (constant S_ .f32 0x00000000#32),
    TRef.unary (TRef.of (T := ⟨S_, .f32⟩) main_call0_cst_9) (TRef.of (T := ⟨S65536x512, .f32⟩) main_call0_v27) (broadcastInDim S65536x512 ![] bcast_S_S65536x512),
    TRef.ternary (TRef.of (T := ⟨S65536x512, .i1⟩) main_call0_v26) (TRef.of (T := ⟨S65536x512, .f32⟩) main_call0_v27) (TRef.of (T := ⟨S65536x512, .f32⟩) main_v7_0) (TRef.of (T := ⟨S65536x512, .f32⟩) main_call0_v28) select,
    TRef.unary (TRef.of (T := ⟨S_, .f32⟩) main_call0_v24) (TRef.of (T := ⟨S65536x512, .f32⟩) main_call0_v29) (broadcastInDim S65536x512 ![] bcast_S_S65536x512),
    TRef.binary (TRef.of (T := ⟨S65536x512, .f32⟩) main_call0_v29) (TRef.of (T := ⟨S65536x512, .f32⟩) main_call0_v28) (TRef.of (T := ⟨S65536x512, .f32⟩) main_call0_v30) subf,
    TRef.unary (TRef.of (T := ⟨S65536x512, .f32⟩) main_call0_v30) (TRef.of (T := ⟨S65536x512, .f32⟩) main_call0_v31) Host.exp,
    TRef.nullary (TRef.of (T := ⟨S_, .f32⟩) main_call0_cst_10) (constant S_ .f32 0x00000000#32),
    TRef.unary (TRef.of (T := ⟨S_, .f32⟩) main_call0_cst_10) (TRef.of (T := ⟨S65536x512, .f32⟩) main_call0_v32) (broadcastInDim S65536x512 ![] bcast_S_S65536x512),
    TRef.binary (TRef.of (T := ⟨S65536x512, .f32⟩) main_call0_v32) (TRef.of (T := ⟨S65536x512, .f32⟩) main_call0_v31) (TRef.of (T := ⟨S65536x512, .f32⟩) main_v7_2) mulf,
    unary main_arg3 main_v8 ((transpose S512x512 [1, 0] · transposes_S512x512_S512x512_1_0) : (⟨S512x512, .f32⟩ : BufTy).Contents (Elt F) → (⟨S512x512, .f32⟩ : BufTy).Contents (Elt F)),
    binary main_v7_0 main_v8 main_v9 ((fun l r => Host.dotGeneral dot_S65536x512_S512x512_S65536x512_1_0_0_1_n_n none l r) : (⟨S65536x512, .f32⟩ : BufTy).Contents (Elt F) → (⟨S512x512, .f32⟩ : BufTy).Contents (Elt F) → (⟨S65536x512, .f32⟩ : BufTy).Contents (Elt F)),
    unary main_arg7 main_v10 ((transpose S64x512 [1, 0] · transposes_S512x64_S64x512_1_0) : (⟨S512x64, .f32⟩ : BufTy).Contents (Elt F) → (⟨S64x512, .f32⟩ : BufTy).Contents (Elt F)),
    binary main_v1 main_v10 main_v11 ((fun l r => Host.dotGeneral dot_S65536x64_S64x512_S65536x512_1_0_0_1_n_n none l r) : (⟨S65536x64, .f32⟩ : BufTy).Contents (Elt F) → (⟨S64x512, .f32⟩ : BufTy).Contents (Elt F) → (⟨S65536x512, .f32⟩ : BufTy).Contents (Elt F)),
    binary main_v9 main_v11 main_v12 (addf : (⟨S65536x512, .f32⟩ : BufTy).Contents (Elt F) → (⟨S65536x512, .f32⟩ : BufTy).Contents (Elt F) → (⟨S65536x512, .f32⟩ : BufTy).Contents (Elt F)),
    unary main_arg8 main_v13 (broadcastInDim S1x512 ![1] bcast_S512_S1x512_1 : (⟨S512, .f32⟩ : BufTy).Contents (Elt F) → (⟨S1x512, .f32⟩ : BufTy).Contents (Elt F)),
    unary main_v13 main_v14 (broadcastInDim S65536x512 ![0, 1] bcast_S1x512_S65536x512_0_1 : (⟨S1x512, .f32⟩ : BufTy).Contents (Elt F) → (⟨S65536x512, .f32⟩ : BufTy).Contents (Elt F)),
    binary main_v12 main_v14 main_v15 (addf : (⟨S65536x512, .f32⟩ : BufTy).Contents (Elt F) → (⟨S65536x512, .f32⟩ : BufTy).Contents (Elt F) → (⟨S65536x512, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S65536x512, .f32⟩) main_call1_v0) (broadcastInDim S65536x512 ![] bcast_S_S65536x512),
    TRef.binary (TRef.of (T := ⟨S65536x512, .f32⟩) main_v15) (TRef.of (T := ⟨S65536x512, .f32⟩) main_call1_v0) (TRef.of (T := ⟨S65536x512, .f32⟩) main_call1_v1) maximumf,
    TRef.unary (TRef.of (T := ⟨S_, .f32⟩) main_call1_cst) (TRef.of (T := ⟨S65536x512, .f32⟩) main_call1_v2) (broadcastInDim S65536x512 ![] bcast_S_S65536x512),
    TRef.binary (TRef.of (T := ⟨S65536x512, .f32⟩) main_v15) (TRef.of (T := ⟨S65536x512, .f32⟩) main_call1_v2) (TRef.of (T := ⟨S65536x512, .f32⟩) main_call1_v3) subf,
    TRef.binary (TRef.of (T := ⟨S65536x512, .f32⟩) main_call1_v3) (TRef.of (T := ⟨S65536x512, .f32⟩) main_call1_v3) (TRef.of (T := ⟨S65536x512, .i1⟩) main_call1_v4) (cmpf .une),
    TRef.unary (TRef.of (T := ⟨S_, .f32⟩) main_call1_cst) (TRef.of (T := ⟨S65536x512, .f32⟩) main_call1_v5) (broadcastInDim S65536x512 ![] bcast_S_S65536x512),
    TRef.binary (TRef.of (T := ⟨S65536x512, .f32⟩) main_v15) (TRef.of (T := ⟨S65536x512, .f32⟩) main_call1_v5) (TRef.of (T := ⟨S65536x512, .f32⟩) main_call1_v6) addf,
    TRef.unary (TRef.of (T := ⟨S65536x512, .f32⟩) main_call1_v3) (TRef.of (T := ⟨S65536x512, .f32⟩) main_call1_v7) Host.absf,
    TRef.unary (TRef.of (T := ⟨S65536x512, .f32⟩) main_call1_v7) (TRef.of (T := ⟨S65536x512, .f32⟩) main_call1_v8) Host.negf,
    TRef.unary (TRef.of (T := ⟨S65536x512, .f32⟩) main_call1_v8) (TRef.of (T := ⟨S65536x512, .f32⟩) main_call1_v9) Host.exp,
    TRef.unary (TRef.of (T := ⟨S65536x512, .f32⟩) main_call1_v9) (TRef.of (T := ⟨S65536x512, .f32⟩) main_call1_v10) Host.log1p,
    TRef.binary (TRef.of (T := ⟨S65536x512, .f32⟩) main_call1_v1) (TRef.of (T := ⟨S65536x512, .f32⟩) main_call1_v10) (TRef.of (T := ⟨S65536x512, .f32⟩) main_call1_v11) addf,
    TRef.ternary (TRef.of (T := ⟨S65536x512, .i1⟩) main_call1_v4) (TRef.of (T := ⟨S65536x512, .f32⟩) main_call1_v6) (TRef.of (T := ⟨S65536x512, .f32⟩) main_call1_v11) (TRef.of (T := ⟨S65536x512, .f32⟩) main_v16_0) select,
    TRef.nullary (TRef.of (T := ⟨S_, .f32⟩) main_call1_cst_0) (constant S_ .f32 0x7F800000#32),
    TRef.unary (TRef.of (T := ⟨S_, .f32⟩) main_call1_cst_0) (TRef.of (T := ⟨S65536x512, .f32⟩) main_call1_v13) (broadcastInDim S65536x512 ![] bcast_S_S65536x512),
    TRef.binary (TRef.of (T := ⟨S65536x512, .f32⟩) main_v15) (TRef.of (T := ⟨S65536x512, .f32⟩) main_call1_v13) (TRef.of (T := ⟨S65536x512, .i1⟩) main_call1_v14) (cmpf .oeq),
    TRef.nullary (TRef.of (T := ⟨S_, .f32⟩) main_call1_cst_1) (constant S_ .f32 0x00000000#32),
    TRef.unary (TRef.of (T := ⟨S_, .f32⟩) main_call1_cst_1) (TRef.of (T := ⟨S65536x512, .f32⟩) main_call1_v15) (broadcastInDim S65536x512 ![] bcast_S_S65536x512),
    TRef.ternary (TRef.of (T := ⟨S65536x512, .i1⟩) main_call1_v14) (TRef.of (T := ⟨S65536x512, .f32⟩) main_call1_v15) (TRef.of (T := ⟨S65536x512, .f32⟩) main_v15) (TRef.of (T := ⟨S65536x512, .f32⟩) main_call1_v16) select,
    TRef.nullary (TRef.of (T := ⟨S_, .f32⟩) main_call1_cst_2) (constant S_ .f32 0x7F800000#32),
    TRef.unary (TRef.of (T := ⟨S_, .f32⟩) main_call1_cst_2) (TRef.of (T := ⟨S65536x512, .f32⟩) main_call1_v17) (broadcastInDim S65536x512 ![] bcast_S_S65536x512),
    TRef.binary (TRef.of (T := ⟨S65536x512, .f32⟩) main_v16_0) (TRef.of (T := ⟨S65536x512, .f32⟩) main_call1_v17) (TRef.of (T := ⟨S65536x512, .i1⟩) main_call1_v18) (cmpf .oeq),
    TRef.nullary (TRef.of (T := ⟨S_, .f32⟩) main_call1_cst_3) (constant S_ .f32 0x00000000#32),
    TRef.unary (TRef.of (T := ⟨S_, .f32⟩) main_call1_cst_3) (TRef.of (T := ⟨S65536x512, .f32⟩) main_call1_v19) (broadcastInDim S65536x512 ![] bcast_S_S65536x512),
    TRef.ternary (TRef.of (T := ⟨S65536x512, .i1⟩) main_call1_v18) (TRef.of (T := ⟨S65536x512, .f32⟩) main_call1_v19) (TRef.of (T := ⟨S65536x512, .f32⟩) main_v16_0) (TRef.of (T := ⟨S65536x512, .f32⟩) main_call1_v20) select,
    TRef.binary (TRef.of (T := ⟨S65536x512, .f32⟩) main_call1_v16) (TRef.of (T := ⟨S65536x512, .f32⟩) main_call1_v20) (TRef.of (T := ⟨S65536x512, .f32⟩) main_call1_v21) subf,
    TRef.unary (TRef.of (T := ⟨S65536x512, .f32⟩) main_call1_v21) (TRef.of (T := ⟨S65536x512, .f32⟩) main_v16_1) Host.exp,
    TRef.nullary (TRef.of (T := ⟨S_, .f32⟩) main_call1_cst_4) (constant S_ .f32 0x00000000#32),
    TRef.nullary (TRef.of (T := ⟨S_, .f32⟩) main_call1_cst_5) (constant S_ .f32 0x7F800000#32),
    TRef.binary (TRef.of (T := ⟨S_, .f32⟩) main_call1_cst_4) (TRef.of (T := ⟨S_, .f32⟩) main_call1_cst_5) (TRef.of (T := ⟨S_, .i1⟩) main_call1_v23) (cmpf .oeq),
    TRef.nullary (TRef.of (T := ⟨S_, .f32⟩) main_call1_cst_6) (constant S_ .f32 0x00000000#32),
    TRef.nullary (TRef.of (T := ⟨S_, .f32⟩) main_call1_cst_7) (constant S_ .f32 0x00000000#32),
    TRef.ternary (TRef.of (T := ⟨S_, .i1⟩) main_call1_v23) (TRef.of (T := ⟨S_, .f32⟩) main_call1_cst_7) (TRef.of (T := ⟨S_, .f32⟩) main_call1_cst_6) (TRef.of (T := ⟨S_, .f32⟩) main_call1_v24) select,
    TRef.nullary (TRef.of (T := ⟨S_, .f32⟩) main_call1_cst_8) (constant S_ .f32 0x7F800000#32),
    TRef.unary (TRef.of (T := ⟨S_, .f32⟩) main_call1_cst_8) (TRef.of (T := ⟨S65536x512, .f32⟩) main_call1_v25) (broadcastInDim S65536x512 ![] bcast_S_S65536x512),
    TRef.binary (TRef.of (T := ⟨S65536x512, .f32⟩) main_v16_0) (TRef.of (T := ⟨S65536x512, .f32⟩) main_call1_v25) (TRef.of (T := ⟨S65536x512, .i1⟩) main_call1_v26) (cmpf .oeq),
    TRef.nullary (TRef.of (T := ⟨S_, .f32⟩) main_call1_cst_9) (constant S_ .f32 0x00000000#32),
    TRef.unary (TRef.of (T := ⟨S_, .f32⟩) main_call1_cst_9) (TRef.of (T := ⟨S65536x512, .f32⟩) main_call1_v27) (broadcastInDim S65536x512 ![] bcast_S_S65536x512),
    TRef.ternary (TRef.of (T := ⟨S65536x512, .i1⟩) main_call1_v26) (TRef.of (T := ⟨S65536x512, .f32⟩) main_call1_v27) (TRef.of (T := ⟨S65536x512, .f32⟩) main_v16_0) (TRef.of (T := ⟨S65536x512, .f32⟩) main_call1_v28) select,
    TRef.unary (TRef.of (T := ⟨S_, .f32⟩) main_call1_v24) (TRef.of (T := ⟨S65536x512, .f32⟩) main_call1_v29) (broadcastInDim S65536x512 ![] bcast_S_S65536x512),
    TRef.binary (TRef.of (T := ⟨S65536x512, .f32⟩) main_call1_v29) (TRef.of (T := ⟨S65536x512, .f32⟩) main_call1_v28) (TRef.of (T := ⟨S65536x512, .f32⟩) main_call1_v30) subf,
    TRef.unary (TRef.of (T := ⟨S65536x512, .f32⟩) main_call1_v30) (TRef.of (T := ⟨S65536x512, .f32⟩) main_call1_v31) Host.exp,
    TRef.nullary (TRef.of (T := ⟨S_, .f32⟩) main_call1_cst_10) (constant S_ .f32 0x00000000#32),
    TRef.unary (TRef.of (T := ⟨S_, .f32⟩) main_call1_cst_10) (TRef.of (T := ⟨S65536x512, .f32⟩) main_call1_v32) (broadcastInDim S65536x512 ![] bcast_S_S65536x512),
    TRef.binary (TRef.of (T := ⟨S65536x512, .f32⟩) main_call1_v32) (TRef.of (T := ⟨S65536x512, .f32⟩) main_call1_v31) (TRef.of (T := ⟨S65536x512, .f32⟩) main_v16_2) mulf,
    unary main_arg4 main_v17 ((transpose S512x512 [1, 0] · transposes_S512x512_S512x512_1_0) : (⟨S512x512, .f32⟩ : BufTy).Contents (Elt F) → (⟨S512x512, .f32⟩ : BufTy).Contents (Elt F)),
    binary main_v16_0 main_v17 main_v18 ((fun l r => Host.dotGeneral dot_S65536x512_S512x512_S65536x512_1_0_0_1_n_n none l r) : (⟨S65536x512, .f32⟩ : BufTy).Contents (Elt F) → (⟨S512x512, .f32⟩ : BufTy).Contents (Elt F) → (⟨S65536x512, .f32⟩ : BufTy).Contents (Elt F)),
    unary main_arg9 main_v19 ((transpose S64x512 [1, 0] · transposes_S512x64_S64x512_1_0) : (⟨S512x64, .f32⟩ : BufTy).Contents (Elt F) → (⟨S64x512, .f32⟩ : BufTy).Contents (Elt F)),
    binary main_v1 main_v19 main_v20 ((fun l r => Host.dotGeneral dot_S65536x64_S64x512_S65536x512_1_0_0_1_n_n none l r) : (⟨S65536x64, .f32⟩ : BufTy).Contents (Elt F) → (⟨S64x512, .f32⟩ : BufTy).Contents (Elt F) → (⟨S65536x512, .f32⟩ : BufTy).Contents (Elt F)),
    binary main_v18 main_v20 main_v21 (addf : (⟨S65536x512, .f32⟩ : BufTy).Contents (Elt F) → (⟨S65536x512, .f32⟩ : BufTy).Contents (Elt F) → (⟨S65536x512, .f32⟩ : BufTy).Contents (Elt F)),
    unary main_arg10 main_v22 (broadcastInDim S1x512 ![1] bcast_S512_S1x512_1 : (⟨S512, .f32⟩ : BufTy).Contents (Elt F) → (⟨S1x512, .f32⟩ : BufTy).Contents (Elt F)),
    unary main_v22 main_v23 (broadcastInDim S65536x512 ![0, 1] bcast_S1x512_S65536x512_0_1 : (⟨S1x512, .f32⟩ : BufTy).Contents (Elt F) → (⟨S65536x512, .f32⟩ : BufTy).Contents (Elt F)),
    binary main_v21 main_v23 main_v24 (addf : (⟨S65536x512, .f32⟩ : BufTy).Contents (Elt F) → (⟨S65536x512, .f32⟩ : BufTy).Contents (Elt F) → (⟨S65536x512, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S65536x512, .f32⟩) main_call2_v0) (broadcastInDim S65536x512 ![] bcast_S_S65536x512),
    TRef.binary (TRef.of (T := ⟨S65536x512, .f32⟩) main_v24) (TRef.of (T := ⟨S65536x512, .f32⟩) main_call2_v0) (TRef.of (T := ⟨S65536x512, .f32⟩) main_call2_v1) maximumf,
    TRef.unary (TRef.of (T := ⟨S_, .f32⟩) main_call2_cst) (TRef.of (T := ⟨S65536x512, .f32⟩) main_call2_v2) (broadcastInDim S65536x512 ![] bcast_S_S65536x512),
    TRef.binary (TRef.of (T := ⟨S65536x512, .f32⟩) main_v24) (TRef.of (T := ⟨S65536x512, .f32⟩) main_call2_v2) (TRef.of (T := ⟨S65536x512, .f32⟩) main_call2_v3) subf,
    TRef.binary (TRef.of (T := ⟨S65536x512, .f32⟩) main_call2_v3) (TRef.of (T := ⟨S65536x512, .f32⟩) main_call2_v3) (TRef.of (T := ⟨S65536x512, .i1⟩) main_call2_v4) (cmpf .une),
    TRef.unary (TRef.of (T := ⟨S_, .f32⟩) main_call2_cst) (TRef.of (T := ⟨S65536x512, .f32⟩) main_call2_v5) (broadcastInDim S65536x512 ![] bcast_S_S65536x512),
    TRef.binary (TRef.of (T := ⟨S65536x512, .f32⟩) main_v24) (TRef.of (T := ⟨S65536x512, .f32⟩) main_call2_v5) (TRef.of (T := ⟨S65536x512, .f32⟩) main_call2_v6) addf,
    TRef.unary (TRef.of (T := ⟨S65536x512, .f32⟩) main_call2_v3) (TRef.of (T := ⟨S65536x512, .f32⟩) main_call2_v7) Host.absf,
    TRef.unary (TRef.of (T := ⟨S65536x512, .f32⟩) main_call2_v7) (TRef.of (T := ⟨S65536x512, .f32⟩) main_call2_v8) Host.negf,
    TRef.unary (TRef.of (T := ⟨S65536x512, .f32⟩) main_call2_v8) (TRef.of (T := ⟨S65536x512, .f32⟩) main_call2_v9) Host.exp,
    TRef.unary (TRef.of (T := ⟨S65536x512, .f32⟩) main_call2_v9) (TRef.of (T := ⟨S65536x512, .f32⟩) main_call2_v10) Host.log1p,
    TRef.binary (TRef.of (T := ⟨S65536x512, .f32⟩) main_call2_v1) (TRef.of (T := ⟨S65536x512, .f32⟩) main_call2_v10) (TRef.of (T := ⟨S65536x512, .f32⟩) main_call2_v11) addf,
    TRef.ternary (TRef.of (T := ⟨S65536x512, .i1⟩) main_call2_v4) (TRef.of (T := ⟨S65536x512, .f32⟩) main_call2_v6) (TRef.of (T := ⟨S65536x512, .f32⟩) main_call2_v11) (TRef.of (T := ⟨S65536x512, .f32⟩) main_v25_0) select,
    TRef.nullary (TRef.of (T := ⟨S_, .f32⟩) main_call2_cst_0) (constant S_ .f32 0x7F800000#32),
    TRef.unary (TRef.of (T := ⟨S_, .f32⟩) main_call2_cst_0) (TRef.of (T := ⟨S65536x512, .f32⟩) main_call2_v13) (broadcastInDim S65536x512 ![] bcast_S_S65536x512),
    TRef.binary (TRef.of (T := ⟨S65536x512, .f32⟩) main_v24) (TRef.of (T := ⟨S65536x512, .f32⟩) main_call2_v13) (TRef.of (T := ⟨S65536x512, .i1⟩) main_call2_v14) (cmpf .oeq),
    TRef.nullary (TRef.of (T := ⟨S_, .f32⟩) main_call2_cst_1) (constant S_ .f32 0x00000000#32),
    TRef.unary (TRef.of (T := ⟨S_, .f32⟩) main_call2_cst_1) (TRef.of (T := ⟨S65536x512, .f32⟩) main_call2_v15) (broadcastInDim S65536x512 ![] bcast_S_S65536x512),
    TRef.ternary (TRef.of (T := ⟨S65536x512, .i1⟩) main_call2_v14) (TRef.of (T := ⟨S65536x512, .f32⟩) main_call2_v15) (TRef.of (T := ⟨S65536x512, .f32⟩) main_v24) (TRef.of (T := ⟨S65536x512, .f32⟩) main_call2_v16) select,
    TRef.nullary (TRef.of (T := ⟨S_, .f32⟩) main_call2_cst_2) (constant S_ .f32 0x7F800000#32),
    TRef.unary (TRef.of (T := ⟨S_, .f32⟩) main_call2_cst_2) (TRef.of (T := ⟨S65536x512, .f32⟩) main_call2_v17) (broadcastInDim S65536x512 ![] bcast_S_S65536x512),
    TRef.binary (TRef.of (T := ⟨S65536x512, .f32⟩) main_v25_0) (TRef.of (T := ⟨S65536x512, .f32⟩) main_call2_v17) (TRef.of (T := ⟨S65536x512, .i1⟩) main_call2_v18) (cmpf .oeq),
    TRef.nullary (TRef.of (T := ⟨S_, .f32⟩) main_call2_cst_3) (constant S_ .f32 0x00000000#32),
    TRef.unary (TRef.of (T := ⟨S_, .f32⟩) main_call2_cst_3) (TRef.of (T := ⟨S65536x512, .f32⟩) main_call2_v19) (broadcastInDim S65536x512 ![] bcast_S_S65536x512),
    TRef.ternary (TRef.of (T := ⟨S65536x512, .i1⟩) main_call2_v18) (TRef.of (T := ⟨S65536x512, .f32⟩) main_call2_v19) (TRef.of (T := ⟨S65536x512, .f32⟩) main_v25_0) (TRef.of (T := ⟨S65536x512, .f32⟩) main_call2_v20) select,
    TRef.binary (TRef.of (T := ⟨S65536x512, .f32⟩) main_call2_v16) (TRef.of (T := ⟨S65536x512, .f32⟩) main_call2_v20) (TRef.of (T := ⟨S65536x512, .f32⟩) main_call2_v21) subf,
    TRef.unary (TRef.of (T := ⟨S65536x512, .f32⟩) main_call2_v21) (TRef.of (T := ⟨S65536x512, .f32⟩) main_v25_1) Host.exp,
    TRef.nullary (TRef.of (T := ⟨S_, .f32⟩) main_call2_cst_4) (constant S_ .f32 0x00000000#32),
    TRef.nullary (TRef.of (T := ⟨S_, .f32⟩) main_call2_cst_5) (constant S_ .f32 0x7F800000#32),
    TRef.binary (TRef.of (T := ⟨S_, .f32⟩) main_call2_cst_4) (TRef.of (T := ⟨S_, .f32⟩) main_call2_cst_5) (TRef.of (T := ⟨S_, .i1⟩) main_call2_v23) (cmpf .oeq),
    TRef.nullary (TRef.of (T := ⟨S_, .f32⟩) main_call2_cst_6) (constant S_ .f32 0x00000000#32),
    TRef.nullary (TRef.of (T := ⟨S_, .f32⟩) main_call2_cst_7) (constant S_ .f32 0x00000000#32),
    TRef.ternary (TRef.of (T := ⟨S_, .i1⟩) main_call2_v23) (TRef.of (T := ⟨S_, .f32⟩) main_call2_cst_7) (TRef.of (T := ⟨S_, .f32⟩) main_call2_cst_6) (TRef.of (T := ⟨S_, .f32⟩) main_call2_v24) select,
    TRef.nullary (TRef.of (T := ⟨S_, .f32⟩) main_call2_cst_8) (constant S_ .f32 0x7F800000#32),
    TRef.unary (TRef.of (T := ⟨S_, .f32⟩) main_call2_cst_8) (TRef.of (T := ⟨S65536x512, .f32⟩) main_call2_v25) (broadcastInDim S65536x512 ![] bcast_S_S65536x512),
    TRef.binary (TRef.of (T := ⟨S65536x512, .f32⟩) main_v25_0) (TRef.of (T := ⟨S65536x512, .f32⟩) main_call2_v25) (TRef.of (T := ⟨S65536x512, .i1⟩) main_call2_v26) (cmpf .oeq),
    TRef.nullary (TRef.of (T := ⟨S_, .f32⟩) main_call2_cst_9) (constant S_ .f32 0x00000000#32),
    TRef.unary (TRef.of (T := ⟨S_, .f32⟩) main_call2_cst_9) (TRef.of (T := ⟨S65536x512, .f32⟩) main_call2_v27) (broadcastInDim S65536x512 ![] bcast_S_S65536x512),
    TRef.ternary (TRef.of (T := ⟨S65536x512, .i1⟩) main_call2_v26) (TRef.of (T := ⟨S65536x512, .f32⟩) main_call2_v27) (TRef.of (T := ⟨S65536x512, .f32⟩) main_v25_0) (TRef.of (T := ⟨S65536x512, .f32⟩) main_call2_v28) select,
    TRef.unary (TRef.of (T := ⟨S_, .f32⟩) main_call2_v24) (TRef.of (T := ⟨S65536x512, .f32⟩) main_call2_v29) (broadcastInDim S65536x512 ![] bcast_S_S65536x512),
    TRef.binary (TRef.of (T := ⟨S65536x512, .f32⟩) main_call2_v29) (TRef.of (T := ⟨S65536x512, .f32⟩) main_call2_v28) (TRef.of (T := ⟨S65536x512, .f32⟩) main_call2_v30) subf,
    TRef.unary (TRef.of (T := ⟨S65536x512, .f32⟩) main_call2_v30) (TRef.of (T := ⟨S65536x512, .f32⟩) main_call2_v31) Host.exp,
    TRef.nullary (TRef.of (T := ⟨S_, .f32⟩) main_call2_cst_10) (constant S_ .f32 0x00000000#32),
    TRef.unary (TRef.of (T := ⟨S_, .f32⟩) main_call2_cst_10) (TRef.of (T := ⟨S65536x512, .f32⟩) main_call2_v32) (broadcastInDim S65536x512 ![] bcast_S_S65536x512),
    TRef.binary (TRef.of (T := ⟨S65536x512, .f32⟩) main_call2_v32) (TRef.of (T := ⟨S65536x512, .f32⟩) main_call2_v31) (TRef.of (T := ⟨S65536x512, .f32⟩) main_v25_2) mulf,
    unary main_arg5 main_v26 ((transpose S512x512 [1, 0] · transposes_S512x512_S512x512_1_0) : (⟨S512x512, .f32⟩ : BufTy).Contents (Elt F) → (⟨S512x512, .f32⟩ : BufTy).Contents (Elt F)),
    binary main_v25_0 main_v26 main_v27 ((fun l r => Host.dotGeneral dot_S65536x512_S512x512_S65536x512_1_0_0_1_n_n none l r) : (⟨S65536x512, .f32⟩ : BufTy).Contents (Elt F) → (⟨S512x512, .f32⟩ : BufTy).Contents (Elt F) → (⟨S65536x512, .f32⟩ : BufTy).Contents (Elt F)),
    unary main_arg11 main_v28 ((transpose S64x512 [1, 0] · transposes_S512x64_S64x512_1_0) : (⟨S512x64, .f32⟩ : BufTy).Contents (Elt F) → (⟨S64x512, .f32⟩ : BufTy).Contents (Elt F)),
    binary main_v1 main_v28 main_v29 ((fun l r => Host.dotGeneral dot_S65536x64_S64x512_S65536x512_1_0_0_1_n_n none l r) : (⟨S65536x64, .f32⟩ : BufTy).Contents (Elt F) → (⟨S64x512, .f32⟩ : BufTy).Contents (Elt F) → (⟨S65536x512, .f32⟩ : BufTy).Contents (Elt F)),
    binary main_v27 main_v29 main_v30 (addf : (⟨S65536x512, .f32⟩ : BufTy).Contents (Elt F) → (⟨S65536x512, .f32⟩ : BufTy).Contents (Elt F) → (⟨S65536x512, .f32⟩ : BufTy).Contents (Elt F)),
    unary main_arg12 main_v31 (broadcastInDim S1x512 ![1] bcast_S512_S1x512_1 : (⟨S512, .f32⟩ : BufTy).Contents (Elt F) → (⟨S1x512, .f32⟩ : BufTy).Contents (Elt F)),
    unary main_v31 main_v32 (broadcastInDim S65536x512 ![0, 1] bcast_S1x512_S65536x512_0_1 : (⟨S1x512, .f32⟩ : BufTy).Contents (Elt F) → (⟨S65536x512, .f32⟩ : BufTy).Contents (Elt F)),
    binary main_v30 main_v32 main_v33 (addf : (⟨S65536x512, .f32⟩ : BufTy).Contents (Elt F) → (⟨S65536x512, .f32⟩ : BufTy).Contents (Elt F) → (⟨S65536x512, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S65536x512, .f32⟩) main_call3_v0) (broadcastInDim S65536x512 ![] bcast_S_S65536x512),
    TRef.binary (TRef.of (T := ⟨S65536x512, .f32⟩) main_v33) (TRef.of (T := ⟨S65536x512, .f32⟩) main_call3_v0) (TRef.of (T := ⟨S65536x512, .f32⟩) main_call3_v1) maximumf,
    TRef.unary (TRef.of (T := ⟨S_, .f32⟩) main_call3_cst) (TRef.of (T := ⟨S65536x512, .f32⟩) main_call3_v2) (broadcastInDim S65536x512 ![] bcast_S_S65536x512),
    TRef.binary (TRef.of (T := ⟨S65536x512, .f32⟩) main_v33) (TRef.of (T := ⟨S65536x512, .f32⟩) main_call3_v2) (TRef.of (T := ⟨S65536x512, .f32⟩) main_call3_v3) subf,
    TRef.binary (TRef.of (T := ⟨S65536x512, .f32⟩) main_call3_v3) (TRef.of (T := ⟨S65536x512, .f32⟩) main_call3_v3) (TRef.of (T := ⟨S65536x512, .i1⟩) main_call3_v4) (cmpf .une),
    TRef.unary (TRef.of (T := ⟨S_, .f32⟩) main_call3_cst) (TRef.of (T := ⟨S65536x512, .f32⟩) main_call3_v5) (broadcastInDim S65536x512 ![] bcast_S_S65536x512),
    TRef.binary (TRef.of (T := ⟨S65536x512, .f32⟩) main_v33) (TRef.of (T := ⟨S65536x512, .f32⟩) main_call3_v5) (TRef.of (T := ⟨S65536x512, .f32⟩) main_call3_v6) addf,
    TRef.unary (TRef.of (T := ⟨S65536x512, .f32⟩) main_call3_v3) (TRef.of (T := ⟨S65536x512, .f32⟩) main_call3_v7) Host.absf,
    TRef.unary (TRef.of (T := ⟨S65536x512, .f32⟩) main_call3_v7) (TRef.of (T := ⟨S65536x512, .f32⟩) main_call3_v8) Host.negf,
    TRef.unary (TRef.of (T := ⟨S65536x512, .f32⟩) main_call3_v8) (TRef.of (T := ⟨S65536x512, .f32⟩) main_call3_v9) Host.exp,
    TRef.unary (TRef.of (T := ⟨S65536x512, .f32⟩) main_call3_v9) (TRef.of (T := ⟨S65536x512, .f32⟩) main_call3_v10) Host.log1p,
    TRef.binary (TRef.of (T := ⟨S65536x512, .f32⟩) main_call3_v1) (TRef.of (T := ⟨S65536x512, .f32⟩) main_call3_v10) (TRef.of (T := ⟨S65536x512, .f32⟩) main_call3_v11) addf,
    TRef.ternary (TRef.of (T := ⟨S65536x512, .i1⟩) main_call3_v4) (TRef.of (T := ⟨S65536x512, .f32⟩) main_call3_v6) (TRef.of (T := ⟨S65536x512, .f32⟩) main_call3_v11) (TRef.of (T := ⟨S65536x512, .f32⟩) main_v34_0) select,
    TRef.nullary (TRef.of (T := ⟨S_, .f32⟩) main_call3_cst_0) (constant S_ .f32 0x7F800000#32),
    TRef.unary (TRef.of (T := ⟨S_, .f32⟩) main_call3_cst_0) (TRef.of (T := ⟨S65536x512, .f32⟩) main_call3_v13) (broadcastInDim S65536x512 ![] bcast_S_S65536x512),
    TRef.binary (TRef.of (T := ⟨S65536x512, .f32⟩) main_v33) (TRef.of (T := ⟨S65536x512, .f32⟩) main_call3_v13) (TRef.of (T := ⟨S65536x512, .i1⟩) main_call3_v14) (cmpf .oeq),
    TRef.nullary (TRef.of (T := ⟨S_, .f32⟩) main_call3_cst_1) (constant S_ .f32 0x00000000#32),
    TRef.unary (TRef.of (T := ⟨S_, .f32⟩) main_call3_cst_1) (TRef.of (T := ⟨S65536x512, .f32⟩) main_call3_v15) (broadcastInDim S65536x512 ![] bcast_S_S65536x512),
    TRef.ternary (TRef.of (T := ⟨S65536x512, .i1⟩) main_call3_v14) (TRef.of (T := ⟨S65536x512, .f32⟩) main_call3_v15) (TRef.of (T := ⟨S65536x512, .f32⟩) main_v33) (TRef.of (T := ⟨S65536x512, .f32⟩) main_call3_v16) select,
    TRef.nullary (TRef.of (T := ⟨S_, .f32⟩) main_call3_cst_2) (constant S_ .f32 0x7F800000#32),
    TRef.unary (TRef.of (T := ⟨S_, .f32⟩) main_call3_cst_2) (TRef.of (T := ⟨S65536x512, .f32⟩) main_call3_v17) (broadcastInDim S65536x512 ![] bcast_S_S65536x512),
    TRef.binary (TRef.of (T := ⟨S65536x512, .f32⟩) main_v34_0) (TRef.of (T := ⟨S65536x512, .f32⟩) main_call3_v17) (TRef.of (T := ⟨S65536x512, .i1⟩) main_call3_v18) (cmpf .oeq),
    TRef.nullary (TRef.of (T := ⟨S_, .f32⟩) main_call3_cst_3) (constant S_ .f32 0x00000000#32),
    TRef.unary (TRef.of (T := ⟨S_, .f32⟩) main_call3_cst_3) (TRef.of (T := ⟨S65536x512, .f32⟩) main_call3_v19) (broadcastInDim S65536x512 ![] bcast_S_S65536x512),
    TRef.ternary (TRef.of (T := ⟨S65536x512, .i1⟩) main_call3_v18) (TRef.of (T := ⟨S65536x512, .f32⟩) main_call3_v19) (TRef.of (T := ⟨S65536x512, .f32⟩) main_v34_0) (TRef.of (T := ⟨S65536x512, .f32⟩) main_call3_v20) select,
    TRef.binary (TRef.of (T := ⟨S65536x512, .f32⟩) main_call3_v16) (TRef.of (T := ⟨S65536x512, .f32⟩) main_call3_v20) (TRef.of (T := ⟨S65536x512, .f32⟩) main_call3_v21) subf,
    TRef.unary (TRef.of (T := ⟨S65536x512, .f32⟩) main_call3_v21) (TRef.of (T := ⟨S65536x512, .f32⟩) main_v34_1) Host.exp,
    TRef.nullary (TRef.of (T := ⟨S_, .f32⟩) main_call3_cst_4) (constant S_ .f32 0x00000000#32),
    TRef.nullary (TRef.of (T := ⟨S_, .f32⟩) main_call3_cst_5) (constant S_ .f32 0x7F800000#32),
    TRef.binary (TRef.of (T := ⟨S_, .f32⟩) main_call3_cst_4) (TRef.of (T := ⟨S_, .f32⟩) main_call3_cst_5) (TRef.of (T := ⟨S_, .i1⟩) main_call3_v23) (cmpf .oeq),
    TRef.nullary (TRef.of (T := ⟨S_, .f32⟩) main_call3_cst_6) (constant S_ .f32 0x00000000#32),
    TRef.nullary (TRef.of (T := ⟨S_, .f32⟩) main_call3_cst_7) (constant S_ .f32 0x00000000#32),
    TRef.ternary (TRef.of (T := ⟨S_, .i1⟩) main_call3_v23) (TRef.of (T := ⟨S_, .f32⟩) main_call3_cst_7) (TRef.of (T := ⟨S_, .f32⟩) main_call3_cst_6) (TRef.of (T := ⟨S_, .f32⟩) main_call3_v24) select,
    TRef.nullary (TRef.of (T := ⟨S_, .f32⟩) main_call3_cst_8) (constant S_ .f32 0x7F800000#32),
    TRef.unary (TRef.of (T := ⟨S_, .f32⟩) main_call3_cst_8) (TRef.of (T := ⟨S65536x512, .f32⟩) main_call3_v25) (broadcastInDim S65536x512 ![] bcast_S_S65536x512),
    TRef.binary (TRef.of (T := ⟨S65536x512, .f32⟩) main_v34_0) (TRef.of (T := ⟨S65536x512, .f32⟩) main_call3_v25) (TRef.of (T := ⟨S65536x512, .i1⟩) main_call3_v26) (cmpf .oeq),
    TRef.nullary (TRef.of (T := ⟨S_, .f32⟩) main_call3_cst_9) (constant S_ .f32 0x00000000#32),
    TRef.unary (TRef.of (T := ⟨S_, .f32⟩) main_call3_cst_9) (TRef.of (T := ⟨S65536x512, .f32⟩) main_call3_v27) (broadcastInDim S65536x512 ![] bcast_S_S65536x512),
    TRef.ternary (TRef.of (T := ⟨S65536x512, .i1⟩) main_call3_v26) (TRef.of (T := ⟨S65536x512, .f32⟩) main_call3_v27) (TRef.of (T := ⟨S65536x512, .f32⟩) main_v34_0) (TRef.of (T := ⟨S65536x512, .f32⟩) main_call3_v28) select,
    TRef.unary (TRef.of (T := ⟨S_, .f32⟩) main_call3_v24) (TRef.of (T := ⟨S65536x512, .f32⟩) main_call3_v29) (broadcastInDim S65536x512 ![] bcast_S_S65536x512),
    TRef.binary (TRef.of (T := ⟨S65536x512, .f32⟩) main_call3_v29) (TRef.of (T := ⟨S65536x512, .f32⟩) main_call3_v28) (TRef.of (T := ⟨S65536x512, .f32⟩) main_call3_v30) subf,
    TRef.unary (TRef.of (T := ⟨S65536x512, .f32⟩) main_call3_v30) (TRef.of (T := ⟨S65536x512, .f32⟩) main_call3_v31) Host.exp,
    TRef.nullary (TRef.of (T := ⟨S_, .f32⟩) main_call3_cst_10) (constant S_ .f32 0x00000000#32),
    TRef.unary (TRef.of (T := ⟨S_, .f32⟩) main_call3_cst_10) (TRef.of (T := ⟨S65536x512, .f32⟩) main_call3_v32) (broadcastInDim S65536x512 ![] bcast_S_S65536x512),
    TRef.binary (TRef.of (T := ⟨S65536x512, .f32⟩) main_call3_v32) (TRef.of (T := ⟨S65536x512, .f32⟩) main_call3_v31) (TRef.of (T := ⟨S65536x512, .f32⟩) main_v34_2) mulf,
    unary main_arg6 main_v35 ((transpose S512x1 [1, 0] · transposes_S1x512_S512x1_1_0) : (⟨S1x512, .f32⟩ : BufTy).Contents (Elt F) → (⟨S512x1, .f32⟩ : BufTy).Contents (Elt F)),
    binary main_v34_0 main_v35 main_v36 ((fun l r => Host.dotGeneral dot_S65536x512_S512x1_S65536x1_1_0_0_1_n_n none l r) : (⟨S65536x512, .f32⟩ : BufTy).Contents (Elt F) → (⟨S512x1, .f32⟩ : BufTy).Contents (Elt F) → (⟨S65536x1, .f32⟩ : BufTy).Contents (Elt F)),
    unary main_arg13 main_v37 ((transpose S64x1 [1, 0] · transposes_S1x64_S64x1_1_0) : (⟨S1x64, .f32⟩ : BufTy).Contents (Elt F) → (⟨S64x1, .f32⟩ : BufTy).Contents (Elt F)),
    binary main_v1 main_v37 main_v38 ((fun l r => Host.dotGeneral dot_S65536x64_S64x1_S65536x1_1_0_0_1_n_n none l r) : (⟨S65536x64, .f32⟩ : BufTy).Contents (Elt F) → (⟨S64x1, .f32⟩ : BufTy).Contents (Elt F) → (⟨S65536x1, .f32⟩ : BufTy).Contents (Elt F)),
    binary main_v36 main_v38 main_v39 (addf : (⟨S65536x1, .f32⟩ : BufTy).Contents (Elt F) → (⟨S65536x1, .f32⟩ : BufTy).Contents (Elt F) → (⟨S65536x1, .f32⟩ : BufTy).Contents (Elt F)),
    nullary main_cst_0 (constant S_ .f32 0x00000000#32),
    binary main_v39 main_cst_0 main_v40 ((fun x v => Host.reduceAdd x v reducesTo_S65536x1_S_d0_1 h_S_) : (⟨S65536x1, .f32⟩ : BufTy).Contents (Elt F) → (⟨S_, .f32⟩ : BufTy).Contents (Elt F) → (⟨S_, .f32⟩ : BufTy).Contents (Elt F)),
    nullary main_cst_1 (constant S_ .f32 0x3F800000#32),
    unary main_cst_1 main_v41 (broadcastInDim S65536x1 ![] bcast_S_S65536x1 : (⟨S_, .f32⟩ : BufTy).Contents (Elt F) → (⟨S65536x1, .f32⟩ : BufTy).Contents (Elt F)),
    binary main_v41 main_v37 main_v42 ((fun l r => Host.dotGeneral dot_S65536x1_S64x1_S65536x64_1_1_0_0_n_n none l r) : (⟨S65536x1, .f32⟩ : BufTy).Contents (Elt F) → (⟨S64x1, .f32⟩ : BufTy).Contents (Elt F) → (⟨S65536x64, .f32⟩ : BufTy).Contents (Elt F)),
    binary main_v41 main_v35 main_v43 ((fun l r => Host.dotGeneral dot_S65536x1_S512x1_S65536x512_1_1_0_0_n_n none l r) : (⟨S65536x1, .f32⟩ : BufTy).Contents (Elt F) → (⟨S512x1, .f32⟩ : BufTy).Contents (Elt F) → (⟨S65536x512, .f32⟩ : BufTy).Contents (Elt F)),
    TRef.binary (TRef.of (T := ⟨S65536x512, .f32⟩) main_v43) (TRef.of (T := ⟨S65536x512, .f32⟩) main_v34_1) (TRef.of (T := ⟨S65536x512, .f32⟩) main_v44) mulf,
    binary main_v44 main_v28 main_v45 ((fun l r => Host.dotGeneral dot_S65536x512_S64x512_S65536x64_1_1_0_0_n_n none l r) : (⟨S65536x512, .f32⟩ : BufTy).Contents (Elt F) → (⟨S64x512, .f32⟩ : BufTy).Contents (Elt F) → (⟨S65536x64, .f32⟩ : BufTy).Contents (Elt F)),
    binary main_v42 main_v45 main_v46 (addf : (⟨S65536x64, .f32⟩ : BufTy).Contents (Elt F) → (⟨S65536x64, .f32⟩ : BufTy).Contents (Elt F) → (⟨S65536x64, .f32⟩ : BufTy).Contents (Elt F)),
    binary main_v44 main_v26 main_v47 ((fun l r => Host.dotGeneral dot_S65536x512_S512x512_S65536x512_1_1_0_0_n_n none l r) : (⟨S65536x512, .f32⟩ : BufTy).Contents (Elt F) → (⟨S512x512, .f32⟩ : BufTy).Contents (Elt F) → (⟨S65536x512, .f32⟩ : BufTy).Contents (Elt F)),
    TRef.binary (TRef.of (T := ⟨S65536x512, .f32⟩) main_v47) (TRef.of (T := ⟨S65536x512, .f32⟩) main_v25_1) (TRef.of (T := ⟨S65536x512, .f32⟩) main_v48) mulf,
    binary main_v48 main_v19 main_v49 ((fun l r => Host.dotGeneral dot_S65536x512_S64x512_S65536x64_1_1_0_0_n_n none l r) : (⟨S65536x512, .f32⟩ : BufTy).Contents (Elt F) → (⟨S64x512, .f32⟩ : BufTy).Contents (Elt F) → (⟨S65536x64, .f32⟩ : BufTy).Contents (Elt F)),
    binary main_v46 main_v49 main_v50 (addf : (⟨S65536x64, .f32⟩ : BufTy).Contents (Elt F) → (⟨S65536x64, .f32⟩ : BufTy).Contents (Elt F) → (⟨S65536x64, .f32⟩ : BufTy).Contents (Elt F)),
    binary main_v48 main_v17 main_v51 ((fun l r => Host.dotGeneral dot_S65536x512_S512x512_S65536x512_1_1_0_0_n_n none l r) : (⟨S65536x512, .f32⟩ : BufTy).Contents (Elt F) → (⟨S512x512, .f32⟩ : BufTy).Contents (Elt F) → (⟨S65536x512, .f32⟩ : BufTy).Contents (Elt F)),
    TRef.binary (TRef.of (T := ⟨S65536x512, .f32⟩) main_v51) (TRef.of (T := ⟨S65536x512, .f32⟩) main_v16_1) (TRef.of (T := ⟨S65536x512, .f32⟩) main_v52) mulf,
    binary main_v52 main_v10 main_v53 ((fun l r => Host.dotGeneral dot_S65536x512_S64x512_S65536x64_1_1_0_0_n_n none l r) : (⟨S65536x512, .f32⟩ : BufTy).Contents (Elt F) → (⟨S64x512, .f32⟩ : BufTy).Contents (Elt F) → (⟨S65536x64, .f32⟩ : BufTy).Contents (Elt F)),
    binary main_v50 main_v53 main_v54 (addf : (⟨S65536x64, .f32⟩ : BufTy).Contents (Elt F) → (⟨S65536x64, .f32⟩ : BufTy).Contents (Elt F) → (⟨S65536x64, .f32⟩ : BufTy).Contents (Elt F)),
    binary main_v52 main_v8 main_v55 ((fun l r => Host.dotGeneral dot_S65536x512_S512x512_S65536x512_1_1_0_0_n_n none l r) : (⟨S65536x512, .f32⟩ : BufTy).Contents (Elt F) → (⟨S512x512, .f32⟩ : BufTy).Contents (Elt F) → (⟨S65536x512, .f32⟩ : BufTy).Contents (Elt F)),
    TRef.binary (TRef.of (T := ⟨S65536x512, .f32⟩) main_v55) (TRef.of (T := ⟨S65536x512, .f32⟩) main_v7_1) (TRef.of (T := ⟨S65536x512, .f32⟩) main_v56) mulf,
    binary main_v56 main_v2 main_v57 ((fun l r => Host.dotGeneral dot_S65536x512_S64x512_S65536x64_1_1_0_0_n_n none l r) : (⟨S65536x512, .f32⟩ : BufTy).Contents (Elt F) → (⟨S64x512, .f32⟩ : BufTy).Contents (Elt F) → (⟨S65536x64, .f32⟩ : BufTy).Contents (Elt F)),
    binary main_v54 main_v57 main_v58 (addf : (⟨S65536x64, .f32⟩ : BufTy).Contents (Elt F) → (⟨S65536x64, .f32⟩ : BufTy).Contents (Elt F) → (⟨S65536x64, .f32⟩ : BufTy).Contents (Elt F)) ]

/-- The arrays the operations assign, in order. -/
def W : List (Ref sig .tc) :=
  [main_cst, main_v0, main_v1, main_v2, main_v3, main_v4, main_v5, main_v6, main_call0_cst, main_call0_v0, main_call0_v1, main_call0_v2, main_call0_v3, main_call0_v4, main_call0_v5, main_call0_v6, main_call0_v7, main_call0_v8, main_call0_v9, main_call0_v10, main_call0_v11, main_v7_0, main_call0_cst_0, main_call0_v13, main_call0_v14, main_call0_cst_1, main_call0_v15, main_call0_v16, main_call0_cst_2, main_call0_v17, main_call0_v18, main_call0_cst_3, main_call0_v19, main_call0_v20, main_call0_v21, main_v7_1, main_call0_cst_4, main_call0_cst_5, main_call0_v23, main_call0_cst_6, main_call0_cst_7, main_call0_v24, main_call0_cst_8, main_call0_v25, main_call0_v26, main_call0_cst_9, main_call0_v27, main_call0_v28, main_call0_v29, main_call0_v30, main_call0_v31, main_call0_cst_10, main_call0_v32, main_v7_2, main_v8, main_v9, main_v10, main_v11, main_v12, main_v13, main_v14, main_v15, main_call1_cst, main_call1_v0, main_call1_v1, main_call1_v2, main_call1_v3, main_call1_v4, main_call1_v5, main_call1_v6, main_call1_v7, main_call1_v8, main_call1_v9, main_call1_v10, main_call1_v11, main_v16_0, main_call1_cst_0, main_call1_v13, main_call1_v14, main_call1_cst_1, main_call1_v15, main_call1_v16, main_call1_cst_2, main_call1_v17, main_call1_v18, main_call1_cst_3, main_call1_v19, main_call1_v20, main_call1_v21, main_v16_1, main_call1_cst_4, main_call1_cst_5, main_call1_v23, main_call1_cst_6, main_call1_cst_7, main_call1_v24, main_call1_cst_8, main_call1_v25, main_call1_v26, main_call1_cst_9, main_call1_v27, main_call1_v28, main_call1_v29, main_call1_v30, main_call1_v31, main_call1_cst_10, main_call1_v32, main_v16_2, main_v17, main_v18, main_v19, main_v20, main_v21, main_v22, main_v23, main_v24, main_call2_cst, main_call2_v0, main_call2_v1, main_call2_v2, main_call2_v3, main_call2_v4, main_call2_v5, main_call2_v6, main_call2_v7, main_call2_v8, main_call2_v9, main_call2_v10, main_call2_v11, main_v25_0, main_call2_cst_0, main_call2_v13, main_call2_v14, main_call2_cst_1, main_call2_v15, main_call2_v16, main_call2_cst_2, main_call2_v17, main_call2_v18, main_call2_cst_3, main_call2_v19, main_call2_v20, main_call2_v21, main_v25_1, main_call2_cst_4, main_call2_cst_5, main_call2_v23, main_call2_cst_6, main_call2_cst_7, main_call2_v24, main_call2_cst_8, main_call2_v25, main_call2_v26, main_call2_cst_9, main_call2_v27, main_call2_v28, main_call2_v29, main_call2_v30, main_call2_v31, main_call2_cst_10, main_call2_v32, main_v25_2, main_v26, main_v27, main_v28, main_v29, main_v30, main_v31, main_v32, main_v33, main_call3_cst, main_call3_v0, main_call3_v1, main_call3_v2, main_call3_v3, main_call3_v4, main_call3_v5, main_call3_v6, main_call3_v7, main_call3_v8, main_call3_v9, main_call3_v10, main_call3_v11, main_v34_0, main_call3_cst_0, main_call3_v13, main_call3_v14, main_call3_cst_1, main_call3_v15, main_call3_v16, main_call3_cst_2, main_call3_v17, main_call3_v18, main_call3_cst_3, main_call3_v19, main_call3_v20, main_call3_v21, main_v34_1, main_call3_cst_4, main_call3_cst_5, main_call3_v23, main_call3_cst_6, main_call3_cst_7, main_call3_v24, main_call3_cst_8, main_call3_v25, main_call3_v26, main_call3_cst_9, main_call3_v27, main_call3_v28, main_call3_v29, main_call3_v30, main_call3_v31, main_call3_cst_10, main_call3_v32, main_v34_2, main_v35, main_v36, main_v37, main_v38, main_v39, main_cst_0, main_v40, main_cst_1, main_v41, main_v42, main_v43, main_v44, main_v45, main_v46, main_v47, main_v48, main_v49, main_v50, main_v51, main_v52, main_v53, main_v54, main_v55, main_v56, main_v57, main_v58]

set_option maxRecDepth 8192 in
set_option maxHeartbeats 4000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., nullary_bufs_sub .., unary_bufs_sub .., binary_bufs_sub .., nullary_bufs_sub .., unary_bufs_sub .., ternary_bufs_sub .., nullary_bufs_sub .., unary_bufs_sub .., binary_bufs_sub .., nullary_bufs_sub .., unary_bufs_sub .., ternary_bufs_sub .., binary_bufs_sub .., unary_bufs_sub .., nullary_bufs_sub .., nullary_bufs_sub .., binary_bufs_sub .., nullary_bufs_sub .., nullary_bufs_sub .., ternary_bufs_sub .., nullary_bufs_sub .., unary_bufs_sub .., binary_bufs_sub .., nullary_bufs_sub .., unary_bufs_sub .., ternary_bufs_sub .., unary_bufs_sub .., binary_bufs_sub .., unary_bufs_sub .., nullary_bufs_sub .., unary_bufs_sub .., binary_bufs_sub .., unary_bufs_sub .., binary_bufs_sub .., unary_bufs_sub .., binary_bufs_sub .., binary_bufs_sub .., unary_bufs_sub .., unary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., nullary_bufs_sub .., unary_bufs_sub .., binary_bufs_sub .., nullary_bufs_sub .., unary_bufs_sub .., ternary_bufs_sub .., nullary_bufs_sub .., unary_bufs_sub .., binary_bufs_sub .., nullary_bufs_sub .., unary_bufs_sub .., ternary_bufs_sub .., binary_bufs_sub .., unary_bufs_sub .., nullary_bufs_sub .., nullary_bufs_sub .., binary_bufs_sub .., nullary_bufs_sub .., nullary_bufs_sub .., ternary_bufs_sub .., nullary_bufs_sub .., unary_bufs_sub .., binary_bufs_sub .., nullary_bufs_sub .., unary_bufs_sub .., ternary_bufs_sub .., unary_bufs_sub .., binary_bufs_sub .., unary_bufs_sub .., nullary_bufs_sub .., unary_bufs_sub .., binary_bufs_sub .., unary_bufs_sub .., binary_bufs_sub .., unary_bufs_sub .., binary_bufs_sub .., binary_bufs_sub .., unary_bufs_sub .., unary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., nullary_bufs_sub .., unary_bufs_sub .., binary_bufs_sub .., nullary_bufs_sub .., unary_bufs_sub .., ternary_bufs_sub .., nullary_bufs_sub .., unary_bufs_sub .., binary_bufs_sub .., nullary_bufs_sub .., unary_bufs_sub .., ternary_bufs_sub .., binary_bufs_sub .., unary_bufs_sub .., nullary_bufs_sub .., nullary_bufs_sub .., binary_bufs_sub .., nullary_bufs_sub .., nullary_bufs_sub .., ternary_bufs_sub .., nullary_bufs_sub .., unary_bufs_sub .., binary_bufs_sub .., nullary_bufs_sub .., unary_bufs_sub .., ternary_bufs_sub .., unary_bufs_sub .., binary_bufs_sub .., unary_bufs_sub .., nullary_bufs_sub .., unary_bufs_sub .., binary_bufs_sub .., unary_bufs_sub .., binary_bufs_sub .., unary_bufs_sub .., binary_bufs_sub .., binary_bufs_sub .., unary_bufs_sub .., unary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., nullary_bufs_sub .., unary_bufs_sub .., binary_bufs_sub .., nullary_bufs_sub .., unary_bufs_sub .., ternary_bufs_sub .., nullary_bufs_sub .., unary_bufs_sub .., binary_bufs_sub .., nullary_bufs_sub .., unary_bufs_sub .., ternary_bufs_sub .., binary_bufs_sub .., unary_bufs_sub .., nullary_bufs_sub .., nullary_bufs_sub .., binary_bufs_sub .., nullary_bufs_sub .., nullary_bufs_sub .., ternary_bufs_sub .., nullary_bufs_sub .., unary_bufs_sub .., binary_bufs_sub .., nullary_bufs_sub .., unary_bufs_sub .., ternary_bufs_sub .., unary_bufs_sub .., binary_bufs_sub .., unary_bufs_sub .., nullary_bufs_sub .., unary_bufs_sub .., binary_bufs_sub .., unary_bufs_sub .., binary_bufs_sub .., unary_bufs_sub .., binary_bufs_sub .., binary_bufs_sub .., nullary_bufs_sub .., binary_bufs_sub .., nullary_bufs_sub .., unary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub ..⟩

set_option maxRecDepth 8192 in
set_option maxHeartbeats 4000000 in
/-- Each operation assigns one array, and no array is assigned twice. -/
theorem single : SingleAssign (ops (F := F)) W where
  writes := rfl
  nodup := by decide

set_option maxRecDepth 8192 in
set_option maxHeartbeats 4000000 in
/-- Every weakly fair execution of the reference terminates with every array at its value after the whole line. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after (ops (F := F)) (launchContents m c) (Proc.devRef .tc b) :=
  run_seq scopedRefs_eq scopedSems_eq defs main (fun _ => ops) main_eq (fun _ => ops_sub) m ρ

end Cert.Icnn.RefLine

end
-- ==== Proof.RefValues.lean ====
/-
  Each array of the reference after the run, as its operation's function of its operands' contents after the run.

  One equation per operation that the result depends on (the arrays of the forward output and of the unused tangent of
  the constant `0` inside each softplus are left out: nothing reads them on the way to the gradient), and one per
  input array: it holds what it held at the start.
-/
import proofs.«125153_j75711683494298_1_alg».proof.Proof.RefLine

noncomputable section

namespace Cert.Icnn.RefLine

open Cert.ReferenceIdeal Cert.ReferenceIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (c : Dev nD)

/-- The contents of array `b` after the whole line, from the memory `m`. -/
abbrev fin (b : Ref sig .tc) := after (ops (F := F)) (launchContents m c) (Proc.devRef .tc b)

/-! ## The inputs are never assigned -/

theorem arg0_nw : main_arg0 ∉ W := by decide
theorem arg1_nw : main_arg1 ∉ W := by decide
theorem arg2_nw : main_arg2 ∉ W := by decide
theorem arg3_nw : main_arg3 ∉ W := by decide
theorem arg4_nw : main_arg4 ∉ W := by decide
theorem arg5_nw : main_arg5 ∉ W := by decide
theorem arg6_nw : main_arg6 ∉ W := by decide
theorem arg7_nw : main_arg7 ∉ W := by decide
theorem arg8_nw : main_arg8 ∉ W := by decide
theorem arg9_nw : main_arg9 ∉ W := by decide
theorem arg10_nw : main_arg10 ∉ W := by decide
theorem arg11_nw : main_arg11 ∉ W := by decide
theorem arg12_nw : main_arg12 ∉ W := by decide
theorem arg13_nw : main_arg13 ∉ W := by decide

theorem fin_main_arg0 : fin m c main_arg0 = m ((c.tc : Thread nD τ).loc main_arg0) :=
  after_of_not_assigned single _ arg0_nw
theorem fin_main_arg1 : fin m c main_arg1 = m ((c.tc : Thread nD τ).loc main_arg1) :=
  after_of_not_assigned single _ arg1_nw
theorem fin_main_arg2 : fin m c main_arg2 = m ((c.tc : Thread nD τ).loc main_arg2) :=
  after_of_not_assigned single _ arg2_nw
theorem fin_main_arg3 : fin m c main_arg3 = m ((c.tc : Thread nD τ).loc main_arg3) :=
  after_of_not_assigned single _ arg3_nw
theorem fin_main_arg4 : fin m c main_arg4 = m ((c.tc : Thread nD τ).loc main_arg4) :=
  after_of_not_assigned single _ arg4_nw
theorem fin_main_arg5 : fin m c main_arg5 = m ((c.tc : Thread nD τ).loc main_arg5) :=
  after_of_not_assigned single _ arg5_nw
theorem fin_main_arg6 : fin m c main_arg6 = m ((c.tc : Thread nD τ).loc main_arg6) :=
  after_of_not_assigned single _ arg6_nw
theorem fin_main_arg7 : fin m c main_arg7 = m ((c.tc : Thread nD τ).loc main_arg7) :=
  after_of_not_assigned single _ arg7_nw
theorem fin_main_arg8 : fin m c main_arg8 = m ((c.tc : Thread nD τ).loc main_arg8) :=
  after_of_not_assigned single _ arg8_nw
theorem fin_main_arg9 : fin m c main_arg9 = m ((c.tc : Thread nD τ).loc main_arg9) :=
  after_of_not_assigned single _ arg9_nw
theorem fin_main_arg10 : fin m c main_arg10 = m ((c.tc : Thread nD τ).loc main_arg10) :=
  after_of_not_assigned single _ arg10_nw
theorem fin_main_arg11 : fin m c main_arg11 = m ((c.tc : Thread nD τ).loc main_arg11) :=
  after_of_not_assigned single _ arg11_nw
theorem fin_main_arg12 : fin m c main_arg12 = m ((c.tc : Thread nD τ).loc main_arg12) :=
  after_of_not_assigned single _ arg12_nw
theorem fin_main_arg13 : fin m c main_arg13 = m ((c.tc : Thread nD τ).loc main_arg13) :=
  after_of_not_assigned single _ arg13_nw

/-! ## One equation per operation -/

theorem fin_main_cst : fin m c main_cst = (constant S_ .f32 0x3F800000#32) :=
  final_nullary single _ 0 rfl rfl

theorem fin_main_v0 : fin m c main_v0 = (broadcastInDim S65536x64 ![] bcast_S_S65536x64 : (⟨S_, .f32⟩ : BufTy).Contents (Elt F) → (⟨S65536x64, .f32⟩ : BufTy).Contents (Elt F)) (fin m c main_cst) :=
  final_unary single _ 1 rfl rfl (after_take_of_lt single _ (i := 0) rfl (by decide))

theorem fin_main_v1 : fin m c main_v1 = (subf : (⟨S65536x64, .f32⟩ : BufTy).Contents (Elt F) → (⟨S65536x64, .f32⟩ : BufTy).Contents (Elt F) → (⟨S65536x64, .f32⟩ : BufTy).Contents (Elt F)) (fin m c main_arg0) (fin m c main_v0) :=
  final_binary single _ 2 rfl rfl (after_take_of_not_assigned single _ 2 arg0_nw) (after_take_of_lt single _ (i := 1) rfl (by decide))

theorem fin_main_v2 : fin m c main_v2 = transpose S64x512 [1, 0] (fin m c main_arg1) transposes_S512x64_S64x512_1_0 :=
  final_unary single _ 3 rfl rfl (after_take_of_not_assigned single _ 3 arg1_nw)

theorem fin_main_v3 : fin m c main_v3 = Host.dotGeneral dot_S65536x64_S64x512_S65536x512_1_0_0_1_n_n none (fin m c main_v1) (fin m c main_v2) :=
  final_binary single _ 4 rfl rfl (after_take_of_lt single _ (i := 2) rfl (by decide)) (after_take_of_lt single _ (i := 3) rfl (by decide))

theorem fin_main_v4 : fin m c main_v4 = (broadcastInDim S1x512 ![1] bcast_S512_S1x512_1 : (⟨S512, .f32⟩ : BufTy).Contents (Elt F) → (⟨S1x512, .f32⟩ : BufTy).Contents (Elt F)) (fin m c main_arg2) :=
  final_unary single _ 5 rfl rfl (after_take_of_not_assigned single _ 5 arg2_nw)

theorem fin_main_v5 : fin m c main_v5 = (broadcastInDim S65536x512 ![0, 1] bcast_S1x512_S65536x512_0_1 : (⟨S1x512, .f32⟩ : BufTy).Contents (Elt F) → (⟨S65536x512, .f32⟩ : BufTy).Contents (Elt F)) (fin m c main_v4) :=
  final_unary single _ 6 rfl rfl (after_take_of_lt single _ (i := 5) rfl (by decide))

theorem fin_main_v6 : fin m c main_v6 = (addf : (⟨S65536x512, .f32⟩ : BufTy).Contents (Elt F) → (⟨S65536x512, .f32⟩ : BufTy).Contents (Elt F) → (⟨S65536x512, .f32⟩ : BufTy).Contents (Elt F)) (fin m c main_v3) (fin m c main_v5) :=
  final_binary single _ 7 rfl rfl (after_take_of_lt single _ (i := 4) rfl (by decide)) (after_take_of_lt single _ (i := 6) rfl (by decide))

theorem fin_main_call0_cst : fin m c main_call0_cst = (constant S_ .f32 0x00000000#32 : (⟨S_, .f32⟩ : BufTy).Contents (Elt F)) :=
  final_nullary single _ 8 rfl rfl

theorem fin_main_call0_v0 : fin m c main_call0_v0 = ((broadcastInDim S65536x512 ![] bcast_S_S65536x512) : (⟨S_, .f32⟩ : BufTy).Contents (Elt F) → (⟨S65536x512, .f32⟩ : BufTy).Contents (Elt F)) (fin m c main_call0_cst) :=
  final_unary single _ 9 rfl rfl (after_take_of_lt single _ (i := 8) rfl (by decide))

theorem fin_main_call0_v1 : fin m c main_call0_v1 = (maximumf : (⟨S65536x512, .f32⟩ : BufTy).Contents (Elt F) → (⟨S65536x512, .f32⟩ : BufTy).Contents (Elt F) → (⟨S65536x512, .f32⟩ : BufTy).Contents (Elt F)) (fin m c main_v6) (fin m c main_call0_v0) :=
  final_binary single _ 10 rfl rfl (after_take_of_lt single _ (i := 7) rfl (by decide)) (after_take_of_lt single _ (i := 9) rfl (by decide))

theorem fin_main_call0_v2 : fin m c main_call0_v2 = ((broadcastInDim S65536x512 ![] bcast_S_S65536x512) : (⟨S_, .f32⟩ : BufTy).Contents (Elt F) → (⟨S65536x512, .f32⟩ : BufTy).Contents (Elt F)) (fin m c main_call0_cst) :=
  final_unary single _ 11 rfl rfl (after_take_of_lt single _ (i := 8) rfl (by decide))

theorem fin_main_call0_v3 : fin m c main_call0_v3 = (subf : (⟨S65536x512, .f32⟩ : BufTy).Contents (Elt F) → (⟨S65536x512, .f32⟩ : BufTy).Contents (Elt F) → (⟨S65536x512, .f32⟩ : BufTy).Contents (Elt F)) (fin m c main_v6) (fin m c main_call0_v2) :=
  final_binary single _ 12 rfl rfl (after_take_of_lt single _ (i := 7) rfl (by decide)) (after_take_of_lt single _ (i := 11) rfl (by decide))

theorem fin_main_call0_v4 : fin m c main_call0_v4 = ((cmpf .une) : (⟨S65536x512, .f32⟩ : BufTy).Contents (Elt F) → (⟨S65536x512, .f32⟩ : BufTy).Contents (Elt F) → (⟨S65536x512, .i1⟩ : BufTy).Contents (Elt F)) (fin m c main_call0_v3) (fin m c main_call0_v3) :=
  final_binary single _ 13 rfl rfl (after_take_of_lt single _ (i := 12) rfl (by decide)) (after_take_of_lt single _ (i := 12) rfl (by decide))

theorem fin_main_call0_v5 : fin m c main_call0_v5 = ((broadcastInDim S65536x512 ![] bcast_S_S65536x512) : (⟨S_, .f32⟩ : BufTy).Contents (Elt F) → (⟨S65536x512, .f32⟩ : BufTy).Contents (Elt F)) (fin m c main_call0_cst) :=
  final_unary single _ 14 rfl rfl (after_take_of_lt single _ (i := 8) rfl (by decide))

theorem fin_main_call0_v6 : fin m c main_call0_v6 = (addf : (⟨S65536x512, .f32⟩ : BufTy).Contents (Elt F) → (⟨S65536x512, .f32⟩ : BufTy).Contents (Elt F) → (⟨S65536x512, .f32⟩ : BufTy).Contents (Elt F)) (fin m c main_v6) (fin m c main_call0_v5) :=
  final_binary single _ 15 rfl rfl (after_take_of_lt single _ (i := 7) rfl (by decide)) (after_take_of_lt single _ (i := 14) rfl (by decide))

theorem fin_main_call0_v7 : fin m c main_call0_v7 = (Host.absf : (⟨S65536x512, .f32⟩ : BufTy).Contents (Elt F) → (⟨S65536x512, .f32⟩ : BufTy).Contents (Elt F)) (fin m c main_call0_v3) :=
  final_unary single _ 16 rfl rfl (after_take_of_lt single _ (i := 12) rfl (by decide))

theorem fin_main_call0_v8 : fin m c main_call0_v8 = (Host.negf : (⟨S65536x512, .f32⟩ : BufTy).Contents (Elt F) → (⟨S65536x512, .f32⟩ : BufTy).Contents (Elt F)) (fin m c main_call0_v7) :=
  final_unary single _ 17 rfl rfl (after_take_of_lt single _ (i := 16) rfl (by decide))

theorem fin_main_call0_v9 : fin m c main_call0_v9 = (Host.exp : (⟨S65536x512, .f32⟩ : BufTy).Contents (Elt F) → (⟨S65536x512, .f32⟩ : BufTy).Contents (Elt F)) (fin m c main_call0_v8) :=
  final_unary single _ 18 rfl rfl (after_take_of_lt single _ (i := 17) rfl (by decide))

theorem fin_main_call0_v10 : fin m c main_call0_v10 = (Host.log1p : (⟨S65536x512, .f32⟩ : BufTy).Contents (Elt F) → (⟨S65536x512, .f32⟩ : BufTy).Contents (Elt F)) (fin m c main_call0_v9) :=
  final_unary single _ 19 rfl rfl (after_take_of_lt single _ (i := 18) rfl (by decide))

theorem fin_main_call0_v11 : fin m c main_call0_v11 = (addf : (⟨S65536x512, .f32⟩ : BufTy).Contents (Elt F) → (⟨S65536x512, .f32⟩ : BufTy).Contents (Elt F) → (⟨S65536x512, .f32⟩ : BufTy).Contents (Elt F)) (fin m c main_call0_v1) (fin m c main_call0_v10) :=
  final_binary single _ 20 rfl rfl (after_take_of_lt single _ (i := 10) rfl (by decide)) (after_take_of_lt single _ (i := 19) rfl (by decide))

theorem fin_main_v7_0 : fin m c main_v7_0 = (select : (⟨S65536x512, .i1⟩ : BufTy).Contents (Elt F) → (⟨S65536x512, .f32⟩ : BufTy).Contents (Elt F) → (⟨S65536x512, .f32⟩ : BufTy).Contents (Elt F) → (⟨S65536x512, .f32⟩ : BufTy).Contents (Elt F)) (fin m c main_call0_v4) (fin m c main_call0_v6) (fin m c main_call0_v11) :=
  final_ternary single _ 21 rfl rfl (after_take_of_lt single _ (i := 13) rfl (by decide)) (after_take_of_lt single _ (i := 15) rfl (by decide)) (after_take_of_lt single _ (i := 20) rfl (by decide))

theorem fin_main_call0_cst_0 : fin m c main_call0_cst_0 = (constant S_ .f32 0x7F800000#32 : (⟨S_, .f32⟩ : BufTy).Contents (Elt F)) :=
  final_nullary single _ 22 rfl rfl

theorem fin_main_call0_v13 : fin m c main_call0_v13 = ((broadcastInDim S65536x512 ![] bcast_S_S65536x512) : (⟨S_, .f32⟩ : BufTy).Contents (Elt F) → (⟨S65536x512, .f32⟩ : BufTy).Contents (Elt F)) (fin m c main_call0_cst_0) :=
  final_unary single _ 23 rfl rfl (after_take_of_lt single _ (i := 22) rfl (by decide))

theorem fin_main_call0_v14 : fin m c main_call0_v14 = ((cmpf .oeq) : (⟨S65536x512, .f32⟩ : BufTy).Contents (Elt F) → (⟨S65536x512, .f32⟩ : BufTy).Contents (Elt F) → (⟨S65536x512, .i1⟩ : BufTy).Contents (Elt F)) (fin m c main_v6) (fin m c main_call0_v13) :=
  final_binary single _ 24 rfl rfl (after_take_of_lt single _ (i := 7) rfl (by decide)) (after_take_of_lt single _ (i := 23) rfl (by decide))

theorem fin_main_call0_cst_1 : fin m c main_call0_cst_1 = (constant S_ .f32 0x00000000#32 : (⟨S_, .f32⟩ : BufTy).Contents (Elt F)) :=
  final_nullary single _ 25 rfl rfl

theorem fin_main_call0_v15 : fin m c main_call0_v15 = ((broadcastInDim S65536x512 ![] bcast_S_S65536x512) : (⟨S_, .f32⟩ : BufTy).Contents (Elt F) → (⟨S65536x512, .f32⟩ : BufTy).Contents (Elt F)) (fin m c main_call0_cst_1) :=
  final_unary single _ 26 rfl rfl (after_take_of_lt single _ (i := 25) rfl (by decide))

theorem fin_main_call0_v16 : fin m c main_call0_v16 = (select : (⟨S65536x512, .i1⟩ : BufTy).Contents (Elt F) → (⟨S65536x512, .f32⟩ : BufTy).Contents (Elt F) → (⟨S65536x512, .f32⟩ : BufTy).Contents (Elt F) → (⟨S65536x512, .f32⟩ : BufTy).Contents (Elt F)) (fin m c main_call0_v14) (fin m c main_call0_v15) (fin m c main_v6) :=
  final_ternary single _ 27 rfl rfl (after_take_of_lt single _ (i := 24) rfl (by decide)) (after_take_of_lt single _ (i := 26) rfl (by decide)) (after_take_of_lt single _ (i := 7) rfl (by decide))

theorem fin_main_call0_cst_2 : fin m c main_call0_cst_2 = (constant S_ .f32 0x7F800000#32 : (⟨S_, .f32⟩ : BufTy).Contents (Elt F)) :=
  final_nullary single _ 28 rfl rfl

theorem fin_main_call0_v17 : fin m c main_call0_v17 = ((broadcastInDim S65536x512 ![] bcast_S_S65536x512) : (⟨S_, .f32⟩ : BufTy).Contents (Elt F) → (⟨S65536x512, .f32⟩ : BufTy).Contents (Elt F)) (fin m c main_call0_cst_2) :=
  final_unary single _ 29 rfl rfl (after_take_of_lt single _ (i := 28) rfl (by decide))

theorem fin_main_call0_v18 : fin m c main_call0_v18 = ((cmpf .oeq) : (⟨S65536x512, .f32⟩ : BufTy).Contents (Elt F) → (⟨S65536x512, .f32⟩ : BufTy).Contents (Elt F) → (⟨S65536x512, .i1⟩ : BufTy).Contents (Elt F)) (fin m c main_v7_0) (fin m c main_call0_v17) :=
  final_binary single _ 30 rfl rfl (after_take_of_lt single _ (i := 21) rfl (by decide)) (after_take_of_lt single _ (i := 29) rfl (by decide))

theorem fin_main_call0_cst_3 : fin m c main_call0_cst_3 = (constant S_ .f32 0x00000000#32 : (⟨S_, .f32⟩ : BufTy).Contents (Elt F)) :=
  final_nullary single _ 31 rfl rfl

theorem fin_main_call0_v19 : fin m c main_call0_v19 = ((broadcastInDim S65536x512 ![] bcast_S_S65536x512) : (⟨S_, .f32⟩ : BufTy).Contents (Elt F) → (⟨S65536x512, .f32⟩ : BufTy).Contents (Elt F)) (fin m c main_call0_cst_3) :=
  final_unary single _ 32 rfl rfl (after_take_of_lt single _ (i := 31) rfl (by decide))

theorem fin_main_call0_v20 : fin m c main_call0_v20 = (select : (⟨S65536x512, .i1⟩ : BufTy).Contents (Elt F) → (⟨S65536x512, .f32⟩ : BufTy).Contents (Elt F) → (⟨S65536x512, .f32⟩ : BufTy).Contents (Elt F) → (⟨S65536x512, .f32⟩ : BufTy).Contents (Elt F)) (fin m c main_call0_v18) (fin m c main_call0_v19) (fin m c main_v7_0) :=
  final_ternary single _ 33 rfl rfl (after_take_of_lt single _ (i := 30) rfl (by decide)) (after_take_of_lt single _ (i := 32) rfl (by decide)) (after_take_of_lt single _ (i := 21) rfl (by decide))

theorem fin_main_call0_v21 : fin m c main_call0_v21 = (subf : (⟨S65536x512, .f32⟩ : BufTy).Contents (Elt F) → (⟨S65536x512, .f32⟩ : BufTy).Contents (Elt F) → (⟨S65536x512, .f32⟩ : BufTy).Contents (Elt F)) (fin m c main_call0_v16) (fin m c main_call0_v20) :=
  final_binary single _ 34 rfl rfl (after_take_of_lt single _ (i := 27) rfl (by decide)) (after_take_of_lt single _ (i := 33) rfl (by decide))

theorem fin_main_v7_1 : fin m c main_v7_1 = (Host.exp : (⟨S65536x512, .f32⟩ : BufTy).Contents (Elt F) → (⟨S65536x512, .f32⟩ : BufTy).Contents (Elt F)) (fin m c main_call0_v21) :=
  final_unary single _ 35 rfl rfl (after_take_of_lt single _ (i := 34) rfl (by decide))

theorem fin_main_v8 : fin m c main_v8 = transpose S512x512 [1, 0] (fin m c main_arg3) transposes_S512x512_S512x512_1_0 :=
  final_unary single _ 54 rfl rfl (after_take_of_not_assigned single _ 54 arg3_nw)

theorem fin_main_v9 : fin m c main_v9 = Host.dotGeneral dot_S65536x512_S512x512_S65536x512_1_0_0_1_n_n none (fin m c main_v7_0) (fin m c main_v8) :=
  final_binary single _ 55 rfl rfl (after_take_of_lt single _ (i := 21) rfl (by decide)) (after_take_of_lt single _ (i := 54) rfl (by decide))

theorem fin_main_v10 : fin m c main_v10 = transpose S64x512 [1, 0] (fin m c main_arg7) transposes_S512x64_S64x512_1_0 :=
  final_unary single _ 56 rfl rfl (after_take_of_not_assigned single _ 56 arg7_nw)

theorem fin_main_v11 : fin m c main_v11 = Host.dotGeneral dot_S65536x64_S64x512_S65536x512_1_0_0_1_n_n none (fin m c main_v1) (fin m c main_v10) :=
  final_binary single _ 57 rfl rfl (after_take_of_lt single _ (i := 2) rfl (by decide)) (after_take_of_lt single _ (i := 56) rfl (by decide))

theorem fin_main_v12 : fin m c main_v12 = (addf : (⟨S65536x512, .f32⟩ : BufTy).Contents (Elt F) → (⟨S65536x512, .f32⟩ : BufTy).Contents (Elt F) → (⟨S65536x512, .f32⟩ : BufTy).Contents (Elt F)) (fin m c main_v9) (fin m c main_v11) :=
  final_binary single _ 58 rfl rfl (after_take_of_lt single _ (i := 55) rfl (by decide)) (after_take_of_lt single _ (i := 57) rfl (by decide))

theorem fin_main_v13 : fin m c main_v13 = (broadcastInDim S1x512 ![1] bcast_S512_S1x512_1 : (⟨S512, .f32⟩ : BufTy).Contents (Elt F) → (⟨S1x512, .f32⟩ : BufTy).Contents (Elt F)) (fin m c main_arg8) :=
  final_unary single _ 59 rfl rfl (after_take_of_not_assigned single _ 59 arg8_nw)

theorem fin_main_v14 : fin m c main_v14 = (broadcastInDim S65536x512 ![0, 1] bcast_S1x512_S65536x512_0_1 : (⟨S1x512, .f32⟩ : BufTy).Contents (Elt F) → (⟨S65536x512, .f32⟩ : BufTy).Contents (Elt F)) (fin m c main_v13) :=
  final_unary single _ 60 rfl rfl (after_take_of_lt single _ (i := 59) rfl (by decide))

theorem fin_main_v15 : fin m c main_v15 = (addf : (⟨S65536x512, .f32⟩ : BufTy).Contents (Elt F) → (⟨S65536x512, .f32⟩ : BufTy).Contents (Elt F) → (⟨S65536x512, .f32⟩ : BufTy).Contents (Elt F)) (fin m c main_v12) (fin m c main_v14) :=
  final_binary single _ 61 rfl rfl (after_take_of_lt single _ (i := 58) rfl (by decide)) (after_take_of_lt single _ (i := 60) rfl (by decide))

theorem fin_main_call1_cst : fin m c main_call1_cst = (constant S_ .f32 0x00000000#32 : (⟨S_, .f32⟩ : BufTy).Contents (Elt F)) :=
  final_nullary single _ 62 rfl rfl

theorem fin_main_call1_v0 : fin m c main_call1_v0 = ((broadcastInDim S65536x512 ![] bcast_S_S65536x512) : (⟨S_, .f32⟩ : BufTy).Contents (Elt F) → (⟨S65536x512, .f32⟩ : BufTy).Contents (Elt F)) (fin m c main_call1_cst) :=
  final_unary single _ 63 rfl rfl (after_take_of_lt single _ (i := 62) rfl (by decide))

theorem fin_main_call1_v1 : fin m c main_call1_v1 = (maximumf : (⟨S65536x512, .f32⟩ : BufTy).Contents (Elt F) → (⟨S65536x512, .f32⟩ : BufTy).Contents (Elt F) → (⟨S65536x512, .f32⟩ : BufTy).Contents (Elt F)) (fin m c main_v15) (fin m c main_call1_v0) :=
  final_binary single _ 64 rfl rfl (after_take_of_lt single _ (i := 61) rfl (by decide)) (after_take_of_lt single _ (i := 63) rfl (by decide))

theorem fin_main_call1_v2 : fin m c main_call1_v2 = ((broadcastInDim S65536x512 ![] bcast_S_S65536x512) : (⟨S_, .f32⟩ : BufTy).Contents (Elt F) → (⟨S65536x512, .f32⟩ : BufTy).Contents (Elt F)) (fin m c main_call1_cst) :=
  final_unary single _ 65 rfl rfl (after_take_of_lt single _ (i := 62) rfl (by decide))

theorem fin_main_call1_v3 : fin m c main_call1_v3 = (subf : (⟨S65536x512, .f32⟩ : BufTy).Contents (Elt F) → (⟨S65536x512, .f32⟩ : BufTy).Contents (Elt F) → (⟨S65536x512, .f32⟩ : BufTy).Contents (Elt F)) (fin m c main_v15) (fin m c main_call1_v2) :=
  final_binary single _ 66 rfl rfl (after_take_of_lt single _ (i := 61) rfl (by decide)) (after_take_of_lt single _ (i := 65) rfl (by decide))

theorem fin_main_call1_v4 : fin m c main_call1_v4 = ((cmpf .une) : (⟨S65536x512, .f32⟩ : BufTy).Contents (Elt F) → (⟨S65536x512, .f32⟩ : BufTy).Contents (Elt F) → (⟨S65536x512, .i1⟩ : BufTy).Contents (Elt F)) (fin m c main_call1_v3) (fin m c main_call1_v3) :=
  final_binary single _ 67 rfl rfl (after_take_of_lt single _ (i := 66) rfl (by decide)) (after_take_of_lt single _ (i := 66) rfl (by decide))

theorem fin_main_call1_v5 : fin m c main_call1_v5 = ((broadcastInDim S65536x512 ![] bcast_S_S65536x512) : (⟨S_, .f32⟩ : BufTy).Contents (Elt F) → (⟨S65536x512, .f32⟩ : BufTy).Contents (Elt F)) (fin m c main_call1_cst) :=
  final_unary single _ 68 rfl rfl (after_take_of_lt single _ (i := 62) rfl (by decide))

theorem fin_main_call1_v6 : fin m c main_call1_v6 = (addf : (⟨S65536x512, .f32⟩ : BufTy).Contents (Elt F) → (⟨S65536x512, .f32⟩ : BufTy).Contents (Elt F) → (⟨S65536x512, .f32⟩ : BufTy).Contents (Elt F)) (fin m c main_v15) (fin m c main_call1_v5) :=
  final_binary single _ 69 rfl rfl (after_take_of_lt single _ (i := 61) rfl (by decide)) (after_take_of_lt single _ (i := 68) rfl (by decide))

theorem fin_main_call1_v7 : fin m c main_call1_v7 = (Host.absf : (⟨S65536x512, .f32⟩ : BufTy).Contents (Elt F) → (⟨S65536x512, .f32⟩ : BufTy).Contents (Elt F)) (fin m c main_call1_v3) :=
  final_unary single _ 70 rfl rfl (after_take_of_lt single _ (i := 66) rfl (by decide))

theorem fin_main_call1_v8 : fin m c main_call1_v8 = (Host.negf : (⟨S65536x512, .f32⟩ : BufTy).Contents (Elt F) → (⟨S65536x512, .f32⟩ : BufTy).Contents (Elt F)) (fin m c main_call1_v7) :=
  final_unary single _ 71 rfl rfl (after_take_of_lt single _ (i := 70) rfl (by decide))

theorem fin_main_call1_v9 : fin m c main_call1_v9 = (Host.exp : (⟨S65536x512, .f32⟩ : BufTy).Contents (Elt F) → (⟨S65536x512, .f32⟩ : BufTy).Contents (Elt F)) (fin m c main_call1_v8) :=
  final_unary single _ 72 rfl rfl (after_take_of_lt single _ (i := 71) rfl (by decide))

theorem fin_main_call1_v10 : fin m c main_call1_v10 = (Host.log1p : (⟨S65536x512, .f32⟩ : BufTy).Contents (Elt F) → (⟨S65536x512, .f32⟩ : BufTy).Contents (Elt F)) (fin m c main_call1_v9) :=
  final_unary single _ 73 rfl rfl (after_take_of_lt single _ (i := 72) rfl (by decide))

theorem fin_main_call1_v11 : fin m c main_call1_v11 = (addf : (⟨S65536x512, .f32⟩ : BufTy).Contents (Elt F) → (⟨S65536x512, .f32⟩ : BufTy).Contents (Elt F) → (⟨S65536x512, .f32⟩ : BufTy).Contents (Elt F)) (fin m c main_call1_v1) (fin m c main_call1_v10) :=
  final_binary single _ 74 rfl rfl (after_take_of_lt single _ (i := 64) rfl (by decide)) (after_take_of_lt single _ (i := 73) rfl (by decide))

theorem fin_main_v16_0 : fin m c main_v16_0 = (select : (⟨S65536x512, .i1⟩ : BufTy).Contents (Elt F) → (⟨S65536x512, .f32⟩ : BufTy).Contents (Elt F) → (⟨S65536x512, .f32⟩ : BufTy).Contents (Elt F) → (⟨S65536x512, .f32⟩ : BufTy).Contents (Elt F)) (fin m c main_call1_v4) (fin m c main_call1_v6) (fin m c main_call1_v11) :=
  final_ternary single _ 75 rfl rfl (after_take_of_lt single _ (i := 67) rfl (by decide)) (after_take_of_lt single _ (i := 69) rfl (by decide)) (after_take_of_lt single _ (i := 74) rfl (by decide))

theorem fin_main_call1_cst_0 : fin m c main_call1_cst_0 = (constant S_ .f32 0x7F800000#32 : (⟨S_, .f32⟩ : BufTy).Contents (Elt F)) :=
  final_nullary single _ 76 rfl rfl

theorem fin_main_call1_v13 : fin m c main_call1_v13 = ((broadcastInDim S65536x512 ![] bcast_S_S65536x512) : (⟨S_, .f32⟩ : BufTy).Contents (Elt F) → (⟨S65536x512, .f32⟩ : BufTy).Contents (Elt F)) (fin m c main_call1_cst_0) :=
  final_unary single _ 77 rfl rfl (after_take_of_lt single _ (i := 76) rfl (by decide))

theorem fin_main_call1_v14 : fin m c main_call1_v14 = ((cmpf .oeq) : (⟨S65536x512, .f32⟩ : BufTy).Contents (Elt F) → (⟨S65536x512, .f32⟩ : BufTy).Contents (Elt F) → (⟨S65536x512, .i1⟩ : BufTy).Contents (Elt F)) (fin m c main_v15) (fin m c main_call1_v13) :=
  final_binary single _ 78 rfl rfl (after_take_of_lt single _ (i := 61) rfl (by decide)) (after_take_of_lt single _ (i := 77) rfl (by decide))

theorem fin_main_call1_cst_1 : fin m c main_call1_cst_1 = (constant S_ .f32 0x00000000#32 : (⟨S_, .f32⟩ : BufTy).Contents (Elt F)) :=
  final_nullary single _ 79 rfl rfl

theorem fin_main_call1_v15 : fin m c main_call1_v15 = ((broadcastInDim S65536x512 ![] bcast_S_S65536x512) : (⟨S_, .f32⟩ : BufTy).Contents (Elt F) → (⟨S65536x512, .f32⟩ : BufTy).Contents (Elt F)) (fin m c main_call1_cst_1) :=
  final_unary single _ 80 rfl rfl (after_take_of_lt single _ (i := 79) rfl (by decide))

theorem fin_main_call1_v16 : fin m c main_call1_v16 = (select : (⟨S65536x512, .i1⟩ : BufTy).Contents (Elt F) → (⟨S65536x512, .f32⟩ : BufTy).Contents (Elt F) → (⟨S65536x512, .f32⟩ : BufTy).Contents (Elt F) → (⟨S65536x512, .f32⟩ : BufTy).Contents (Elt F)) (fin m c main_call1_v14) (fin m c main_call1_v15) (fin m c main_v15) :=
  final_ternary single _ 81 rfl rfl (after_take_of_lt single _ (i := 78) rfl (by decide)) (after_take_of_lt single _ (i := 80) rfl (by decide)) (after_take_of_lt single _ (i := 61) rfl (by decide))

theorem fin_main_call1_cst_2 : fin m c main_call1_cst_2 = (constant S_ .f32 0x7F800000#32 : (⟨S_, .f32⟩ : BufTy).Contents (Elt F)) :=
  final_nullary single _ 82 rfl rfl

theorem fin_main_call1_v17 : fin m c main_call1_v17 = ((broadcastInDim S65536x512 ![] bcast_S_S65536x512) : (⟨S_, .f32⟩ : BufTy).Contents (Elt F) → (⟨S65536x512, .f32⟩ : BufTy).Contents (Elt F)) (fin m c main_call1_cst_2) :=
  final_unary single _ 83 rfl rfl (after_take_of_lt single _ (i := 82) rfl (by decide))

theorem fin_main_call1_v18 : fin m c main_call1_v18 = ((cmpf .oeq) : (⟨S65536x512, .f32⟩ : BufTy).Contents (Elt F) → (⟨S65536x512, .f32⟩ : BufTy).Contents (Elt F) → (⟨S65536x512, .i1⟩ : BufTy).Contents (Elt F)) (fin m c main_v16_0) (fin m c main_call1_v17) :=
  final_binary single _ 84 rfl rfl (after_take_of_lt single _ (i := 75) rfl (by decide)) (after_take_of_lt single _ (i := 83) rfl (by decide))

theorem fin_main_call1_cst_3 : fin m c main_call1_cst_3 = (constant S_ .f32 0x00000000#32 : (⟨S_, .f32⟩ : BufTy).Contents (Elt F)) :=
  final_nullary single _ 85 rfl rfl

theorem fin_main_call1_v19 : fin m c main_call1_v19 = ((broadcastInDim S65536x512 ![] bcast_S_S65536x512) : (⟨S_, .f32⟩ : BufTy).Contents (Elt F) → (⟨S65536x512, .f32⟩ : BufTy).Contents (Elt F)) (fin m c main_call1_cst_3) :=
  final_unary single _ 86 rfl rfl (after_take_of_lt single _ (i := 85) rfl (by decide))

theorem fin_main_call1_v20 : fin m c main_call1_v20 = (select : (⟨S65536x512, .i1⟩ : BufTy).Contents (Elt F) → (⟨S65536x512, .f32⟩ : BufTy).Contents (Elt F) → (⟨S65536x512, .f32⟩ : BufTy).Contents (Elt F) → (⟨S65536x512, .f32⟩ : BufTy).Contents (Elt F)) (fin m c main_call1_v18) (fin m c main_call1_v19) (fin m c main_v16_0) :=
  final_ternary single _ 87 rfl rfl (after_take_of_lt single _ (i := 84) rfl (by decide)) (after_take_of_lt single _ (i := 86) rfl (by decide)) (after_take_of_lt single _ (i := 75) rfl (by decide))

theorem fin_main_call1_v21 : fin m c main_call1_v21 = (subf : (⟨S65536x512, .f32⟩ : BufTy).Contents (Elt F) → (⟨S65536x512, .f32⟩ : BufTy).Contents (Elt F) → (⟨S65536x512, .f32⟩ : BufTy).Contents (Elt F)) (fin m c main_call1_v16) (fin m c main_call1_v20) :=
  final_binary single _ 88 rfl rfl (after_take_of_lt single _ (i := 81) rfl (by decide)) (after_take_of_lt single _ (i := 87) rfl (by decide))

theorem fin_main_v16_1 : fin m c main_v16_1 = (Host.exp : (⟨S65536x512, .f32⟩ : BufTy).Contents (Elt F) → (⟨S65536x512, .f32⟩ : BufTy).Contents (Elt F)) (fin m c main_call1_v21) :=
  final_unary single _ 89 rfl rfl (after_take_of_lt single _ (i := 88) rfl (by decide))

theorem fin_main_v17 : fin m c main_v17 = transpose S512x512 [1, 0] (fin m c main_arg4) transposes_S512x512_S512x512_1_0 :=
  final_unary single _ 108 rfl rfl (after_take_of_not_assigned single _ 108 arg4_nw)

theorem fin_main_v18 : fin m c main_v18 = Host.dotGeneral dot_S65536x512_S512x512_S65536x512_1_0_0_1_n_n none (fin m c main_v16_0) (fin m c main_v17) :=
  final_binary single _ 109 rfl rfl (after_take_of_lt single _ (i := 75) rfl (by decide)) (after_take_of_lt single _ (i := 108) rfl (by decide))

theorem fin_main_v19 : fin m c main_v19 = transpose S64x512 [1, 0] (fin m c main_arg9) transposes_S512x64_S64x512_1_0 :=
  final_unary single _ 110 rfl rfl (after_take_of_not_assigned single _ 110 arg9_nw)

theorem fin_main_v20 : fin m c main_v20 = Host.dotGeneral dot_S65536x64_S64x512_S65536x512_1_0_0_1_n_n none (fin m c main_v1) (fin m c main_v19) :=
  final_binary single _ 111 rfl rfl (after_take_of_lt single _ (i := 2) rfl (by decide)) (after_take_of_lt single _ (i := 110) rfl (by decide))

theorem fin_main_v21 : fin m c main_v21 = (addf : (⟨S65536x512, .f32⟩ : BufTy).Contents (Elt F) → (⟨S65536x512, .f32⟩ : BufTy).Contents (Elt F) → (⟨S65536x512, .f32⟩ : BufTy).Contents (Elt F)) (fin m c main_v18) (fin m c main_v20) :=
  final_binary single _ 112 rfl rfl (after_take_of_lt single _ (i := 109) rfl (by decide)) (after_take_of_lt single _ (i := 111) rfl (by decide))

theorem fin_main_v22 : fin m c main_v22 = (broadcastInDim S1x512 ![1] bcast_S512_S1x512_1 : (⟨S512, .f32⟩ : BufTy).Contents (Elt F) → (⟨S1x512, .f32⟩ : BufTy).Contents (Elt F)) (fin m c main_arg10) :=
  final_unary single _ 113 rfl rfl (after_take_of_not_assigned single _ 113 arg10_nw)

theorem fin_main_v23 : fin m c main_v23 = (broadcastInDim S65536x512 ![0, 1] bcast_S1x512_S65536x512_0_1 : (⟨S1x512, .f32⟩ : BufTy).Contents (Elt F) → (⟨S65536x512, .f32⟩ : BufTy).Contents (Elt F)) (fin m c main_v22) :=
  final_unary single _ 114 rfl rfl (after_take_of_lt single _ (i := 113) rfl (by decide))

theorem fin_main_v24 : fin m c main_v24 = (addf : (⟨S65536x512, .f32⟩ : BufTy).Contents (Elt F) → (⟨S65536x512, .f32⟩ : BufTy).Contents (Elt F) → (⟨S65536x512, .f32⟩ : BufTy).Contents (Elt F)) (fin m c main_v21) (fin m c main_v23) :=
  final_binary single _ 115 rfl rfl (after_take_of_lt single _ (i := 112) rfl (by decide)) (after_take_of_lt single _ (i := 114) rfl (by decide))

theorem fin_main_call2_cst : fin m c main_call2_cst = (constant S_ .f32 0x00000000#32 : (⟨S_, .f32⟩ : BufTy).Contents (Elt F)) :=
  final_nullary single _ 116 rfl rfl

theorem fin_main_call2_v0 : fin m c main_call2_v0 = ((broadcastInDim S65536x512 ![] bcast_S_S65536x512) : (⟨S_, .f32⟩ : BufTy).Contents (Elt F) → (⟨S65536x512, .f32⟩ : BufTy).Contents (Elt F)) (fin m c main_call2_cst) :=
  final_unary single _ 117 rfl rfl (after_take_of_lt single _ (i := 116) rfl (by decide))

theorem fin_main_call2_v1 : fin m c main_call2_v1 = (maximumf : (⟨S65536x512, .f32⟩ : BufTy).Contents (Elt F) → (⟨S65536x512, .f32⟩ : BufTy).Contents (Elt F) → (⟨S65536x512, .f32⟩ : BufTy).Contents (Elt F)) (fin m c main_v24) (fin m c main_call2_v0) :=
  final_binary single _ 118 rfl rfl (after_take_of_lt single _ (i := 115) rfl (by decide)) (after_take_of_lt single _ (i := 117) rfl (by decide))

theorem fin_main_call2_v2 : fin m c main_call2_v2 = ((broadcastInDim S65536x512 ![] bcast_S_S65536x512) : (⟨S_, .f32⟩ : BufTy).Contents (Elt F) → (⟨S65536x512, .f32⟩ : BufTy).Contents (Elt F)) (fin m c main_call2_cst) :=
  final_unary single _ 119 rfl rfl (after_take_of_lt single _ (i := 116) rfl (by decide))

theorem fin_main_call2_v3 : fin m c main_call2_v3 = (subf : (⟨S65536x512, .f32⟩ : BufTy).Contents (Elt F) → (⟨S65536x512, .f32⟩ : BufTy).Contents (Elt F) → (⟨S65536x512, .f32⟩ : BufTy).Contents (Elt F)) (fin m c main_v24) (fin m c main_call2_v2) :=
  final_binary single _ 120 rfl rfl (after_take_of_lt single _ (i := 115) rfl (by decide)) (after_take_of_lt single _ (i := 119) rfl (by decide))

theorem fin_main_call2_v4 : fin m c main_call2_v4 = ((cmpf .une) : (⟨S65536x512, .f32⟩ : BufTy).Contents (Elt F) → (⟨S65536x512, .f32⟩ : BufTy).Contents (Elt F) → (⟨S65536x512, .i1⟩ : BufTy).Contents (Elt F)) (fin m c main_call2_v3) (fin m c main_call2_v3) :=
  final_binary single _ 121 rfl rfl (after_take_of_lt single _ (i := 120) rfl (by decide)) (after_take_of_lt single _ (i := 120) rfl (by decide))

theorem fin_main_call2_v5 : fin m c main_call2_v5 = ((broadcastInDim S65536x512 ![] bcast_S_S65536x512) : (⟨S_, .f32⟩ : BufTy).Contents (Elt F) → (⟨S65536x512, .f32⟩ : BufTy).Contents (Elt F)) (fin m c main_call2_cst) :=
  final_unary single _ 122 rfl rfl (after_take_of_lt single _ (i := 116) rfl (by decide))

theorem fin_main_call2_v6 : fin m c main_call2_v6 = (addf : (⟨S65536x512, .f32⟩ : BufTy).Contents (Elt F) → (⟨S65536x512, .f32⟩ : BufTy).Contents (Elt F) → (⟨S65536x512, .f32⟩ : BufTy).Contents (Elt F)) (fin m c main_v24) (fin m c main_call2_v5) :=
  final_binary single _ 123 rfl rfl (after_take_of_lt single _ (i := 115) rfl (by decide)) (after_take_of_lt single _ (i := 122) rfl (by decide))

theorem fin_main_call2_v7 : fin m c main_call2_v7 = (Host.absf : (⟨S65536x512, .f32⟩ : BufTy).Contents (Elt F) → (⟨S65536x512, .f32⟩ : BufTy).Contents (Elt F)) (fin m c main_call2_v3) :=
  final_unary single _ 124 rfl rfl (after_take_of_lt single _ (i := 120) rfl (by decide))

theorem fin_main_call2_v8 : fin m c main_call2_v8 = (Host.negf : (⟨S65536x512, .f32⟩ : BufTy).Contents (Elt F) → (⟨S65536x512, .f32⟩ : BufTy).Contents (Elt F)) (fin m c main_call2_v7) :=
  final_unary single _ 125 rfl rfl (after_take_of_lt single _ (i := 124) rfl (by decide))

theorem fin_main_call2_v9 : fin m c main_call2_v9 = (Host.exp : (⟨S65536x512, .f32⟩ : BufTy).Contents (Elt F) → (⟨S65536x512, .f32⟩ : BufTy).Contents (Elt F)) (fin m c main_call2_v8) :=
  final_unary single _ 126 rfl rfl (after_take_of_lt single _ (i := 125) rfl (by decide))

theorem fin_main_call2_v10 : fin m c main_call2_v10 = (Host.log1p : (⟨S65536x512, .f32⟩ : BufTy).Contents (Elt F) → (⟨S65536x512, .f32⟩ : BufTy).Contents (Elt F)) (fin m c main_call2_v9) :=
  final_unary single _ 127 rfl rfl (after_take_of_lt single _ (i := 126) rfl (by decide))

theorem fin_main_call2_v11 : fin m c main_call2_v11 = (addf : (⟨S65536x512, .f32⟩ : BufTy).Contents (Elt F) → (⟨S65536x512, .f32⟩ : BufTy).Contents (Elt F) → (⟨S65536x512, .f32⟩ : BufTy).Contents (Elt F)) (fin m c main_call2_v1) (fin m c main_call2_v10) :=
  final_binary single _ 128 rfl rfl (after_take_of_lt single _ (i := 118) rfl (by decide)) (after_take_of_lt single _ (i := 127) rfl (by decide))

theorem fin_main_v25_0 : fin m c main_v25_0 = (select : (⟨S65536x512, .i1⟩ : BufTy).Contents (Elt F) → (⟨S65536x512, .f32⟩ : BufTy).Contents (Elt F) → (⟨S65536x512, .f32⟩ : BufTy).Contents (Elt F) → (⟨S65536x512, .f32⟩ : BufTy).Contents (Elt F)) (fin m c main_call2_v4) (fin m c main_call2_v6) (fin m c main_call2_v11) :=
  final_ternary single _ 129 rfl rfl (after_take_of_lt single _ (i := 121) rfl (by decide)) (after_take_of_lt single _ (i := 123) rfl (by decide)) (after_take_of_lt single _ (i := 128) rfl (by decide))

theorem fin_main_call2_cst_0 : fin m c main_call2_cst_0 = (constant S_ .f32 0x7F800000#32 : (⟨S_, .f32⟩ : BufTy).Contents (Elt F)) :=
  final_nullary single _ 130 rfl rfl

theorem fin_main_call2_v13 : fin m c main_call2_v13 = ((broadcastInDim S65536x512 ![] bcast_S_S65536x512) : (⟨S_, .f32⟩ : BufTy).Contents (Elt F) → (⟨S65536x512, .f32⟩ : BufTy).Contents (Elt F)) (fin m c main_call2_cst_0) :=
  final_unary single _ 131 rfl rfl (after_take_of_lt single _ (i := 130) rfl (by decide))

theorem fin_main_call2_v14 : fin m c main_call2_v14 = ((cmpf .oeq) : (⟨S65536x512, .f32⟩ : BufTy).Contents (Elt F) → (⟨S65536x512, .f32⟩ : BufTy).Contents (Elt F) → (⟨S65536x512, .i1⟩ : BufTy).Contents (Elt F)) (fin m c main_v24) (fin m c main_call2_v13) :=
  final_binary single _ 132 rfl rfl (after_take_of_lt single _ (i := 115) rfl (by decide)) (after_take_of_lt single _ (i := 131) rfl (by decide))

theorem fin_main_call2_cst_1 : fin m c main_call2_cst_1 = (constant S_ .f32 0x00000000#32 : (⟨S_, .f32⟩ : BufTy).Contents (Elt F)) :=
  final_nullary single _ 133 rfl rfl

theorem fin_main_call2_v15 : fin m c main_call2_v15 = ((broadcastInDim S65536x512 ![] bcast_S_S65536x512) : (⟨S_, .f32⟩ : BufTy).Contents (Elt F) → (⟨S65536x512, .f32⟩ : BufTy).Contents (Elt F)) (fin m c main_call2_cst_1) :=
  final_unary single _ 134 rfl rfl (after_take_of_lt single _ (i := 133) rfl (by decide))

theorem fin_main_call2_v16 : fin m c main_call2_v16 = (select : (⟨S65536x512, .i1⟩ : BufTy).Contents (Elt F) → (⟨S65536x512, .f32⟩ : BufTy).Contents (Elt F) → (⟨S65536x512, .f32⟩ : BufTy).Contents (Elt F) → (⟨S65536x512, .f32⟩ : BufTy).Contents (Elt F)) (fin m c main_call2_v14) (fin m c main_call2_v15) (fin m c main_v24) :=
  final_ternary single _ 135 rfl rfl (after_take_of_lt single _ (i := 132) rfl (by decide)) (after_take_of_lt single _ (i := 134) rfl (by decide)) (after_take_of_lt single _ (i := 115) rfl (by decide))

theorem fin_main_call2_cst_2 : fin m c main_call2_cst_2 = (constant S_ .f32 0x7F800000#32 : (⟨S_, .f32⟩ : BufTy).Contents (Elt F)) :=
  final_nullary single _ 136 rfl rfl

theorem fin_main_call2_v17 : fin m c main_call2_v17 = ((broadcastInDim S65536x512 ![] bcast_S_S65536x512) : (⟨S_, .f32⟩ : BufTy).Contents (Elt F) → (⟨S65536x512, .f32⟩ : BufTy).Contents (Elt F)) (fin m c main_call2_cst_2) :=
  final_unary single _ 137 rfl rfl (after_take_of_lt single _ (i := 136) rfl (by decide))

theorem fin_main_call2_v18 : fin m c main_call2_v18 = ((cmpf .oeq) : (⟨S65536x512, .f32⟩ : BufTy).Contents (Elt F) → (⟨S65536x512, .f32⟩ : BufTy).Contents (Elt F) → (⟨S65536x512, .i1⟩ : BufTy).Contents (Elt F)) (fin m c main_v25_0) (fin m c main_call2_v17) :=
  final_binary single _ 138 rfl rfl (after_take_of_lt single _ (i := 129) rfl (by decide)) (after_take_of_lt single _ (i := 137) rfl (by decide))

theorem fin_main_call2_cst_3 : fin m c main_call2_cst_3 = (constant S_ .f32 0x00000000#32 : (⟨S_, .f32⟩ : BufTy).Contents (Elt F)) :=
  final_nullary single _ 139 rfl rfl

theorem fin_main_call2_v19 : fin m c main_call2_v19 = ((broadcastInDim S65536x512 ![] bcast_S_S65536x512) : (⟨S_, .f32⟩ : BufTy).Contents (Elt F) → (⟨S65536x512, .f32⟩ : BufTy).Contents (Elt F)) (fin m c main_call2_cst_3) :=
  final_unary single _ 140 rfl rfl (after_take_of_lt single _ (i := 139) rfl (by decide))

theorem fin_main_call2_v20 : fin m c main_call2_v20 = (select : (⟨S65536x512, .i1⟩ : BufTy).Contents (Elt F) → (⟨S65536x512, .f32⟩ : BufTy).Contents (Elt F) → (⟨S65536x512, .f32⟩ : BufTy).Contents (Elt F) → (⟨S65536x512, .f32⟩ : BufTy).Contents (Elt F)) (fin m c main_call2_v18) (fin m c main_call2_v19) (fin m c main_v25_0) :=
  final_ternary single _ 141 rfl rfl (after_take_of_lt single _ (i := 138) rfl (by decide)) (after_take_of_lt single _ (i := 140) rfl (by decide)) (after_take_of_lt single _ (i := 129) rfl (by decide))

theorem fin_main_call2_v21 : fin m c main_call2_v21 = (subf : (⟨S65536x512, .f32⟩ : BufTy).Contents (Elt F) → (⟨S65536x512, .f32⟩ : BufTy).Contents (Elt F) → (⟨S65536x512, .f32⟩ : BufTy).Contents (Elt F)) (fin m c main_call2_v16) (fin m c main_call2_v20) :=
  final_binary single _ 142 rfl rfl (after_take_of_lt single _ (i := 135) rfl (by decide)) (after_take_of_lt single _ (i := 141) rfl (by decide))

theorem fin_main_v25_1 : fin m c main_v25_1 = (Host.exp : (⟨S65536x512, .f32⟩ : BufTy).Contents (Elt F) → (⟨S65536x512, .f32⟩ : BufTy).Contents (Elt F)) (fin m c main_call2_v21) :=
  final_unary single _ 143 rfl rfl (after_take_of_lt single _ (i := 142) rfl (by decide))

theorem fin_main_v26 : fin m c main_v26 = transpose S512x512 [1, 0] (fin m c main_arg5) transposes_S512x512_S512x512_1_0 :=
  final_unary single _ 162 rfl rfl (after_take_of_not_assigned single _ 162 arg5_nw)

theorem fin_main_v27 : fin m c main_v27 = Host.dotGeneral dot_S65536x512_S512x512_S65536x512_1_0_0_1_n_n none (fin m c main_v25_0) (fin m c main_v26) :=
  final_binary single _ 163 rfl rfl (after_take_of_lt single _ (i := 129) rfl (by decide)) (after_take_of_lt single _ (i := 162) rfl (by decide))

theorem fin_main_v28 : fin m c main_v28 = transpose S64x512 [1, 0] (fin m c main_arg11) transposes_S512x64_S64x512_1_0 :=
  final_unary single _ 164 rfl rfl (after_take_of_not_assigned single _ 164 arg11_nw)

theorem fin_main_v29 : fin m c main_v29 = Host.dotGeneral dot_S65536x64_S64x512_S65536x512_1_0_0_1_n_n none (fin m c main_v1) (fin m c main_v28) :=
  final_binary single _ 165 rfl rfl (after_take_of_lt single _ (i := 2) rfl (by decide)) (after_take_of_lt single _ (i := 164) rfl (by decide))

theorem fin_main_v30 : fin m c main_v30 = (addf : (⟨S65536x512, .f32⟩ : BufTy).Contents (Elt F) → (⟨S65536x512, .f32⟩ : BufTy).Contents (Elt F) → (⟨S65536x512, .f32⟩ : BufTy).Contents (Elt F)) (fin m c main_v27) (fin m c main_v29) :=
  final_binary single _ 166 rfl rfl (after_take_of_lt single _ (i := 163) rfl (by decide)) (after_take_of_lt single _ (i := 165) rfl (by decide))

theorem fin_main_v31 : fin m c main_v31 = (broadcastInDim S1x512 ![1] bcast_S512_S1x512_1 : (⟨S512, .f32⟩ : BufTy).Contents (Elt F) → (⟨S1x512, .f32⟩ : BufTy).Contents (Elt F)) (fin m c main_arg12) :=
  final_unary single _ 167 rfl rfl (after_take_of_not_assigned single _ 167 arg12_nw)

theorem fin_main_v32 : fin m c main_v32 = (broadcastInDim S65536x512 ![0, 1] bcast_S1x512_S65536x512_0_1 : (⟨S1x512, .f32⟩ : BufTy).Contents (Elt F) → (⟨S65536x512, .f32⟩ : BufTy).Contents (Elt F)) (fin m c main_v31) :=
  final_unary single _ 168 rfl rfl (after_take_of_lt single _ (i := 167) rfl (by decide))

theorem fin_main_v33 : fin m c main_v33 = (addf : (⟨S65536x512, .f32⟩ : BufTy).Contents (Elt F) → (⟨S65536x512, .f32⟩ : BufTy).Contents (Elt F) → (⟨S65536x512, .f32⟩ : BufTy).Contents (Elt F)) (fin m c main_v30) (fin m c main_v32) :=
  final_binary single _ 169 rfl rfl (after_take_of_lt single _ (i := 166) rfl (by decide)) (after_take_of_lt single _ (i := 168) rfl (by decide))

theorem fin_main_call3_cst : fin m c main_call3_cst = (constant S_ .f32 0x00000000#32 : (⟨S_, .f32⟩ : BufTy).Contents (Elt F)) :=
  final_nullary single _ 170 rfl rfl

theorem fin_main_call3_v0 : fin m c main_call3_v0 = ((broadcastInDim S65536x512 ![] bcast_S_S65536x512) : (⟨S_, .f32⟩ : BufTy).Contents (Elt F) → (⟨S65536x512, .f32⟩ : BufTy).Contents (Elt F)) (fin m c main_call3_cst) :=
  final_unary single _ 171 rfl rfl (after_take_of_lt single _ (i := 170) rfl (by decide))

theorem fin_main_call3_v1 : fin m c main_call3_v1 = (maximumf : (⟨S65536x512, .f32⟩ : BufTy).Contents (Elt F) → (⟨S65536x512, .f32⟩ : BufTy).Contents (Elt F) → (⟨S65536x512, .f32⟩ : BufTy).Contents (Elt F)) (fin m c main_v33) (fin m c main_call3_v0) :=
  final_binary single _ 172 rfl rfl (after_take_of_lt single _ (i := 169) rfl (by decide)) (after_take_of_lt single _ (i := 171) rfl (by decide))

theorem fin_main_call3_v2 : fin m c main_call3_v2 = ((broadcastInDim S65536x512 ![] bcast_S_S65536x512) : (⟨S_, .f32⟩ : BufTy).Contents (Elt F) → (⟨S65536x512, .f32⟩ : BufTy).Contents (Elt F)) (fin m c main_call3_cst) :=
  final_unary single _ 173 rfl rfl (after_take_of_lt single _ (i := 170) rfl (by decide))

theorem fin_main_call3_v3 : fin m c main_call3_v3 = (subf : (⟨S65536x512, .f32⟩ : BufTy).Contents (Elt F) → (⟨S65536x512, .f32⟩ : BufTy).Contents (Elt F) → (⟨S65536x512, .f32⟩ : BufTy).Contents (Elt F)) (fin m c main_v33) (fin m c main_call3_v2) :=
  final_binary single _ 174 rfl rfl (after_take_of_lt single _ (i := 169) rfl (by decide)) (after_take_of_lt single _ (i := 173) rfl (by decide))

theorem fin_main_call3_v4 : fin m c main_call3_v4 = ((cmpf .une) : (⟨S65536x512, .f32⟩ : BufTy).Contents (Elt F) → (⟨S65536x512, .f32⟩ : BufTy).Contents (Elt F) → (⟨S65536x512, .i1⟩ : BufTy).Contents (Elt F)) (fin m c main_call3_v3) (fin m c main_call3_v3) :=
  final_binary single _ 175 rfl rfl (after_take_of_lt single _ (i := 174) rfl (by decide)) (after_take_of_lt single _ (i := 174) rfl (by decide))

theorem fin_main_call3_v5 : fin m c main_call3_v5 = ((broadcastInDim S65536x512 ![] bcast_S_S65536x512) : (⟨S_, .f32⟩ : BufTy).Contents (Elt F) → (⟨S65536x512, .f32⟩ : BufTy).Contents (Elt F)) (fin m c main_call3_cst) :=
  final_unary single _ 176 rfl rfl (after_take_of_lt single _ (i := 170) rfl (by decide))

theorem fin_main_call3_v6 : fin m c main_call3_v6 = (addf : (⟨S65536x512, .f32⟩ : BufTy).Contents (Elt F) → (⟨S65536x512, .f32⟩ : BufTy).Contents (Elt F) → (⟨S65536x512, .f32⟩ : BufTy).Contents (Elt F)) (fin m c main_v33) (fin m c main_call3_v5) :=
  final_binary single _ 177 rfl rfl (after_take_of_lt single _ (i := 169) rfl (by decide)) (after_take_of_lt single _ (i := 176) rfl (by decide))

theorem fin_main_call3_v7 : fin m c main_call3_v7 = (Host.absf : (⟨S65536x512, .f32⟩ : BufTy).Contents (Elt F) → (⟨S65536x512, .f32⟩ : BufTy).Contents (Elt F)) (fin m c main_call3_v3) :=
  final_unary single _ 178 rfl rfl (after_take_of_lt single _ (i := 174) rfl (by decide))

theorem fin_main_call3_v8 : fin m c main_call3_v8 = (Host.negf : (⟨S65536x512, .f32⟩ : BufTy).Contents (Elt F) → (⟨S65536x512, .f32⟩ : BufTy).Contents (Elt F)) (fin m c main_call3_v7) :=
  final_unary single _ 179 rfl rfl (after_take_of_lt single _ (i := 178) rfl (by decide))

theorem fin_main_call3_v9 : fin m c main_call3_v9 = (Host.exp : (⟨S65536x512, .f32⟩ : BufTy).Contents (Elt F) → (⟨S65536x512, .f32⟩ : BufTy).Contents (Elt F)) (fin m c main_call3_v8) :=
  final_unary single _ 180 rfl rfl (after_take_of_lt single _ (i := 179) rfl (by decide))

theorem fin_main_call3_v10 : fin m c main_call3_v10 = (Host.log1p : (⟨S65536x512, .f32⟩ : BufTy).Contents (Elt F) → (⟨S65536x512, .f32⟩ : BufTy).Contents (Elt F)) (fin m c main_call3_v9) :=
  final_unary single _ 181 rfl rfl (after_take_of_lt single _ (i := 180) rfl (by decide))

theorem fin_main_call3_v11 : fin m c main_call3_v11 = (addf : (⟨S65536x512, .f32⟩ : BufTy).Contents (Elt F) → (⟨S65536x512, .f32⟩ : BufTy).Contents (Elt F) → (⟨S65536x512, .f32⟩ : BufTy).Contents (Elt F)) (fin m c main_call3_v1) (fin m c main_call3_v10) :=
  final_binary single _ 182 rfl rfl (after_take_of_lt single _ (i := 172) rfl (by decide)) (after_take_of_lt single _ (i := 181) rfl (by decide))

theorem fin_main_v34_0 : fin m c main_v34_0 = (select : (⟨S65536x512, .i1⟩ : BufTy).Contents (Elt F) → (⟨S65536x512, .f32⟩ : BufTy).Contents (Elt F) → (⟨S65536x512, .f32⟩ : BufTy).Contents (Elt F) → (⟨S65536x512, .f32⟩ : BufTy).Contents (Elt F)) (fin m c main_call3_v4) (fin m c main_call3_v6) (fin m c main_call3_v11) :=
  final_ternary single _ 183 rfl rfl (after_take_of_lt single _ (i := 175) rfl (by decide)) (after_take_of_lt single _ (i := 177) rfl (by decide)) (after_take_of_lt single _ (i := 182) rfl (by decide))

theorem fin_main_call3_cst_0 : fin m c main_call3_cst_0 = (constant S_ .f32 0x7F800000#32 : (⟨S_, .f32⟩ : BufTy).Contents (Elt F)) :=
  final_nullary single _ 184 rfl rfl

theorem fin_main_call3_v13 : fin m c main_call3_v13 = ((broadcastInDim S65536x512 ![] bcast_S_S65536x512) : (⟨S_, .f32⟩ : BufTy).Contents (Elt F) → (⟨S65536x512, .f32⟩ : BufTy).Contents (Elt F)) (fin m c main_call3_cst_0) :=
  final_unary single _ 185 rfl rfl (after_take_of_lt single _ (i := 184) rfl (by decide))

theorem fin_main_call3_v14 : fin m c main_call3_v14 = ((cmpf .oeq) : (⟨S65536x512, .f32⟩ : BufTy).Contents (Elt F) → (⟨S65536x512, .f32⟩ : BufTy).Contents (Elt F) → (⟨S65536x512, .i1⟩ : BufTy).Contents (Elt F)) (fin m c main_v33) (fin m c main_call3_v13) :=
  final_binary single _ 186 rfl rfl (after_take_of_lt single _ (i := 169) rfl (by decide)) (after_take_of_lt single _ (i := 185) rfl (by decide))

theorem fin_main_call3_cst_1 : fin m c main_call3_cst_1 = (constant S_ .f32 0x00000000#32 : (⟨S_, .f32⟩ : BufTy).Contents (Elt F)) :=
  final_nullary single _ 187 rfl rfl

theorem fin_main_call3_v15 : fin m c main_call3_v15 = ((broadcastInDim S65536x512 ![] bcast_S_S65536x512) : (⟨S_, .f32⟩ : BufTy).Contents (Elt F) → (⟨S65536x512, .f32⟩ : BufTy).Contents (Elt F)) (fin m c main_call3_cst_1) :=
  final_unary single _ 188 rfl rfl (after_take_of_lt single _ (i := 187) rfl (by decide))

theorem fin_main_call3_v16 : fin m c main_call3_v16 = (select : (⟨S65536x512, .i1⟩ : BufTy).Contents (Elt F) → (⟨S65536x512, .f32⟩ : BufTy).Contents (Elt F) → (⟨S65536x512, .f32⟩ : BufTy).Contents (Elt F) → (⟨S65536x512, .f32⟩ : BufTy).Contents (Elt F)) (fin m c main_call3_v14) (fin m c main_call3_v15) (fin m c main_v33) :=
  final_ternary single _ 189 rfl rfl (after_take_of_lt single _ (i := 186) rfl (by decide)) (after_take_of_lt single _ (i := 188) rfl (by decide)) (after_take_of_lt single _ (i := 169) rfl (by decide))

theorem fin_main_call3_cst_2 : fin m c main_call3_cst_2 = (constant S_ .f32 0x7F800000#32 : (⟨S_, .f32⟩ : BufTy).Contents (Elt F)) :=
  final_nullary single _ 190 rfl rfl

theorem fin_main_call3_v17 : fin m c main_call3_v17 = ((broadcastInDim S65536x512 ![] bcast_S_S65536x512) : (⟨S_, .f32⟩ : BufTy).Contents (Elt F) → (⟨S65536x512, .f32⟩ : BufTy).Contents (Elt F)) (fin m c main_call3_cst_2) :=
  final_unary single _ 191 rfl rfl (after_take_of_lt single _ (i := 190) rfl (by decide))

theorem fin_main_call3_v18 : fin m c main_call3_v18 = ((cmpf .oeq) : (⟨S65536x512, .f32⟩ : BufTy).Contents (Elt F) → (⟨S65536x512, .f32⟩ : BufTy).Contents (Elt F) → (⟨S65536x512, .i1⟩ : BufTy).Contents (Elt F)) (fin m c main_v34_0) (fin m c main_call3_v17) :=
  final_binary single _ 192 rfl rfl (after_take_of_lt single _ (i := 183) rfl (by decide)) (after_take_of_lt single _ (i := 191) rfl (by decide))

theorem fin_main_call3_cst_3 : fin m c main_call3_cst_3 = (constant S_ .f32 0x00000000#32 : (⟨S_, .f32⟩ : BufTy).Contents (Elt F)) :=
  final_nullary single _ 193 rfl rfl

theorem fin_main_call3_v19 : fin m c main_call3_v19 = ((broadcastInDim S65536x512 ![] bcast_S_S65536x512) : (⟨S_, .f32⟩ : BufTy).Contents (Elt F) → (⟨S65536x512, .f32⟩ : BufTy).Contents (Elt F)) (fin m c main_call3_cst_3) :=
  final_unary single _ 194 rfl rfl (after_take_of_lt single _ (i := 193) rfl (by decide))

theorem fin_main_call3_v20 : fin m c main_call3_v20 = (select : (⟨S65536x512, .i1⟩ : BufTy).Contents (Elt F) → (⟨S65536x512, .f32⟩ : BufTy).Contents (Elt F) → (⟨S65536x512, .f32⟩ : BufTy).Contents (Elt F) → (⟨S65536x512, .f32⟩ : BufTy).Contents (Elt F)) (fin m c main_call3_v18) (fin m c main_call3_v19) (fin m c main_v34_0) :=
  final_ternary single _ 195 rfl rfl (after_take_of_lt single _ (i := 192) rfl (by decide)) (after_take_of_lt single _ (i := 194) rfl (by decide)) (after_take_of_lt single _ (i := 183) rfl (by decide))

theorem fin_main_call3_v21 : fin m c main_call3_v21 = (subf : (⟨S65536x512, .f32⟩ : BufTy).Contents (Elt F) → (⟨S65536x512, .f32⟩ : BufTy).Contents (Elt F) → (⟨S65536x512, .f32⟩ : BufTy).Contents (Elt F)) (fin m c main_call3_v16) (fin m c main_call3_v20) :=
  final_binary single _ 196 rfl rfl (after_take_of_lt single _ (i := 189) rfl (by decide)) (after_take_of_lt single _ (i := 195) rfl (by decide))

theorem fin_main_v34_1 : fin m c main_v34_1 = (Host.exp : (⟨S65536x512, .f32⟩ : BufTy).Contents (Elt F) → (⟨S65536x512, .f32⟩ : BufTy).Contents (Elt F)) (fin m c main_call3_v21) :=
  final_unary single _ 197 rfl rfl (after_take_of_lt single _ (i := 196) rfl (by decide))

theorem fin_main_v35 : fin m c main_v35 = transpose S512x1 [1, 0] (fin m c main_arg6) transposes_S1x512_S512x1_1_0 :=
  final_unary single _ 216 rfl rfl (after_take_of_not_assigned single _ 216 arg6_nw)

theorem fin_main_v37 : fin m c main_v37 = transpose S64x1 [1, 0] (fin m c main_arg13) transposes_S1x64_S64x1_1_0 :=
  final_unary single _ 218 rfl rfl (after_take_of_not_assigned single _ 218 arg13_nw)

theorem fin_main_cst_1 : fin m c main_cst_1 = (constant S_ .f32 0x3F800000#32) :=
  final_nullary single _ 223 rfl rfl

theorem fin_main_v41 : fin m c main_v41 = (broadcastInDim S65536x1 ![] bcast_S_S65536x1 : (⟨S_, .f32⟩ : BufTy).Contents (Elt F) → (⟨S65536x1, .f32⟩ : BufTy).Contents (Elt F)) (fin m c main_cst_1) :=
  final_unary single _ 224 rfl rfl (after_take_of_lt single _ (i := 223) rfl (by decide))

theorem fin_main_v42 : fin m c main_v42 = Host.dotGeneral dot_S65536x1_S64x1_S65536x64_1_1_0_0_n_n none (fin m c main_v41) (fin m c main_v37) :=
  final_binary single _ 225 rfl rfl (after_take_of_lt single _ (i := 224) rfl (by decide)) (after_take_of_lt single _ (i := 218) rfl (by decide))

theorem fin_main_v43 : fin m c main_v43 = Host.dotGeneral dot_S65536x1_S512x1_S65536x512_1_1_0_0_n_n none (fin m c main_v41) (fin m c main_v35) :=
  final_binary single _ 226 rfl rfl (after_take_of_lt single _ (i := 224) rfl (by decide)) (after_take_of_lt single _ (i := 216) rfl (by decide))

theorem fin_main_v44 : fin m c main_v44 = (mulf : (⟨S65536x512, .f32⟩ : BufTy).Contents (Elt F) → (⟨S65536x512, .f32⟩ : BufTy).Contents (Elt F) → (⟨S65536x512, .f32⟩ : BufTy).Contents (Elt F)) (fin m c main_v43) (fin m c main_v34_1) :=
  final_binary single _ 227 rfl rfl (after_take_of_lt single _ (i := 226) rfl (by decide)) (after_take_of_lt single _ (i := 197) rfl (by decide))

theorem fin_main_v45 : fin m c main_v45 = Host.dotGeneral dot_S65536x512_S64x512_S65536x64_1_1_0_0_n_n none (fin m c main_v44) (fin m c main_v28) :=
  final_binary single _ 228 rfl rfl (after_take_of_lt single _ (i := 227) rfl (by decide)) (after_take_of_lt single _ (i := 164) rfl (by decide))

theorem fin_main_v46 : fin m c main_v46 = (addf : (⟨S65536x64, .f32⟩ : BufTy).Contents (Elt F) → (⟨S65536x64, .f32⟩ : BufTy).Contents (Elt F) → (⟨S65536x64, .f32⟩ : BufTy).Contents (Elt F)) (fin m c main_v42) (fin m c main_v45) :=
  final_binary single _ 229 rfl rfl (after_take_of_lt single _ (i := 225) rfl (by decide)) (after_take_of_lt single _ (i := 228) rfl (by decide))

theorem fin_main_v47 : fin m c main_v47 = Host.dotGeneral dot_S65536x512_S512x512_S65536x512_1_1_0_0_n_n none (fin m c main_v44) (fin m c main_v26) :=
  final_binary single _ 230 rfl rfl (after_take_of_lt single _ (i := 227) rfl (by decide)) (after_take_of_lt single _ (i := 162) rfl (by decide))

theorem fin_main_v48 : fin m c main_v48 = (mulf : (⟨S65536x512, .f32⟩ : BufTy).Contents (Elt F) → (⟨S65536x512, .f32⟩ : BufTy).Contents (Elt F) → (⟨S65536x512, .f32⟩ : BufTy).Contents (Elt F)) (fin m c main_v47) (fin m c main_v25_1) :=
  final_binary single _ 231 rfl rfl (after_take_of_lt single _ (i := 230) rfl (by decide)) (after_take_of_lt single _ (i := 143) rfl (by decide))

theorem fin_main_v49 : fin m c main_v49 = Host.dotGeneral dot_S65536x512_S64x512_S65536x64_1_1_0_0_n_n none (fin m c main_v48) (fin m c main_v19) :=
  final_binary single _ 232 rfl rfl (after_take_of_lt single _ (i := 231) rfl (by decide)) (after_take_of_lt single _ (i := 110) rfl (by decide))

theorem fin_main_v50 : fin m c main_v50 = (addf : (⟨S65536x64, .f32⟩ : BufTy).Contents (Elt F) → (⟨S65536x64, .f32⟩ : BufTy).Contents (Elt F) → (⟨S65536x64, .f32⟩ : BufTy).Contents (Elt F)) (fin m c main_v46) (fin m c main_v49) :=
  final_binary single _ 233 rfl rfl (after_take_of_lt single _ (i := 229) rfl (by decide)) (after_take_of_lt single _ (i := 232) rfl (by decide))

theorem fin_main_v51 : fin m c main_v51 = Host.dotGeneral dot_S65536x512_S512x512_S65536x512_1_1_0_0_n_n none (fin m c main_v48) (fin m c main_v17) :=
  final_binary single _ 234 rfl rfl (after_take_of_lt single _ (i := 231) rfl (by decide)) (after_take_of_lt single _ (i := 108) rfl (by decide))

theorem fin_main_v52 : fin m c main_v52 = (mulf : (⟨S65536x512, .f32⟩ : BufTy).Contents (Elt F) → (⟨S65536x512, .f32⟩ : BufTy).Contents (Elt F) → (⟨S65536x512, .f32⟩ : BufTy).Contents (Elt F)) (fin m c main_v51) (fin m c main_v16_1) :=
  final_binary single _ 235 rfl rfl (after_take_of_lt single _ (i := 234) rfl (by decide)) (after_take_of_lt single _ (i := 89) rfl (by decide))

theorem fin_main_v53 : fin m c main_v53 = Host.dotGeneral dot_S65536x512_S64x512_S65536x64_1_1_0_0_n_n none (fin m c main_v52) (fin m c main_v10) :=
  final_binary single _ 236 rfl rfl (after_take_of_lt single _ (i := 235) rfl (by decide)) (after_take_of_lt single _ (i := 56) rfl (by decide))

theorem fin_main_v54 : fin m c main_v54 = (addf : (⟨S65536x64, .f32⟩ : BufTy).Contents (Elt F) → (⟨S65536x64, .f32⟩ : BufTy).Contents (Elt F) → (⟨S65536x64, .f32⟩ : BufTy).Contents (Elt F)) (fin m c main_v50) (fin m c main_v53) :=
  final_binary single _ 237 rfl rfl (after_take_of_lt single _ (i := 233) rfl (by decide)) (after_take_of_lt single _ (i := 236) rfl (by decide))

theorem fin_main_v55 : fin m c main_v55 = Host.dotGeneral dot_S65536x512_S512x512_S65536x512_1_1_0_0_n_n none (fin m c main_v52) (fin m c main_v8) :=
  final_binary single _ 238 rfl rfl (after_take_of_lt single _ (i := 235) rfl (by decide)) (after_take_of_lt single _ (i := 54) rfl (by decide))

theorem fin_main_v56 : fin m c main_v56 = (mulf : (⟨S65536x512, .f32⟩ : BufTy).Contents (Elt F) → (⟨S65536x512, .f32⟩ : BufTy).Contents (Elt F) → (⟨S65536x512, .f32⟩ : BufTy).Contents (Elt F)) (fin m c main_v55) (fin m c main_v7_1) :=
  final_binary single _ 239 rfl rfl (after_take_of_lt single _ (i := 238) rfl (by decide)) (after_take_of_lt single _ (i := 35) rfl (by decide))

theorem fin_main_v57 : fin m c main_v57 = Host.dotGeneral dot_S65536x512_S64x512_S65536x64_1_1_0_0_n_n none (fin m c main_v56) (fin m c main_v2) :=
  final_binary single _ 240 rfl rfl (after_take_of_lt single _ (i := 239) rfl (by decide)) (after_take_of_lt single _ (i := 3) rfl (by decide))

theorem fin_main_v58 : fin m c main_v58 = (addf : (⟨S65536x64, .f32⟩ : BufTy).Contents (Elt F) → (⟨S65536x64, .f32⟩ : BufTy).Contents (Elt F) → (⟨S65536x64, .f32⟩ : BufTy).Contents (Elt F)) (fin m c main_v54) (fin m c main_v57) :=
  final_binary single _ 241 rfl rfl (after_take_of_lt single _ (i := 237) rfl (by decide)) (after_take_of_lt single _ (i := 240) rfl (by decide))

end Cert.Icnn.RefLine

end
-- ==== Proof.LibDotNT.lean ====
/-
  A matrix times the transpose of another, read at an entry, on the extended reals.

  For the dimension numbers of an M×K by N×K product (DotDims.transposedRhs M K N: contract the second axis of BOTH
  operands, no batch axis), the sum over the contraction index of the operands' products at output entry (p, j) is
  ∑ k, l (p, k) * r (j, k): the contraction index is its one coordinate k, the left operand is read at row p,
  column k, the right at row j, column k. From it: a vector-unit matrix product into the zero accumulator
  (matmul_zero_apply) and the host's dot_general (dotGeneral_apply) at (p, j). A printed program's own record of these
  dimension numbers is DotDims.transposedRhs of its literal sizes by rfl.
-/
import Idealize.ShloMosaic.Lib.ValueIdx
import Idealize.ShloMosaic.PureOps.Ideal.Laws

noncomputable section

open scoped BigOperators

namespace Cert.Lib.DotNT

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch by simp [DotDims.transposedRhs]),
    dif_pos (show (0 : Fin (⟨2, ![M, K]⟩ : Shape).rank) ∈ (DotDims.transposedRhs M K N).lhsNonContracting by simp [DotDims.transposedRhs])]
  rfl

/-- Right operand, axis 0: the output's column. -/
theorem rhs0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch by simp [DotDims.transposedRhs]),
    dif_pos (show (0 : Fin (⟨2, ![N, K]⟩ : Shape).rank) ∈ (DotDims.transposedRhs M K N).rhsNonContracting by simp [DotDims.transposedRhs])]
  rfl

/-- The left operand's index at output (p, j) and contraction coordinate k is (p, k). -/
theorem lhsIdx_nt (p : Fin M) (j : Fin N) (k : Fin K) :
    (DotDims.transposedRhs M K N).lhsIdx (ix2 p j) ((contrEquiv1 (DotDims.transposedRhs M K N) K rfl rfl).symm k) = ix2 p k := by
  have hk := contrEquiv1_symm_val (DotDims.transposedRhs M K N) K rfl rfl k
  exact funext fun a => Fin.ext (by
    match a with
    | ⟨0, _⟩ => exact lhs0 _ _
    | ⟨1, _⟩ => exact ((DotDims.transposedRhs M K N).lhsIdx_val_of_single rfl _ _).trans hk)

/-- The right operand's index at output (p, j) and contraction coordinate k is (j, k). -/
theorem rhsIdx_nt (p : Fin M) (j : Fin N) (k : Fin K) :
    (DotDims.transposedRhs M K N).rhsIdx (ix2 p j) ((contrEquiv1 (DotDims.transposedRhs M K N) K rfl rfl).symm k) = ix2 j k := by
  have hk := contrEquiv1_symm_val (DotDims.transposedRhs M K N) K rfl rfl k
  exact funext fun a => Fin.ext (by
    match a with
    | ⟨0, _⟩ => exact rhs0 _ _
    | ⟨1, _⟩ => exact ((DotDims.transposedRhs M K N).rhsIdx_val_of_single rfl _ _).trans hk)

/-- The contraction's sum at output (p, j) is the sum over the contracted coordinate. -/
theorem sum_nt (l : (⟨2, ![M, K]⟩ : Shape).Idx → EReal) (r : (⟨2, ![N, K]⟩ : Shape).Idx → EReal) (p : Fin M) (j : Fin N) :
    ∑ q : (DotDims.transposedRhs M K N).contr.Idx,
        l ((DotDims.transposedRhs M K N).lhsIdx (ix2 p j) q) * r ((DotDims.transposedRhs M K N).rhsIdx (ix2 p j) q)
      = ∑ k : Fin K, l (ix2 p k) * r (ix2 j k) := by
  rw [← Equiv.sum_comp (contrEquiv1 (DotDims.transposedRhs M K N) K rfl rfl).symm]
  refine Finset.sum_congr rfl fun k _ => ?_
  rw [lhsIdx_nt, rhsIdx_nt]

/-- A matrix product on the vector unit into the zero accumulator, at entry (p, j). -/
theorem matmul_zero_apply (prec : Option ContractPrecision) (l : FVec Ideal ⟨2, ![M, K]⟩ φ₁) (r : FVec Ideal ⟨2, ![N, K]⟩ φ₂)
    (p : Fin M) (j : Fin N) :
    FloatOps.matmul (DotDims.transposedRhs M K N) prec l r (constant ⟨2, ![M, N]⟩ .f32 0x00000000#32) (ix2 p j)
      = ∑ k : Fin K, l (ix2 p k) * r (ix2 j k) := by
  rw [Ideal.matmul_constant_zero_apply]
  exact sum_nt l r p j

/-- The host's dot_general at entry (p, j), whatever its schedule. -/
theorem dotGeneral_apply (prec : Option ContractPrecision) (sched : HostSchedule) (l : FVec Ideal ⟨2, ![M, K]⟩ φ₁)
    (r : FVec Ideal ⟨2, ![N, K]⟩ φ₂) (p : Fin M) (j : Fin N) :
    FloatOps.dotGeneral (DotDims.transposedRhs M K N) prec sched l r (ix2 p j) = ∑ k : Fin K, l (ix2 p k) * r (ix2 j k) := by
  rw [Ideal.dotGeneral_apply]
  exact sum_nt l r p j

end Cert.Lib.DotNT

end
-- ==== Proof.RefLayers.lean ====
/-
  The reference's arrays, read entry by entry.

  On the host a weight matrix is transposed first and the product is then a plain one (forward), or the product
  contracts the second coordinate of both operands (backward); either way entry `(b, h)` is the sum over the contracted
  coordinate of the left operand's row `b` times the weight's row or column `h`. A bias vector is laid out as a row and
  repeated down the batch. The cotangent of the summed output is an all-ones column, so its products with the output
  weights are those weights repeated down the batch (`1 · w = w`, a sum over one term). The softplus calls give `sp` and
  the factor `dsp`, which is the logistic function. Hence row `b` of each pre-activation array is `pre0 … pre3`, row `b` of
  each cotangent array is `g3 … g0`, and row `b` of the result is the gradient — its four contributions added in the
  opposite order to `grad`'s — of sample `b`.
-/
import proofs.«125153_j75711683494298_1_alg».proof.Proof.RefValues
import proofs.«125153_j75711683494298_1_alg».proof.Proof.LibPlainDot
import proofs.«125153_j75711683494298_1_alg».proof.Proof.LibDotNT
import proofs.«125153_j75711683494298_1_alg».proof.Proof.Net
import Idealize.ShloMosaic.Lib.ValueIdx
import Idealize.ShloMosaic.Lib.ValueLayout
import Idealize.ShloMosaic.Lib.Pipeline.Value

noncomputable section

open scoped BigOperators

namespace Cert.Icnn.RefLayers

open Cert.ReferenceIdeal Cert.ReferenceIdeal.Gen Idealize.ShloMosaic Idealize.ShloMosaic.TcCoe Idealize.SL.Sem
open Idealize.ShloMosaic.StableHlo Idealize.ShloMosaic.ValueIdx Cert.Icnn.RefLine

/-! ## The host's products, biases and ones at an entry -/

/-- `l · Wᵀ` with `W : [512, 64]` transposed first. -/
theorem dotT_64 (l : FVec Ideal S65536x64 .f32) (W : FVec Ideal S512x64 .f32) (α : Fin 65536 → Fin 64 → EReal)
    (ω : Fin 512 → Fin 64 → EReal) (hl : ∀ b k, l (ix2 b k) = α b k) (hW : ∀ h k, W (ix2 h k) = ω h k)
    (b : Fin 65536) (h : Fin 512) :
    Host.dotGeneral dot_S65536x64_S64x512_S65536x512_1_0_0_1_n_n none l
        (transpose S64x512 [1, 0] W transposes_S512x64_S64x512_1_0) (ix2 b h) = ∑ k : Fin 64, α b k * ω h k := by
  refine (Cert.Lib.PlainDot.dotGeneral_apply (M := 65536) (K := 64) (N := 512) none .single l _ b h).trans ?_
  exact Finset.sum_congr rfl fun k _ => by rw [transpose_ix2_apply, hl, hW]

/-- `l · Wᵀ` with `W : [512, 512]` transposed first. -/
theorem dotT_512 (l : FVec Ideal S65536x512 .f32) (W : FVec Ideal S512x512 .f32) (α : Fin 65536 → Fin 512 → EReal)
    (ω : Fin 512 → Fin 512 → EReal) (hl : ∀ b j, l (ix2 b j) = α b j) (hW : ∀ h j, W (ix2 h j) = ω h j)
    (b : Fin 65536) (h : Fin 512) :
    Host.dotGeneral dot_S65536x512_S512x512_S65536x512_1_0_0_1_n_n none l
        (transpose S512x512 [1, 0] W transposes_S512x512_S512x512_1_0) (ix2 b h) = ∑ j : Fin 512, α b j * ω h j := by
  refine (Cert.Lib.PlainDot.dotGeneral_apply (M := 65536) (K := 512) (N := 512) none .single l _ b h).trans ?_
  exact Finset.sum_congr rfl fun j _ => by rw [transpose_ix2_apply, hl, hW]

/-- A cotangent pushed back through `W : [512, 64]`: the product with the transposed array, both second coordinates
    contracted, is `g · W`. -/
theorem dotB_64 (g : FVec Ideal S65536x512 .f32) (W : FVec Ideal S512x64 .f32) (γ : Fin 65536 → Fin 512 → EReal)
    (ω : Fin 512 → Fin 64 → EReal) (hg : ∀ b h, g (ix2 b h) = γ b h) (hW : ∀ h d, W (ix2 h d) = ω h d)
    (b : Fin 65536) (d : Fin 64) :
    Host.dotGeneral dot_S65536x512_S64x512_S65536x64_1_1_0_0_n_n none g
        (transpose S64x512 [1, 0] W transposes_S512x64_S64x512_1_0) (ix2 b d) = ∑ h : Fin 512, γ b h * ω h d := by
  refine (Cert.Lib.DotNT.dotGeneral_apply (M := 65536) (K := 512) (N := 64) none .single g _ b d).trans ?_
  exact Finset.sum_congr rfl fun h _ => by rw [transpose_ix2_apply, hg, hW]

/-- A cotangent pushed back through `W : [512, 512]`. -/
theorem dotB_512 (g : FVec Ideal S65536x512 .f32) (W : FVec Ideal S512x512 .f32) (γ : Fin 65536 → Fin 512 → EReal)
    (ω : Fin 512 → Fin 512 → EReal) (hg : ∀ b j, g (ix2 b j) = γ b j) (hW : ∀ j h, W (ix2 j h) = ω j h)
    (b : Fin 65536) (h : Fin 512) :
    Host.dotGeneral dot_S65536x512_S512x512_S65536x512_1_1_0_0_n_n none g
        (transpose S512x512 [1, 0] W transposes_S512x512_S512x512_1_0) (ix2 b h) = ∑ j : Fin 512, γ b j * ω j h := by
  refine (Cert.Lib.DotNT.dotGeneral_apply (M := 65536) (K := 512) (N := 512) none .single g _ b h).trans ?_
  exact Finset.sum_congr rfl fun j _ => by rw [transpose_ix2_apply, hg, hW]

/-- The word `0x3F800000` is the number one. -/
theorem ofBits_one : Ideal.ofBits .f32 0x3F800000#32 = 1 := by
  simp [Ideal.ofBits, Ideal.ieee, -EReal.coe_mul]; norm_num

/-- The all-ones column times a one-row matrix `[1, 64]` (transposed to a column): that row, repeated. -/
theorem ones_64 (W : FVec Ideal S1x64 .f32) (b : Fin 65536) (d : Fin 64) :
    Host.dotGeneral dot_S65536x1_S64x1_S65536x64_1_1_0_0_n_n none
        (broadcastInDim S65536x1 ![] bcast_S_S65536x1 (constant (F := Ideal) S_ .f32 0x3F800000#32))
        (transpose S64x1 [1, 0] W transposes_S1x64_S64x1_1_0) (ix2 b d) = W (ix2 (0 : Fin 1) d) := by
  refine (Cert.Lib.DotNT.dotGeneral_apply (M := 65536) (K := 1) (N := 64) none .single _ _ b d).trans ?_
  rw [Fin.sum_univ_one, transpose_ix2_apply]
  show Ideal.ofBits .f32 0x3F800000#32 * _ = _
  rw [ofBits_one, one_mul]

/-- The all-ones column times a one-row matrix `[1, 512]`. -/
theorem ones_512 (W : FVec Ideal S1x512 .f32) (b : Fin 65536) (h : Fin 512) :
    Host.dotGeneral dot_S65536x1_S512x1_S65536x512_1_1_0_0_n_n none
        (broadcastInDim S65536x1 ![] bcast_S_S65536x1 (constant (F := Ideal) S_ .f32 0x3F800000#32))
        (transpose S512x1 [1, 0] W transposes_S1x512_S512x1_1_0) (ix2 b h) = W (ix2 (0 : Fin 1) h) := by
  refine (Cert.Lib.DotNT.dotGeneral_apply (M := 65536) (K := 1) (N := 512) none .single _ _ b h).trans ?_
  rw [Fin.sum_univ_one, transpose_ix2_apply]
  show Ideal.ofBits .f32 0x3F800000#32 * _ = _
  rw [ofBits_one, one_mul]

/-- A bias vector laid out as a row and repeated down the batch. -/
theorem bias_at (v : FVec Ideal S512 .f32) (b : Fin 65536) (h : Fin 512) :
    broadcastInDim S65536x512 ![0, 1] bcast_S1x512_S65536x512_0_1 (broadcastInDim S1x512 ![1] bcast_S512_S1x512_1 v) (ix2 b h)
      = v (ix1 h) := by
  rw [broadcastInDim_apply ![0, 1] bcast_S1x512_S65536x512_0_1 _ (ix2 b h) (ix2 (0 : Fin 1) h)
      (fun a => match a with | ⟨0, _⟩ => rfl | ⟨1, _⟩ => rfl),
    broadcastInDim_apply ![1] bcast_S512_S1x512_1 v (ix2 (0 : Fin 1) h) (ix1 h) (fun a => match a with | ⟨0, _⟩ => rfl)]

/-! ## Softplus and its derivative factor as the host spells them -/

/-- The select that replaces `+∞` by `0`. -/
theorem sel_inf (a : EReal) :
    Scalar.select (Ideal.cmp .oeq a (Ideal.ofBits .f32 0x7F800000#32)) (Ideal.ofBits .f32 0x00000000#32) a
      = if a = ⊤ then 0 else a := by
  have hinf : Ideal.ofBits .f32 0x7F800000#32 = ⊤ := by simp [Ideal.ofBits, Ideal.ieee]
  rw [hinf, Ideal.ofBits_zero_f32]
  unfold Ideal.cmp Scalar.select
  by_cases h : a = ⊤ <;> simp [h]

/-- The primal softplus: the guard `y - 0 ≠ y - 0` never holds. -/
theorem spR_apply (Y : FVec Ideal S65536x512 .f32) (i : S65536x512.Idx) :
    select (cmpf .une (subf Y (broadcastInDim S65536x512 ![] bcast_S_S65536x512 (constant (F := Ideal) S_ .f32 0x00000000#32))) (subf Y (broadcastInDim S65536x512 ![] bcast_S_S65536x512 (constant (F := Ideal) S_ .f32 0x00000000#32)))) (addf Y (broadcastInDim S65536x512 ![] bcast_S_S65536x512 (constant (F := Ideal) S_ .f32 0x00000000#32)))
        (addf (maximumf Y (broadcastInDim S65536x512 ![] bcast_S_S65536x512 (constant (F := Ideal) S_ .f32 0x00000000#32))) (Host.log1p (Host.exp (Host.negf (Host.absf (subf Y (broadcastInDim S65536x512 ![] bcast_S_S65536x512 (constant (F := Ideal) S_ .f32 0x00000000#32)))))))) i = sp (Y i) := by
  show Scalar.select (Ideal.cmp .une (Y i - Ideal.ofBits .f32 0x00000000#32) (Y i - Ideal.ofBits .f32 0x00000000#32))
      (Y i + Ideal.ofBits .f32 0x00000000#32)
      (max (Y i) (Ideal.ofBits .f32 0x00000000#32) + Ideal.log1p (Ideal.exp (-(max (Y i - Ideal.ofBits .f32 0x00000000#32)
        (-(Y i - Ideal.ofBits .f32 0x00000000#32)))))) = sp (Y i)
  rw [Ideal.ofBits_zero_f32, sub_zero]
  have h0 : Ideal.cmp .une (Y i) (Y i) = 0#1 := by simp [Ideal.cmp]
  rw [h0, select_zero]
  rfl

/-- The derivative factor: `e^(y - sp y)` with an infinite term replaced by `0`. -/
theorem dspR_apply (Y S : FVec Ideal S65536x512 .f32) (i : S65536x512.Idx) (hS : S i = sp (Y i)) :
    Host.exp (subf (select (cmpf .oeq Y (broadcastInDim S65536x512 ![] bcast_S_S65536x512 (constant (F := Ideal) S_ .f32 0x7F800000#32))) (broadcastInDim S65536x512 ![] bcast_S_S65536x512 (constant (F := Ideal) S_ .f32 0x00000000#32)) Y) (select (cmpf .oeq S (broadcastInDim S65536x512 ![] bcast_S_S65536x512 (constant (F := Ideal) S_ .f32 0x7F800000#32))) (broadcastInDim S65536x512 ![] bcast_S_S65536x512 (constant (F := Ideal) S_ .f32 0x00000000#32)) S)) i = dsp (Y i) := by
  show Ideal.exp (Scalar.select (Ideal.cmp .oeq (Y i) (Ideal.ofBits .f32 0x7F800000#32)) (Ideal.ofBits .f32 0x00000000#32) (Y i)
      - Scalar.select (Ideal.cmp .oeq (S i) (Ideal.ofBits .f32 0x7F800000#32)) (Ideal.ofBits .f32 0x00000000#32) (S i)) = dsp (Y i)
  rw [sel_inf, sel_inf, hS]
  rfl

variable (m : (ℓ : Loc nD τ sig) → Buf (Elt Ideal) ℓ) (c : Dev nD)

/-- Softplus call 0: the primal result, entry by entry. -/
theorem sp_at_0 (i : S65536x512.Idx) : fin m c main_v7_0 i = sp (fin m c main_v6 i) := by
  rw [fin_main_v7_0 m c, fin_main_call0_v4 m c, fin_main_call0_v6 m c, fin_main_call0_v11 m c, fin_main_call0_v1 m c, fin_main_call0_v10 m c, fin_main_call0_v9 m c, fin_main_call0_v8 m c, fin_main_call0_v7 m c, fin_main_call0_v3 m c, fin_main_call0_v0 m c, fin_main_call0_v2 m c, fin_main_call0_v5 m c, fin_main_call0_cst m c]
  exact spR_apply _ i

/-- Softplus call 0: the derivative factor, entry by entry. -/
theorem dsp_at_0 (i : S65536x512.Idx) : fin m c main_v7_1 i = dsp (fin m c main_v6 i) := by
  rw [fin_main_v7_1 m c, fin_main_call0_v21 m c, fin_main_call0_v16 m c, fin_main_call0_v20 m c, fin_main_call0_v14 m c, fin_main_call0_v15 m c, fin_main_call0_v18 m c, fin_main_call0_v19 m c, fin_main_call0_v13 m c, fin_main_call0_v17 m c, fin_main_call0_cst_0 m c, fin_main_call0_cst_1 m c, fin_main_call0_cst_2 m c, fin_main_call0_cst_3 m c]
  exact dspR_apply _ _ i (sp_at_0 m c i)

/-- Softplus call 1: the primal result, entry by entry. -/
theorem sp_at_1 (i : S65536x512.Idx) : fin m c main_v16_0 i = sp (fin m c main_v15 i) := by
  rw [fin_main_v16_0 m c, fin_main_call1_v4 m c, fin_main_call1_v6 m c, fin_main_call1_v11 m c, fin_main_call1_v1 m c, fin_main_call1_v10 m c, fin_main_call1_v9 m c, fin_main_call1_v8 m c, fin_main_call1_v7 m c, fin_main_call1_v3 m c, fin_main_call1_v0 m c, fin_main_call1_v2 m c, fin_main_call1_v5 m c, fin_main_call1_cst m c]
  exact spR_apply _ i

/-- Softplus call 1: the derivative factor, entry by entry. -/
theorem dsp_at_1 (i : S65536x512.Idx) : fin m c main_v16_1 i = dsp (fin m c main_v15 i) := by
  rw [fin_main_v16_1 m c, fin_main_call1_v21 m c, fin_main_call1_v16 m c, fin_main_call1_v20 m c, fin_main_call1_v14 m c, fin_main_call1_v15 m c, fin_main_call1_v18 m c, fin_main_call1_v19 m c, fin_main_call1_v13 m c, fin_main_call1_v17 m c, fin_main_call1_cst_0 m c, fin_main_call1_cst_1 m c, fin_main_call1_cst_2 m c, fin_main_call1_cst_3 m c]
  exact dspR_apply _ _ i (sp_at_1 m c i)

/-- Softplus call 2: the primal result, entry by entry. -/
theorem sp_at_2 (i : S65536x512.Idx) : fin m c main_v25_0 i = sp (fin m c main_v24 i) := by
  rw [fin_main_v25_0 m c, fin_main_call2_v4 m c, fin_main_call2_v6 m c, fin_main_call2_v11 m c, fin_main_call2_v1 m c, fin_main_call2_v10 m c, fin_main_call2_v9 m c, fin_main_call2_v8 m c, fin_main_call2_v7 m c, fin_main_call2_v3 m c, fin_main_call2_v0 m c, fin_main_call2_v2 m c, fin_main_call2_v5 m c, fin_main_call2_cst m c]
  exact spR_apply _ i

/-- Softplus call 2: the derivative factor, entry by entry. -/
theorem dsp_at_2 (i : S65536x512.Idx) : fin m c main_v25_1 i = dsp (fin m c main_v24 i) := by
  rw [fin_main_v25_1 m c, fin_main_call2_v21 m c, fin_main_call2_v16 m c, fin_main_call2_v20 m c, fin_main_call2_v14 m c, fin_main_call2_v15 m c, fin_main_call2_v18 m c, fin_main_call2_v19 m c, fin_main_call2_v13 m c, fin_main_call2_v17 m c, fin_main_call2_cst_0 m c, fin_main_call2_cst_1 m c, fin_main_call2_cst_2 m c, fin_main_call2_cst_3 m c]
  exact dspR_apply _ _ i (sp_at_2 m c i)

/-- Softplus call 3: the primal result, entry by entry. -/
theorem sp_at_3 (i : S65536x512.Idx) : fin m c main_v34_0 i = sp (fin m c main_v33 i) := by
  rw [fin_main_v34_0 m c, fin_main_call3_v4 m c, fin_main_call3_v6 m c, fin_main_call3_v11 m c, fin_main_call3_v1 m c, fin_main_call3_v10 m c, fin_main_call3_v9 m c, fin_main_call3_v8 m c, fin_main_call3_v7 m c, fin_main_call3_v3 m c, fin_main_call3_v0 m c, fin_main_call3_v2 m c, fin_main_call3_v5 m c, fin_main_call3_cst m c]
  exact spR_apply _ i

/-- Softplus call 3: the derivative factor, entry by entry. -/
theorem dsp_at_3 (i : S65536x512.Idx) : fin m c main_v34_1 i = dsp (fin m c main_v33 i) := by
  rw [fin_main_v34_1 m c, fin_main_call3_v21 m c, fin_main_call3_v16 m c, fin_main_call3_v20 m c, fin_main_call3_v14 m c, fin_main_call3_v15 m c, fin_main_call3_v18 m c, fin_main_call3_v19 m c, fin_main_call3_v13 m c, fin_main_call3_v17 m c, fin_main_call3_cst_0 m c, fin_main_call3_cst_1 m c, fin_main_call3_cst_2 m c, fin_main_call3_cst_3 m c]
  exact dspR_apply _ _ i (sp_at_3 m c i)

/-! ## The layers -/

/-- The weights the memory holds. -/
def PR : Params :=
  paramsOf (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))

/-- The samples the memory holds. -/
def X (b : Fin 65536) : Fin 64 → EReal := sample (m ((c.tc : Thread nD τ).loc main_arg0)) b

theorem x_at (b : Fin 65536) (k : Fin 64) : fin m c main_v1 (ix2 b k) = X m c b k := by
  rw [fin_main_v1 m c, fin_main_v0 m c, fin_main_cst m c, fin_main_arg0 m c]
  rfl

theorem pre0_at (b : Fin 65536) (h : Fin 512) : fin m c main_v6 (ix2 b h) = pre0 (PR m c) (X m c b) h := by
  rw [fin_main_v6 m c, fin_main_v3 m c, fin_main_v2 m c, fin_main_v5 m c, fin_main_v4 m c, fin_main_arg1 m c, fin_main_arg2 m c]
  exact (congrArg₂ (· + ·)
    (dotT_64 (fin m c main_v1) (m ((c.tc : Thread nD τ).loc main_arg1)) (X m c) (PR m c).Wz0 (x_at m c) (fun _ _ => rfl) b h)
    (bias_at (m ((c.tc : Thread nD τ).loc main_arg2)) b h)).trans rfl

theorem pre1_at (b : Fin 65536) (h : Fin 512) : fin m c main_v15 (ix2 b h) = pre1 (PR m c) (X m c b) h := by
  rw [fin_main_v15 m c, fin_main_v12 m c, fin_main_v9 m c, fin_main_v8 m c, fin_main_v11 m c, fin_main_v10 m c, fin_main_v14 m c, fin_main_v13 m c, fin_main_arg3 m c, fin_main_arg7 m c, fin_main_arg8 m c]
  exact (congrArg₂ (· + ·) (congrArg₂ (· + ·)
    (dotT_512 (fin m c main_v7_0) (m ((c.tc : Thread nD τ).loc main_arg3)) (fun b j => sp (pre0 (PR m c) (X m c b) j)) (PR m c).Wz1
      (fun b j => (sp_at_0 m c (ix2 b j)).trans (congrArg sp (pre0_at m c b j))) (fun _ _ => rfl) b h)
    (dotT_64 (fin m c main_v1) (m ((c.tc : Thread nD τ).loc main_arg7)) (X m c) (PR m c).Wx0 (x_at m c) (fun _ _ => rfl) b h))
    (bias_at (m ((c.tc : Thread nD τ).loc main_arg8)) b h)).trans rfl

theorem pre2_at (b : Fin 65536) (h : Fin 512) : fin m c main_v24 (ix2 b h) = pre2 (PR m c) (X m c b) h := by
  rw [fin_main_v24 m c, fin_main_v21 m c, fin_main_v18 m c, fin_main_v17 m c, fin_main_v20 m c, fin_main_v19 m c, fin_main_v23 m c, fin_main_v22 m c, fin_main_arg4 m c, fin_main_arg9 m c, fin_main_arg10 m c]
  exact (congrArg₂ (· + ·) (congrArg₂ (· + ·)
    (dotT_512 (fin m c main_v16_0) (m ((c.tc : Thread nD τ).loc main_arg4)) (fun b j => sp (pre1 (PR m c) (X m c b) j)) (PR m c).Wz2
      (fun b j => (sp_at_1 m c (ix2 b j)).trans (congrArg sp (pre1_at m c b j))) (fun _ _ => rfl) b h)
    (dotT_64 (fin m c main_v1) (m ((c.tc : Thread nD τ).loc main_arg9)) (X m c) (PR m c).Wx1 (x_at m c) (fun _ _ => rfl) b h))
    (bias_at (m ((c.tc : Thread nD τ).loc main_arg10)) b h)).trans rfl

theorem pre3_at (b : Fin 65536) (h : Fin 512) : fin m c main_v33 (ix2 b h) = pre3 (PR m c) (X m c b) h := by
  rw [fin_main_v33 m c, fin_main_v30 m c, fin_main_v27 m c, fin_main_v26 m c, fin_main_v29 m c, fin_main_v28 m c, fin_main_v32 m c, fin_main_v31 m c, fin_main_arg5 m c, fin_main_arg11 m c, fin_main_arg12 m c]
  exact (congrArg₂ (· + ·) (congrArg₂ (· + ·)
    (dotT_512 (fin m c main_v25_0) (m ((c.tc : Thread nD τ).loc main_arg5)) (fun b j => sp (pre2 (PR m c) (X m c b) j)) (PR m c).Wz3
      (fun b j => (sp_at_2 m c (ix2 b j)).trans (congrArg sp (pre2_at m c b j))) (fun _ _ => rfl) b h)
    (dotT_64 (fin m c main_v1) (m ((c.tc : Thread nD τ).loc main_arg11)) (X m c) (PR m c).Wx2 (x_at m c) (fun _ _ => rfl) b h))
    (bias_at (m ((c.tc : Thread nD τ).loc main_arg12)) b h)).trans rfl

/-- The logistic factor of layer `k`, from its softplus call. -/
theorem sig0_at (b : Fin 65536) (h : Fin 512) : fin m c main_v7_1 (ix2 b h) = Ideal.logistic (pre0 (PR m c) (X m c b) h) :=
  (dsp_at_0 m c (ix2 b h)).trans ((dsp_eq_logistic _).trans (congrArg Ideal.logistic (pre0_at m c b h)))
theorem sig1_at (b : Fin 65536) (h : Fin 512) : fin m c main_v16_1 (ix2 b h) = Ideal.logistic (pre1 (PR m c) (X m c b) h) :=
  (dsp_at_1 m c (ix2 b h)).trans ((dsp_eq_logistic _).trans (congrArg Ideal.logistic (pre1_at m c b h)))
theorem sig2_at (b : Fin 65536) (h : Fin 512) : fin m c main_v25_1 (ix2 b h) = Ideal.logistic (pre2 (PR m c) (X m c b) h) :=
  (dsp_at_2 m c (ix2 b h)).trans ((dsp_eq_logistic _).trans (congrArg Ideal.logistic (pre2_at m c b h)))
theorem sig3_at (b : Fin 65536) (h : Fin 512) : fin m c main_v34_1 (ix2 b h) = Ideal.logistic (pre3 (PR m c) (X m c b) h) :=
  (dsp_at_3 m c (ix2 b h)).trans ((dsp_eq_logistic _).trans (congrArg Ideal.logistic (pre3_at m c b h)))

theorem g3_at (b : Fin 65536) (h : Fin 512) : fin m c main_v44 (ix2 b h) = g3 (PR m c) (X m c b) h := by
  rw [fin_main_v44 m c, fin_main_v43 m c, fin_main_v41 m c, fin_main_cst_1 m c, fin_main_v35 m c, fin_main_arg6 m c]
  exact (congrArg₂ (· * ·) (ones_512 (m ((c.tc : Thread nD τ).loc main_arg6)) b h) (sig3_at m c b h)).trans rfl

theorem g2_at (b : Fin 65536) (h : Fin 512) : fin m c main_v48 (ix2 b h) = g2 (PR m c) (X m c b) h := by
  rw [fin_main_v48 m c, fin_main_v47 m c, fin_main_v26 m c, fin_main_arg5 m c]
  exact (congrArg₂ (· * ·)
    (dotB_512 (fin m c main_v44) (m ((c.tc : Thread nD τ).loc main_arg5)) _ (PR m c).Wz3 (g3_at m c) (fun _ _ => rfl) b h) (sig2_at m c b h)).trans rfl

theorem g1_at (b : Fin 65536) (h : Fin 512) : fin m c main_v52 (ix2 b h) = g1 (PR m c) (X m c b) h := by
  rw [fin_main_v52 m c, fin_main_v51 m c, fin_main_v17 m c, fin_main_arg4 m c]
  exact (congrArg₂ (· * ·)
    (dotB_512 (fin m c main_v48) (m ((c.tc : Thread nD τ).loc main_arg4)) _ (PR m c).Wz2 (g2_at m c) (fun _ _ => rfl) b h) (sig1_at m c b h)).trans rfl

theorem g0_at (b : Fin 65536) (h : Fin 512) : fin m c main_v56 (ix2 b h) = g0 (PR m c) (X m c b) h := by
  rw [fin_main_v56 m c, fin_main_v55 m c, fin_main_v8 m c, fin_main_arg3 m c]
  exact (congrArg₂ (· * ·)
    (dotB_512 (fin m c main_v52) (m ((c.tc : Thread nD τ).loc main_arg3)) _ (PR m c).Wz1 (g1_at m c) (fun _ _ => rfl) b h) (sig0_at m c b h)).trans rfl

/-- The result array is the gradient, row by row. -/
theorem result_at (b : Fin 65536) (d : Fin 64) : fin m c main_v58 (ix2 b d) = grad (PR m c) (X m c b) d := by
  rw [fin_main_v58 m c, fin_main_v54 m c, fin_main_v50 m c, fin_main_v46 m c, fin_main_v42 m c, fin_main_v45 m c, fin_main_v49 m c, fin_main_v53 m c, fin_main_v57 m c, fin_main_v41 m c, fin_main_cst_1 m c, fin_main_v37 m c, fin_main_v28 m c, fin_main_v19 m c, fin_main_v10 m c, fin_main_v2 m c, fin_main_arg13 m c, fin_main_arg11 m c, fin_main_arg9 m c, fin_main_arg7 m c, fin_main_arg1 m c]
  exact (congrArg₂ (· + ·) (congrArg₂ (· + ·) (congrArg₂ (· + ·) (congrArg₂ (· + ·)
    (ones_64 (m ((c.tc : Thread nD τ).loc main_arg13)) b d)
    (dotB_64 (fin m c main_v44) (m ((c.tc : Thread nD τ).loc main_arg11)) _ (PR m c).Wx2 (g3_at m c) (fun _ _ => rfl) b d))
    (dotB_64 (fin m c main_v48) (m ((c.tc : Thread nD τ).loc main_arg9)) _ (PR m c).Wx1 (g2_at m c) (fun _ _ => rfl) b d))
    (dotB_64 (fin m c main_v52) (m ((c.tc : Thread nD τ).loc main_arg7)) _ (PR m c).Wx0 (g1_at m c) (fun _ _ => rfl) b d))
    (dotB_64 (fin m c main_v56) (m ((c.tc : Thread nD τ).loc main_arg1)) _ (PR m c).Wz0 (g0_at m c) (fun _ _ => rfl) b d)).trans
    (grad_reversed (PR m c) (X m c b) d)

/-- The result array after the run is `gradArr` of the input arrays. -/
theorem result_eq : fin m c main_v58 = gradArr (m ((c.tc : Thread nD τ).loc main_arg0)) (PR m c) := by
  funext i
  obtain ⟨b, d, rfl⟩ : ∃ (b : Fin 65536) (d : Fin 64), i = ix2 b d := ⟨i 0, i 1, eq_ix2 i⟩
  exact result_at m c b d

end Cert.Icnn.RefLayers

end
-- ==== Proof.lean ====
/-
  The kernel computes, tile by tile, the gradient of an input-convex network's summed output with respect to each
  sample, by running the chain rule by hand with the logistic function as softplus's derivative; the reference obtains
  the same gradient by differentiating the network's summed output, which spells that derivative as `e^(x - softplus x)`.
  On the extended reals the two derivative factors are one function (Proof/SoftplusDeriv.lean), a matrix product into a
  zero accumulator and the host's product are the same sum, a change of float format is the identity, and the four
  contributions to the gradient are added in opposite orders, which addition does not see. Both programs therefore end
  with the array whose row `b` is `grad` of sample `b` (Proof/Net.lean): the kernel by Proof/Cover.lean over
  Proof/TileValue.lean, the reference by Proof/RefLayers.lean over its line of operations read one array at a time
  (Proof/RefLine.lean, Proof/RefValues.lean). No finiteness of the inputs is used.
-/
import proofs.«125153_j75711683494298_1_alg».proof.Defs
import proofs.«125153_j75711683494298_1_alg».proof.Proof.Gen.Kernel
import proofs.«125153_j75711683494298_1_alg».proof.Proof.Gen.Kernel.Frame
import proofs.«125153_j75711683494298_1_alg».proof.Proof.Gen.KernelIdeal
import proofs.«125153_j75711683494298_1_alg».proof.Proof.Gen.KernelIdeal.Frame
import proofs.«125153_j75711683494298_1_alg».proof.Proof.Gen.KernelIdeal.Value
import proofs.«125153_j75711683494298_1_alg».proof.Proof.Gen.ReferenceIdeal
import proofs.«125153_j75711683494298_1_alg».proof.Proof.Gen.Pre_finite_inputs
import proofs.«125153_j75711683494298_1_alg».proof.Proof.Cover
import proofs.«125153_j75711683494298_1_alg».proof.Proof.RefLayers
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's line assigns none of its input arrays. -/
theorem frame_ri : Cert.frame_ReferenceIdeal := fun m ρ _ =>
  (θ_run Cert.ReferenceIdeal.defs _ _).mono (fun _ h c =>
    ⟨(h c Cert.ReferenceIdeal.main_arg0).trans (Cert.Icnn.RefLine.fin_main_arg0 _ c),
     (h c Cert.ReferenceIdeal.main_arg1).trans (Cert.Icnn.RefLine.fin_main_arg1 _ c),
     (h c Cert.ReferenceIdeal.main_arg2).trans (Cert.Icnn.RefLine.fin_main_arg2 _ c),
     (h c Cert.ReferenceIdeal.main_arg3).trans (Cert.Icnn.RefLine.fin_main_arg3 _ c),
     (h c Cert.ReferenceIdeal.main_arg4).trans (Cert.Icnn.RefLine.fin_main_arg4 _ c),
     (h c Cert.ReferenceIdeal.main_arg5).trans (Cert.Icnn.RefLine.fin_main_arg5 _ c),
     (h c Cert.ReferenceIdeal.main_arg6).trans (Cert.Icnn.RefLine.fin_main_arg6 _ c),
     (h c Cert.ReferenceIdeal.main_arg7).trans (Cert.Icnn.RefLine.fin_main_arg7 _ c),
     (h c Cert.ReferenceIdeal.main_arg8).trans (Cert.Icnn.RefLine.fin_main_arg8 _ c),
     (h c Cert.ReferenceIdeal.main_arg9).trans (Cert.Icnn.RefLine.fin_main_arg9 _ c),
     (h c Cert.ReferenceIdeal.main_arg10).trans (Cert.Icnn.RefLine.fin_main_arg10 _ c),
     (h c Cert.ReferenceIdeal.main_arg11).trans (Cert.Icnn.RefLine.fin_main_arg11 _ c),
     (h c Cert.ReferenceIdeal.main_arg12).trans (Cert.Icnn.RefLine.fin_main_arg12 _ c),
     (h c Cert.ReferenceIdeal.main_arg13).trans (Cert.Icnn.RefLine.fin_main_arg13 _ c)⟩)
    (Cert.Icnn.RefLine.run (F := Ideal) m ρ)

theorem preserves : Cert.preserves_Kernel_KernelIdeal := trivial

/-- Both programs end with the array of per-sample gradients of the (agreeing) input arrays. -/
theorem algebraic : Cert.algebraic_KernelIdeal_ReferenceIdeal := by
  intro m ρ m' ρ' _ hagree
  refine ⟨fun c => Cert.Icnn.gradArr (m ((c : Thread Cert.KernelIdeal.nD Cert.KernelIdeal.τ).loc Cert.KernelIdeal.main_arg0))
    (Cert.Icnn.Tile.PK m c), Cert.Icnn.Tile.run m ρ, ?_⟩
  refine (θ_run Cert.ReferenceIdeal.defs _ _).mono (fun _ h c => ⟨?_,
     (h c Cert.ReferenceIdeal.main_arg0).trans (Cert.Icnn.RefLine.fin_main_arg0 _ c),
     (h c Cert.ReferenceIdeal.main_arg1).trans (Cert.Icnn.RefLine.fin_main_arg1 _ c),
     (h c Cert.ReferenceIdeal.main_arg2).trans (Cert.Icnn.RefLine.fin_main_arg2 _ c),
     (h c Cert.ReferenceIdeal.main_arg3).trans (Cert.Icnn.RefLine.fin_main_arg3 _ c),
     (h c Cert.ReferenceIdeal.main_arg4).trans (Cert.Icnn.RefLine.fin_main_arg4 _ c),
     (h c Cert.ReferenceIdeal.main_arg5).trans (Cert.Icnn.RefLine.fin_main_arg5 _ c),
     (h c Cert.ReferenceIdeal.main_arg6).trans (Cert.Icnn.RefLine.fin_main_arg6 _ c),
     (h c Cert.ReferenceIdeal.main_arg7).trans (Cert.Icnn.RefLine.fin_main_arg7 _ c),
     (h c Cert.ReferenceIdeal.main_arg8).trans (Cert.Icnn.RefLine.fin_main_arg8 _ c),
     (h c Cert.ReferenceIdeal.main_arg9).trans (Cert.Icnn.RefLine.fin_main_arg9 _ c),
     (h c Cert.ReferenceIdeal.main_arg10).trans (Cert.Icnn.RefLine.fin_main_arg10 _ c),
     (h c Cert.ReferenceIdeal.main_arg11).trans (Cert.Icnn.RefLine.fin_main_arg11 _ c),
     (h c Cert.ReferenceIdeal.main_arg12).trans (Cert.Icnn.RefLine.fin_main_arg12 _ c),
     (h c Cert.ReferenceIdeal.main_arg13).trans (Cert.Icnn.RefLine.fin_main_arg13 _ c)⟩)
    (Cert.Icnn.RefLine.run (F := Ideal) m' ρ')
  refine (h c Cert.ReferenceIdeal.main_v58).trans ((Cert.Icnn.RefLayers.result_eq m' c).trans ?_)
  obtain ⟨e0, e1, e2, e3, e4, e5, e6, e7, e8, e9, e10, e11, e12, e13⟩ := hagree c
  unfold Cert.Icnn.RefLayers.PR Cert.Icnn.Tile.PK
  rw [e0, e1, e2, e3, e4, e5, e6, e7, e8, e9, e10, e11, e12, e13]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
